-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v109) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x2048 : Shape := ⟨2, ![8192, 2048]⟩
abbrev S1024x1024 : Shape := ⟨2, ![1024, 1024]⟩
abbrev S1024 : Shape := ⟨1, ![1024]⟩
abbrev S1024x2048 : Shape := ⟨2, ![1024, 2048]⟩
abbrev S2048x1024 : Shape := ⟨2, ![2048, 1024]⟩
abbrev S2048 : Shape := ⟨1, ![2048]⟩
abbrev S1 : Shape := ⟨1, ![1]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_
  bcast_S_S1 : S_.BroadcastsInDim S1 (![] : Fin 0 → Fin S1.rank)
  reducesTo_S1_S_d0 : S1.ReducesTo [0] S_

variable [Facts]

def fn_part6 {F : FTy → Type} [FloatOps F] (main_arg21 : FVec F S1024 .f32) (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  let main_v104 : FVec F S1024 .f32 := Host.absf main_arg21
  let main_cst_40 : FVec F S_ .f32 := constant S_ .f32 0x7F800000#32
  let main_v105 : FVec F S1024 .f32 := broadcastInDim S1024 ![] bcast_S_S1024 main_cst_40
  let main_v106 : IVec S1024 1 := cmpf .olt main_v104 main_v105
  let main_c_41 : IVec S_ 1 := constantI S_ 1 1#1
  let main_v107 : IVec S_ 1 := (fun x v => Host.reduce IntOp.andi x v reducesTo_S1024_S_d0 h_S_) main_v106 main_c_41
  let main_v108 : IVec S_ 1 := andi main_v103 main_v107
  main_v108

def fn_part5 {F : FTy → Type} [FloatOps F] (main_arg18 : FVec F S2048 .f32) (main_arg19 : FVec F S1024 .f32) (main_arg20 : FVec F S1 .f32) (main_arg21 : FVec F S1024 .f32) (main_v83 : IVec S_ 1) (main_v84 : FVec F S2048x1024 .f32) (main_cst_32 : FVec F S_ .f32) : IVec S_ 1 :=
  let main_v85 : FVec F S2048x1024 .f32 := broadcastInDim S2048x1024 ![] bcast_S_S2048x1024 main_cst_32
  let main_v86 : IVec S2048x1024 1 := cmpf .olt main_v84 main_v85
  let main_c_33 : IVec S_ 1 := constantI S_ 1 1#1
  let main_v87 : IVec S_ 1 := (fun x v => Host.reduce IntOp.andi x v reducesTo_S2048x1024_S_d0_1 h_S_) main_v86 main_c_33
  let main_v88 : IVec S_ 1 := andi main_v83 main_v87
  let main_v89 : FVec F S2048 .f32 := Host.absf main_arg18
  let main_cst_34 : FVec F S_ .f32 := constant S_ .f32 0x7F800000#32
  let main_v90 : FVec F S2048 .f32 := broadcastInDim S2048 ![] bcast_S_S2048 main_cst_34
  let main_v91 : IVec S2048 1 := cmpf .olt main_v89 main_v90
  let main_c_35 : IVec S_ 1 := constantI S_ 1 1#1
  let main_v92 : IVec S_ 1 := (fun x v => Host.reduce IntOp.andi x v reducesTo_S2048_S_d0 h_S_) main_v91 main_c_35
  let main_v93 : IVec S_ 1 := andi main_v88 main_v92
  let main_v94 : FVec F S1024 .f32 := Host.absf main_arg19
  let main_cst_36 : FVec F S_ .f32 := constant S_ .f32 0x7F800000#32
  let main_v95 : FVec F S1024 .f32 := broadcastInDim S1024 ![] bcast_S_S1024 main_cst_36
  let main_v96 : IVec S1024 1 := cmpf .olt main_v94 main_v95
  let main_c_37 : IVec S_ 1 := constantI S_ 1 1#1
  let main_v97 : IVec S_ 1 := (fun x v => Host.reduce IntOp.andi x v reducesTo_S1024_S_d0 h_S_) main_v96 main_c_37
  let main_v98 : IVec S_ 1 := andi main_v93 main_v97
  let main_v99 : FVec F S1 .f32 := Host.absf main_arg20
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_arg21 main_v98 main_v101 main_c_39

def fn_part4 {F : FTy → Type} [FloatOps F] (main_arg14 : FVec F S2048 .f32) (main_arg15 : FVec F S2048x1024 .f32) (main_arg16 : FVec F S2048 .f32) (main_arg17 : FVec F S2048x1024 .f32) (main_arg18 : FVec F S2048 .f32) (main_arg19 : FVec F S1024 .f32) (main_arg20 : FVec F S1 .f32) (main_arg21 : FVec F S1024 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  let main_v74 : FVec F S2048x1024 .f32 := Host.absf main_arg15
  let main_cst_28 : FVec F S_ .f32 := constant S_ .f32 0x7F800000#32
  let main_v75 : FVec F S2048x1024 .f32 := broadcastInDim S2048x1024 ![] bcast_S_S2048x1024 main_cst_28
  let main_v76 : IVec S2048x1024 1 := cmpf .olt main_v74 main_v75
  let main_c_29 : IVec S_ 1 := constantI S_ 1 1#1
  let main_v77 : IVec S_ 1 := (fun x v => Host.reduce IntOp.andi x v reducesTo_S2048x1024_S_d0_1 h_S_) main_v76 main_c_29
  let main_v78 : IVec S_ 1 := andi main_v73 main_v77
  let main_v79 : FVec F S2048 .f32 := Host.absf main_arg16
  let main_cst_30 : FVec F S_ .f32 := constant S_ .f32 0x7F800000#32
  let main_v80 : FVec F S2048 .f32 := broadcastInDim S2048 ![] bcast_S_S2048 main_cst_30
  let main_v81 : IVec S2048 1 := cmpf .olt main_v79 main_v80
  let main_c_31 : IVec S_ 1 := constantI S_ 1 1#1
  let main_v82 : IVec S_ 1 := (fun x v => Host.reduce IntOp.andi x v reducesTo_S2048_S_d0 h_S_) main_v81 main_c_31
  let main_v83 : IVec S_ 1 := andi main_v78 main_v82
  let main_v84 : FVec F S2048x1024 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S2048x1024 .f32) (main_arg12 : FVec F S2048 .f32) (main_arg13 : FVec F S2048x1024 .f32) (main_arg14 : FVec F S2048 .f32) (main_arg15 : FVec F S2048x1024 .f32) (main_arg16 : FVec F S2048 .f32) (main_arg17 : FVec F S2048x1024 .f32) (main_arg18 : FVec F S2048 .f32) (main_arg19 : FVec F S1024 .f32) (main_arg20 : FVec F S1 .f32) (main_arg21 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S2048x1024 .f32 := Host.absf main_arg11
  let main_cst_20 : FVec F S_ .f32 := constant S_ .f32 0x7F800000#32
  let main_v55 : FVec F S2048x1024 .f32 := broadcastInDim S2048x1024 ![] bcast_S_S2048x1024 main_cst_20
  let main_v56 : IVec S2048x1024 1 := cmpf .olt main_v54 main_v55
  let main_c_21 : IVec S_ 1 := constantI S_ 1 1#1
  let main_v57 : IVec S_ 1 := (fun x v => Host.reduce IntOp.andi x v reducesTo_S2048x1024_S_d0_1 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048x1024 .f32 := Host.absf main_arg13
  let main_cst_24 : FVec F S_ .f32 := constant S_ .f32 0x7F800000#32
  let main_v65 : FVec F S2048x1024 .f32 := broadcastInDim S2048x1024 ![] bcast_S_S2048x1024 main_cst_24
  let main_v66 : IVec S2048x1024 1 := cmpf .olt main_v64 main_v65
  let main_c_25 : IVec S_ 1 := constantI S_ 1 1#1
  let main_v67 : IVec S_ 1 := (fun x v => Host.reduce IntOp.andi x v reducesTo_S2048x1024_S_d0_1 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S1024x2048 .f32) (main_arg8 : FVec F S1024 .f32) (main_arg9 : FVec F S1024x2048 .f32) (main_arg10 : FVec F S1024 .f32) (main_arg11 : FVec F S2048x1024 .f32) (main_arg12 : FVec F S2048 .f32) (main_arg13 : FVec F S2048x1024 .f32) (main_arg14 : FVec F S2048 .f32) (main_arg15 : FVec F S2048x1024 .f32) (main_arg16 : FVec F S2048 .f32) (main_arg17 : FVec F S2048x1024 .f32) (main_arg18 : FVec F S2048 .f32) (main_arg19 : FVec F S1024 .f32) (main_arg20 : FVec F S1 .f32) (main_arg21 : FVec F S1024 .f32) (main_v33 : IVec S_ 1) : IVec S_ 1 :=
  let main_v34 : FVec F S1024x2048 .f32 := Host.absf main_arg7
  let main_cst_12 : FVec F S_ .f32 := constant S_ .f32 0x7F800000#32
  let main_v35 : FVec F S1024x2048 .f32 := broadcastInDim S1024x2048 ![] bcast_S_S1024x2048 main_cst_12
  let main_v36 : IVec S1024x2048 1 := cmpf .olt main_v34 main_v35
  let main_c_13 : IVec S_ 1 := constantI S_ 1 1#1
  let main_v37 : IVec S_ 1 := (fun x v => Host.reduce IntOp.andi x v reducesTo_S1024x2048_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x2048 .f32 := Host.absf main_arg9
  let main_cst_16 : FVec F S_ .f32 := constant S_ .f32 0x7F800000#32
  let main_v45 : FVec F S1024x2048 .f32 := broadcastInDim S1024x2048 ![] bcast_S_S1024x2048 main_cst_16
  let main_v46 : IVec S1024x2048 1 := cmpf .olt main_v44 main_v45
  let main_c_17 : IVec S_ 1 := constantI S_ 1 1#1
  let main_v47 : IVec S_ 1 := (fun x v => Host.reduce IntOp.andi x v reducesTo_S1024x2048_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) (main_arg11 : FVec F S2048x1024 .f32) (main_arg12 : FVec F S2048 .f32) (main_arg13 : FVec F S2048x1024 .f32) (main_arg14 : FVec F S2048 .f32) (main_arg15 : FVec F S2048x1024 .f32) (main_arg16 : FVec F S2048 .f32) (main_arg17 : FVec F S2048x1024 .f32) (main_arg18 : FVec F S2048 .f32) (main_arg19 : FVec F S1024 .f32) (main_arg20 : FVec F S1 .f32) (main_arg21 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S8192x1024 .f32) (main_arg1 : FVec F S8192x1024 .f32) (main_arg2 : FVec F S8192x2048 .f32) (main_arg3 : FVec F S1024x1024 .f32) (main_arg4 : FVec F S1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) (main_arg11 : FVec F S2048x1024 .f32) (main_arg12 : FVec F S2048 .f32) (main_arg13 : FVec F S2048x1024 .f32) (main_arg14 : FVec F S2048 .f32) (main_arg15 : FVec F S2048x1024 .f32) (main_arg16 : FVec F S2048 .f32) (main_arg17 : FVec F S2048x1024 .f32) (main_arg18 : FVec F S2048 .f32) (main_arg19 : FVec F S1024 .f32) (main_arg20 : FVec F S1 .f32) (main_arg21 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S8192x1024 : Shape := ⟨2, ![8192, 1024]⟩
abbrev S8192x2048 : Shape := ⟨2, ![8192, 2048]⟩
abbrev S1024x1024 : Shape := ⟨2, ![1024, 1024]⟩
abbrev S1024 : Shape := ⟨1, ![1024]⟩
abbrev S1024x2048 : Shape := ⟨2, ![1024, 2048]⟩
abbrev S2048x1024 : Shape := ⟨2, ![2048, 1024]⟩
abbrev S2048 : Shape := ⟨1, ![2048]⟩
abbrev S1 : Shape := ⟨1, ![1]⟩
abbrev S1x1024 : Shape := ⟨2, ![1, 1024]⟩
abbrev S1x2048 : Shape := ⟨2, ![1, 2048]⟩
abbrev S1x1 : Shape := ⟨2, ![1, 1]⟩
abbrev S2048x2048 : Shape := ⟨2, ![2048, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 44
  | .vmem => 32
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x2048, .f32⟩
  | .hbm, ⟨3, _⟩ => ⟨S1024x1024, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S1024, .f32⟩
  | .hbm, ⟨11, _⟩ => ⟨S2048x1024, .f32⟩
  | .hbm, ⟨12, _⟩ => ⟨S2048, .f32⟩
  | .hbm, ⟨13, _⟩ => ⟨S2048x1024, .f32⟩
  | .hbm, ⟨14, _⟩ => ⟨S2048, .f32⟩
  | .hbm, ⟨15, _⟩ => ⟨S2048x1024, .f32⟩
  | .hbm, ⟨16, _⟩ => ⟨S2048, .f32⟩
  | .hbm, ⟨17, _⟩ => ⟨S2048x1024, .f32⟩
  | .hbm, ⟨18, _⟩ => ⟨S2048, .f32⟩
  | .hbm, ⟨19, _⟩ => ⟨S1024, .f32⟩
  | .hbm, ⟨20, _⟩ => ⟨S1, .f32⟩
  | .hbm, ⟨21, _⟩ => ⟨S1024, .f32⟩
  | .hbm, ⟨22, _⟩ => ⟨S1x1024, .f32⟩
  | .hbm, ⟨23, _⟩ => ⟨S1x1024, .f32⟩
  | .hbm, ⟨24, _⟩ => ⟨S1x2048, .f32⟩
  | .hbm, ⟨25, _⟩ => ⟨S1x2048, .f32⟩
  | .hbm, ⟨26, _⟩ => ⟨S1x2048, .f32⟩
  | .hbm, ⟨27, _⟩ => ⟨S1x2048, .f32⟩
  | .hbm, ⟨28, _⟩ => ⟨S2048, .f32⟩
  | .hbm, ⟨29, _⟩ => ⟨S1x2048, .f32⟩
  | .hbm, ⟨30, _⟩ => ⟨S1x1024, .f32⟩
  | .hbm, ⟨31, _⟩ => ⟨S1x1, .f32⟩
  | .hbm, ⟨32, _⟩ => ⟨S1x1024, .f32⟩
  | .hbm, ⟨33, _⟩ => ⟨S1x1024, .f32⟩
  | .hbm, ⟨34, _⟩ => ⟨S1024x1024, .bf16⟩
  | .hbm, ⟨35, _⟩ => ⟨S2048x2048, .f32⟩
  | .hbm, ⟨36, _⟩ => ⟨S2048x2048, .bf16⟩
  | .hbm, ⟨37, _⟩ => ⟨S1024x2048, .bf16⟩
  | .hbm, ⟨38, _⟩ => ⟨S2048x1024, .bf16⟩
  | .hbm, ⟨39, _⟩ => ⟨S2048x1024, .bf16⟩
  | .hbm, ⟨40, _⟩ => ⟨S2048x1024, .bf16⟩
  | .hbm, ⟨41, _⟩ => ⟨S2048x1024, .bf16⟩
  | .hbm, ⟨42, _⟩ => ⟨S8192x1024, .f32⟩
  | .hbm, ⟨43, _⟩ => ⟨S8192x2048, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1x1, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x2048, .f32⟩
  | .local _ .vmem, ⟨12, _⟩ => ⟨S256x2048, .f32⟩
  | .local _ .vmem, ⟨13, _⟩ => ⟨S1x1024, .f32⟩
  | .local _ .vmem, ⟨14, _⟩ => ⟨S1024x1024, .bf16⟩
  | .local _ .vmem, ⟨15, _⟩ => ⟨S1x1024, .f32⟩
  | .local _ .vmem, ⟨16, _⟩ => ⟨S2048x2048, .bf16⟩
  | .local _ .vmem, ⟨17, _⟩ => ⟨S1x2048, .f32⟩
  | .local _ .vmem, ⟨18, _⟩ => ⟨S1024x2048, .bf16⟩
  | .local _ .vmem, ⟨19, _⟩ => ⟨S1x1024, .f32⟩
  | .local _ .vmem, ⟨20, _⟩ => ⟨S2048x1024, .bf16⟩
  | .local _ .vmem, ⟨21, _⟩ => ⟨S1x2048, .f32⟩
  | .local _ .vmem, ⟨22, _⟩ => ⟨S2048x1024, .bf16⟩
  | .local _ .vmem, ⟨23, _⟩ => ⟨S1x2048, .f32⟩
  | .local _ .vmem, ⟨24, _⟩ => ⟨S2048x1024, .bf16⟩
  | .local _ .vmem, ⟨25, _⟩ => ⟨S1x2048, .f32⟩
  | .local _ .vmem, ⟨26, _⟩ => ⟨S2048x1024, .bf16⟩
  | .local _ .vmem, ⟨27, _⟩ => ⟨S1x2048, .f32⟩
  | .local _ .vmem, ⟨28, _⟩ => ⟨S256x1024, .f32⟩
  | .local _ .vmem, ⟨29, _⟩ => ⟨S256x1024, .f32⟩
  | .local _ .vmem, ⟨30, _⟩ => ⟨S256x2048, .f32⟩
  | .local _ .vmem, ⟨31, _⟩ => ⟨S256x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20_0 : Ref sig .tc := ⟨.hbm, 42, rfl⟩
abbrev main_v20_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg11_0 : Ref sig .tc := ⟨.vmem, 21, rfl⟩
abbrev cc1_stg12_0 : Ref sig .tc := ⟨.vmem, 22, rfl⟩
abbrev cc1_stg13_0 : Ref sig .tc := ⟨.vmem, 23, rfl⟩
abbrev cc1_stg14_0 : Ref sig .tc := ⟨.vmem, 24, rfl⟩
abbrev cc1_stg15_0 : Ref sig .tc := ⟨.vmem, 25, rfl⟩
abbrev cc1_stg16_0 : Ref sig .tc := ⟨.vmem, 26, rfl⟩
abbrev cc1_stg17_0 : Ref sig .tc := ⟨.vmem, 27, rfl⟩
abbrev cc1_stg18_0 : Ref sig .tc := ⟨.vmem, 28, rfl⟩
abbrev cc1_stg18_1 : Ref sig .tc := ⟨.vmem, 29, rfl⟩
abbrev cc1_stg19_0 : Ref sig .tc := ⟨.vmem, 30, rfl⟩
abbrev cc1_stg19_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem11_0 : DmaSem sig := 20
abbrev cc1_sem12_0 : DmaSem sig := 21
abbrev cc1_sem13_0 : DmaSem sig := 22
abbrev cc1_sem14_0 : DmaSem sig := 23
abbrev cc1_sem15_0 : DmaSem sig := 24
abbrev cc1_sem16_0 : DmaSem sig := 25
abbrev cc1_sem17_0 : DmaSem sig := 26
abbrev cc1_sem18_0 : DmaSem sig := 27
abbrev cc1_sem18_1 : DmaSem sig := 28
abbrev cc1_sem19_0 : DmaSem sig := 29
abbrev cc1_sem19_1 : DmaSem sig := 30

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v12 : BitVec 1 := Scalar.cmpi .eq arg0 c3_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_19 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2048x2048 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x2048 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1024x2048 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S2048x1024 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x2048 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S2048x1024 .bf16 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x2048 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S2048x1024 .bf16 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x2048 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S2048x1024 .bf16 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x2048 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 2 → Memref sig .tc .vmem S256x1024 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]

abbrev stage1_19 : Fin 2 → Memref sig .tc .vmem S256x2048 .f32 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true]

class Facts₀ : Prop where
  shapeCasts_S1024_S1x1024 : S1024.ShapeCasts S1x1024
  shapeCasts_S2048_S1x2048 : S2048.ShapeCasts S1x2048
  concatenates_S1024_S1024_S2048_d0 : Shape.Concatenates [S1024, S1024] S2048 0
  shapeCasts_S1_S1x1 : S1.ShapeCasts S1x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S2048x1024_S2048x1024_0_0 : ∀ a, (![0, 0] : Fin 2 → Nat) a + S2048x1024.size a ≤ S2048x1024.size a
  h_S2048x1024 : 0 < S2048x1024.numel
  reduces_S2048x1024_S1024 : S2048x1024.Reduces [0] S1024
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x1024 : S1x1.Broadcasts S1x1024
  bitsLt_bf16_f32 : FTy.bits .bf16 < FTy.bits .f32
  concatenates_S1024x2048_S1024x2048_S2048x2048_d0 : Shape.Concatenates [S1024x2048, S1024x2048] S2048x2048 0
  inb_S256x1024_S256x1024_0_0 : ∀ a, (![0, 0] : Fin 2 → Nat) a + S256x1024.size a ≤ S256x1024.size a
  h_S256x1024 : 0 < S256x1024.numel
  inb_S256x2048_S256x2048_0_0 : ∀ a, (![0, 0] : Fin 2 → Nat) a + S256x2048.size a ≤ S256x2048.size a
  h_S256x2048 : 0 < S256x2048.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  broadcasts_S1x1024_S256x1024 : S1x1024.Broadcasts S256x1024
  concatenates_S256x1024_S256x1024_S256x2048_d1 : Shape.Concatenates [S256x1024, S256x1024] S256x2048 1
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  slices_S256x2048_o0_0_S256x1024 : S256x2048.Slices ![0, 0] S256x1024
  slices_S256x2048_o0_1024_S256x1024 : S256x2048.Slices ![0, 1024] S256x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  shapeCasts_S2048x1024_S2048x1024 : S2048x1024.ShapeCasts S2048x1024
  reduces_S256x2048_S256 : S256x2048.Reduces [1] S256
  shapeCasts_S256_S256x1 : S256.ShapeCasts S256x1
  broadcasts_S256x1_S256x2048 : S256x1.Broadcasts S256x2048
  reduces_S256x1024_S256 : S256x1024.Reduces [1] S256
  broadcasts_S256x1_S256x1024 : S256x1.Broadcasts S256x1024
  dot_S256x1024_S1024x1024_S256x1024_1_1_0_0_n_n_wf : DotDims.WF S256x1024 S1024x1024 S256x1024 [1] [1] [0] [0] [] []
  dot_S256x2048_S2048x2048_S256x2048_1_1_0_0_n_n_wf : DotDims.WF S256x2048 S2048x2048 S256x2048 [1] [1] [0] [0] [] []
  dot_S256x2048_S1024x2048_S256x1024_1_1_0_0_n_n_wf : DotDims.WF S256x2048 S1024x2048 S256x1024 [1] [1] [0] [0] [] []
  dot_S256x1024_S2048x1024_S256x2048_1_1_0_0_n_n_wf : DotDims.WF S256x1024 S2048x1024 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x1024.size a
  hwx0_0 : ∀ i : grid0.Coords, EltTy.bits .f32 = 32 ∨ (Rect.block (s := S8192x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S8192x1024.size a
  hwx1_0 : ∀ i : grid1.Coords, EltTy.bits .f32 = 32 ∨ (Rect.block (s := S8192x1024) S256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1024.size a ≤ S8192x1024.size a
  hwx1_1 : ∀ i : grid1.Coords, EltTy.bits .f32 = 32 ∨ (Rect.block (s := S8192x1024) S256x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x2048.size a ≤ S8192x2048.size a
  hwx1_2 : ∀ i : grid1.Coords, EltTy.bits .f32 = 32 ∨ (Rect.block (s := S8192x2048) S256x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S1024x1024.size a
  hwx1_4 : ∀ i : grid1.Coords, EltTy.bits .bf16 = 32 ∨ (Rect.block (s := S1024x1024) S1024x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S2048x2048.size a ≤ S2048x2048.size a
  hwx1_6 : ∀ i : grid1.Coords, EltTy.bits .bf16 = 32 ∨ (Rect.block (s := S2048x2048) S2048x2048.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x2048.size a ≤ S1x2048.size a
  hwx1_7 : ∀ i : grid1.Coords, EltTy.bits .f32 = 32 ∨ (Rect.block (s := S1x2048) S1x2048.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1024x2048.size a ≤ S1024x2048.size a
  hwx1_8 : ∀ i : grid1.Coords, EltTy.bits .bf16 = 32 ∨ (Rect.block (s := S1024x2048) S1024x2048.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1024.size a ≤ S1x1024.size a
  hwx1_9 : ∀ i : grid1.Coords, EltTy.bits .f32 = 32 ∨ (Rect.block (s := S1x1024) S1x1024.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S2048x1024.size a ≤ S2048x1024.size a
  hwx1_10 : ∀ i : grid1.Coords, EltTy.bits .bf16 = 32 ∨ (Rect.block (s := S2048x1024) S2048x1024.size (cc1_transform_10 i) (hinb1_10 i)).WholeWords (EltTy.packing .bf16)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x2048.size a ≤ S1x2048.size a
  hwx1_11 : ∀ i : grid1.Coords, EltTy.bits .f32 = 32 ∨ (Rect.block (s := S1x2048) S1x2048.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S2048x1024.size a ≤ S2048x1024.size a
  hwx1_12 : ∀ i : grid1.Coords, EltTy.bits .bf16 = 32 ∨ (Rect.block (s := S2048x1024) S2048x1024.size (cc1_transform_12 i) (hinb1_12 i)).WholeWords (EltTy.packing .bf16)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x2048.size a ≤ S1x2048.size a
  hwx1_13 : ∀ i : grid1.Coords, EltTy.bits .f32 = 32 ∨ (Rect.block (s := S1x2048) S1x2048.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S2048x1024.size a ≤ S2048x1024.size a
  hwx1_14 : ∀ i : grid1.Coords, EltTy.bits .bf16 = 32 ∨ (Rect.block (s := S2048x1024) S2048x1024.size (cc1_transform_14 i) (hinb1_14 i)).WholeWords (EltTy.packing .bf16)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S1x2048.size a ≤ S1x2048.size a
  hwx1_15 : ∀ i : grid1.Coords, EltTy.bits .f32 = 32 ∨ (Rect.block (s := S1x2048) S1x2048.size (cc1_transform_15 i) (hinb1_15 i)).WholeWords (EltTy.packing .f32)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S2048x1024.size a ≤ S2048x1024.size a
  hwx1_16 : ∀ i : grid1.Coords, EltTy.bits .bf16 = 32 ∨ (Rect.block (s := S2048x1024) S2048x1024.size (cc1_transform_16 i) (hinb1_16 i)).WholeWords (EltTy.packing .bf16)
  hstage1_17 : ∀ j, (stage1_17 j).IsWhole
  nbuf1_17 : grid1.bufCount reads1_17 true = 1
  hreads1_17 : ∀ i i' : grid1.Coords, (∀ a, reads1_17 a = true → i a = i' a) → cc1_transform_17 i = cc1_transform_17 i'
  hinb1_17 : ∀ (i : grid1.Coords) a, (cc1_transform_17 i a + 1) * S1x2048.size a ≤ S1x2048.size a
  hwx1_17 : ∀ i : grid1.Coords, EltTy.bits .f32 = 32 ∨ (Rect.block (s := S1x2048) S1x2048.size (cc1_transform_17 i) (hinb1_17 i)).WholeWords (EltTy.packing .f32)
  hstage1_18 : ∀ j, (stage1_18 j).IsWhole
  nbuf1_18 : grid1.bufCount reads1_18 false = 2
  hreads1_18 : ∀ i i' : grid1.Coords, (∀ a, reads1_18 a = true → i a = i' a) → cc1_transform_18 i = cc1_transform_18 i'
  hinb1_18 : ∀ (i : grid1.Coords) a, (cc1_transform_18 i a + 1) * S256x1024.size a ≤ S8192x1024.size a
  hwx1_18 : ∀ i : grid1.Coords, EltTy.bits .f32 = 32 ∨ (Rect.block (s := S8192x1024) S256x1024.size (cc1_transform_18 i) (hinb1_18 i)).WholeWords (EltTy.packing .f32)
  hstage1_19 : ∀ j, (stage1_19 j).IsWhole
  nbuf1_19 : grid1.bufCount reads1_19 false = 2
  hreads1_19 : ∀ i i' : grid1.Coords, (∀ a, reads1_19 a = true → i a = i' a) → cc1_transform_19 i = cc1_transform_19 i'
  hinb1_19 : ∀ (i : grid1.Coords) a, (cc1_transform_19 i a + 1) * S256x2048.size a ≤ S8192x2048.size a
  hwx1_19 : ∀ i : grid1.Coords, EltTy.bits .f32 = 32 ∨ (Rect.block (s := S8192x2048) S256x2048.size (cc1_transform_19 i) (hinb1_19 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf
def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf

abbrev win0_0 : Pipeline.Window sig grid0 :=
  Pipeline.Window.ofSpec (Memref.whole main_arg1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x1024.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg0) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S256x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1024x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v0) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v14) S2048x2048.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v7) S1x2048.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v15) S1024x2048.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v1) S1x1024.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v16) S2048x1024.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v2) S1x2048.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v17) S2048x1024.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v3) S1x2048.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v18) S2048x1024.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v4) S1x2048.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v19) S2048x1024.size cc1_transform_16 reads1_16 false true 1 stage1_16 sem1_16
    hrank1 hreads1_16 hinb1_16 nbuf1_16 (Memref.isWhole_whole _) hwx1_16 hstage1_16

abbrev win1_17 : Pipeline.Window sig grid1 :=
  Pipeline.Window.ofSpec (Memref.whole main_v5) S1x2048.size cc1_transform_17 reads1_17 false true 1 stage1_17 sem1_17
    hrank1 hreads1_17 hinb1_17 nbuf1_17 (Memref.isWhole_whole _) hwx1_17 hstage1_17

abbrev win1_18 : Pipeline.Window sig grid1 :=
  Pipeline.Window.ofSpec (Memref.whole main_v20_0) S256x1024.size cc1_transform_18 reads1_18 true false 2 stage1_18 sem1_18
    hrank1 hreads1_18 hinb1_18 nbuf1_18 (Memref.isWhole_whole _) hwx1_18 hstage1_18

abbrev win1_19 : Pipeline.Window sig grid1 :=
  Pipeline.Window.ofSpec (Memref.whole main_v20_1) S256x2048.size cc1_transform_19 reads1_19 true false 2 stage1_19 sem1_19
    hrank1 hreads1_19 hinb1_19 nbuf1_19 (Memref.isWhole_whole _) hwx1_19 hstage1_19

abbrev win1 : Fin 20 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | 18 => win1_18 | 19 => win1_19 | ⟨_ + 20, h⟩ => absurd h (Nat.not_lt.2 (Nat.le_add_left _ _))
abbrev spec1 : Fin 20 → Pipeline.WinSpec sig grid1.rank := fun w => (win1 w).toWinSpec

class Facts : Prop extends Facts₀ where

variable [Facts]
-- ==== ReferenceIdeal.lean ====
abbrev S8192x1024 : Shape := ⟨2, ![8192, 1024]⟩
abbrev S8192x2048 : Shape := ⟨2, ![8192, 2048]⟩
abbrev S1024x1024 : Shape := ⟨2, ![1024, 1024]⟩
abbrev S1024 : Shape := ⟨1, ![1024]⟩
abbrev S1024x2048 : Shape := ⟨2, ![1024, 2048]⟩
abbrev S2048x1024 : Shape := ⟨2, ![2048, 1024]⟩
abbrev S2048 : Shape := ⟨1, ![2048]⟩
abbrev S1 : Shape := ⟨1, ![1]⟩
abbrev S_ : Shape := ⟨0, ![]⟩
abbrev S1x1024 : Shape := ⟨2, ![1, 1024]⟩
abbrev S1x2048 : Shape := ⟨2, ![1, 2048]⟩
abbrev S8192 : Shape := ⟨1, ![8192]⟩
abbrev S8192x1 : Shape := ⟨2, ![8192, 1]⟩

abbrev nBuf : Space → Nat
  | .hbm => 159
  | .vmem => 0
  | .smem => 0
  | _ => 0

abbrev hbmTy0_0 (i : Nat) : BufTy := match i % 128 with
  | 0 => ⟨S8192x1024, .f32⟩
  | 1 => ⟨S8192x1024, .f32⟩
  | 2 => ⟨S8192x2048, .f32⟩
  | 3 => ⟨S1024x1024, .f32⟩
  | 4 => ⟨S1024, .f32⟩
  | 5 => ⟨S1024x2048, .f32⟩
  | 6 => ⟨S1024, .f32⟩
  | 7 => ⟨S1024x2048, .f32⟩
  | 8 => ⟨S1024, .f32⟩
  | 9 => ⟨S1024x2048, .f32⟩
  | 10 => ⟨S1024, .f32⟩
  | 11 => ⟨S2048x1024, .f32⟩
  | 12 => ⟨S2048, .f32⟩
  | 13 => ⟨S2048x1024, .f32⟩
  | 14 => ⟨S2048, .f32⟩
  | 15 => ⟨S2048x1024, .f32⟩
  | 16 => ⟨S2048, .f32⟩
  | 17 => ⟨S2048x1024, .f32⟩
  | 18 => ⟨S2048, .f32⟩
  | 19 => ⟨S1024, .f32⟩
  | 20 => ⟨S1, .f32⟩
  | 21 => ⟨S1024, .f32⟩
  | 22 => ⟨S8192x1024, .f32⟩
  | 23 => ⟨S_, .f32⟩
  | 24 => ⟨S1024, .f32⟩
  | 25 => ⟨S_, .f32⟩
  | 26 => ⟨S1024, .f32⟩
  | 27 => ⟨S1024, .f32⟩
  | 28 => ⟨S1024, .f32⟩
  | 29 => ⟨S1024, .f32⟩
  | 30 => ⟨S1024, .f32⟩
  | 31 => ⟨S1024, .f32⟩
  | 32 => ⟨S1024, .f32⟩
  | 33 => ⟨S_, .f32⟩
  | 34 => ⟨S1024, .f32⟩
  | 35 => ⟨S1024, .f32⟩
  | 36 => ⟨S_, .f32⟩
  | 37 => ⟨S1024, .f32⟩
  | 38 => ⟨S1024, .f32⟩
  | 39 => ⟨S1024, .f32⟩
  | 40 => ⟨S1024x1024, .f32⟩
  | 41 => ⟨S8192x1024, .f32⟩
  | 42 => ⟨S1x1024, .f32⟩
  | 43 => ⟨S8192x1024, .f32⟩
  | 44 => ⟨S8192x1024, .f32⟩
  | 45 => ⟨S8192x1024, .f32⟩
  | 46 => ⟨S8192x1024, .f32⟩
  | 47 => ⟨S_, .f32⟩
  | 48 => ⟨S8192x1024, .f32⟩
  | 49 => ⟨S8192x1024, .f32⟩
  | 50 => ⟨S_, .f32⟩
  | 51 => ⟨S8192x1024, .f32⟩
  | 52 => ⟨S8192x1024, .f32⟩
  | 53 => ⟨S8192x1024, .f32⟩
  | 54 => ⟨S8192x2048, .f32⟩
  | 55 => ⟨S2048x1024, .f32⟩
  | 56 => ⟨S8192x1024, .f32⟩
  | 57 => ⟨S1x1024, .f32⟩
  | 58 => ⟨S8192x1024, .f32⟩
  | 59 => ⟨S8192x1024, .f32⟩
  | 60 => ⟨S2048x1024, .f32⟩
  | 61 => ⟨S8192x1024, .f32⟩
  | 62 => ⟨S1x1024, .f32⟩
  | 63 => ⟨S8192x1024, .f32⟩
  | 64 => ⟨S8192x1024, .f32⟩
  | 65 => ⟨S8192x1024, .f32⟩
  | 66 => ⟨S8192x2048, .f32⟩
  | 67 => ⟨S2048x1024, .f32⟩
  | 68 => ⟨S8192x1024, .f32⟩
  | 69 => ⟨S1x1024, .f32⟩
  | 70 => ⟨S8192x1024, .f32⟩
  | 71 => ⟨S8192x1024, .f32⟩
  | 72 => ⟨S_, .f32⟩
  | 73 => ⟨S8192x1024, .f32⟩
  | 74 => ⟨S8192x1024, .f32⟩
  | 75 => ⟨S8192x1024, .f32⟩
  | 76 => ⟨S8192x1024, .f32⟩
  | 77 => ⟨S1x1024, .f32⟩
  | 78 => ⟨S8192x1024, .f32⟩
  | 79 => ⟨S8192x1024, .f32⟩
  | 80 => ⟨S8192x1024, .f32⟩
  | 81 => ⟨S1024x2048, .f32⟩
  | 82 => ⟨S8192x2048, .f32⟩
  | 83 => ⟨S1x2048, .f32⟩
  | 84 => ⟨S8192x2048, .f32⟩
  | 85 => ⟨S8192x2048, .f32⟩
  | 86 => ⟨S_, .f32⟩
  | 87 => ⟨S8192, .f32⟩
  | 88 => ⟨S_, .f32⟩
  | 89 => ⟨S8192, .f32⟩
  | 90 => ⟨S8192, .f32⟩
  | 91 => ⟨S8192x1, .f32⟩
  | 92 => ⟨S8192x2048, .f32⟩
  | 93 => ⟨S8192x2048, .f32⟩
  | 94 => ⟨S8192x2048, .f32⟩
  | 95 => ⟨S_, .f32⟩
  | 96 => ⟨S8192, .f32⟩
  | 97 => ⟨S8192x1, .f32⟩
  | 98 => ⟨S8192x2048, .f32⟩
  | 99 => ⟨S8192x2048, .f32⟩
  | 100 => ⟨S1024x2048, .f32⟩
  | 101 => ⟨S8192x2048, .f32⟩
  | 102 => ⟨S1x2048, .f32⟩
  | 103 => ⟨S8192x2048, .f32⟩
  | 104 => ⟨S8192x2048, .f32⟩
  | 105 => ⟨S8192x2048, .f32⟩
  | 106 => ⟨S8192x2048, .f32⟩
  | 107 => ⟨S_, .f32⟩
  | 108 => ⟨S8192x2048, .f32⟩
  | 109 => ⟨S8192x2048, .f32⟩
  | 110 => ⟨S_, .f32⟩
  | 111 => ⟨S8192x2048, .f32⟩
  | 112 => ⟨S8192x2048, .f32⟩
  | 113 => ⟨S1024x2048, .f32⟩
  | 114 => ⟨S8192x2048, .f32⟩
  | 115 => ⟨S1x2048, .f32⟩
  | 116 => ⟨S8192x2048, .f32⟩
  | 117 => ⟨S8192x2048, .f32⟩
  | 118 => ⟨S8192x2048, .f32⟩
  | 119 => ⟨S8192x2048, .f32⟩
  | 120 => ⟨S_, .f32⟩
  | 121 => ⟨S8192x2048, .f32⟩
  | 122 => ⟨S8192x2048, .f32⟩
  | 123 => ⟨S_, .f32⟩
  | 124 => ⟨S8192x2048, .f32⟩
  | 125 => ⟨S8192x2048, .f32⟩
  | 126 => ⟨S1024x2048, .f32⟩
  | 127 => ⟨S8192x2048, .f32⟩
  | _ => ⟨S8192x1024, .f32⟩

abbrev hbmTy0_1 (i : Nat) : BufTy := match i % 128 with
  | 0 => ⟨S1x2048, .f32⟩
  | 1 => ⟨S8192x2048, .f32⟩
  | 2 => ⟨S8192x2048, .f32⟩
  | 3 => ⟨S8192x2048, .f32⟩
  | 4 => ⟨S8192x2048, .f32⟩
  | 5 => ⟨S_, .f32⟩
  | 6 => ⟨S8192x2048, .f32⟩
  | 7 => ⟨S8192x2048, .f32⟩
  | 8 => ⟨S_, .f32⟩
  | 9 => ⟨S8192x2048, .f32⟩
  | 10 => ⟨S8192x2048, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S8192x2048, .f32⟩
  | 18 => ⟨S8192x2048, .f32⟩
  | 19 => ⟨S8192x2048, .f32⟩
  | 20 => ⟨S8192x2048, .f32⟩
  | 21 => ⟨S8192x2048, .f32⟩
  | 22 => ⟨S8192x2048, .f32⟩
  | 23 => ⟨S_, .f32⟩
  | 24 => ⟨S8192, .f32⟩
  | 25 => ⟨S8192x1, .f32⟩
  | 26 => ⟨S_, .f32⟩
  | 27 => ⟨S8192x1, .f32⟩
  | 28 => ⟨S8192x1, .f32⟩
  | 29 => ⟨S8192x1024, .f32⟩
  | 30 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_cst : Ref sig .tc := ⟨.hbm, 23, rfl⟩
abbrev main_v1 : Ref sig .tc := ⟨.hbm, 24, rfl⟩
abbrev main_cst_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_cst_1 : Ref sig .tc := ⟨.hbm, 33, rfl⟩
abbrev main_v9 : Ref sig .tc := ⟨.hbm, 34, rfl⟩
abbrev main_v10 : Ref sig .tc := ⟨.hbm, 35, rfl⟩
abbrev main_cst_2 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst_3 : Ref sig .tc := ⟨.hbm, 47, rfl⟩
abbrev main_v21 : Ref sig .tc := ⟨.hbm, 48, rfl⟩
abbrev main_v22 : Ref sig .tc := ⟨.hbm, 49, rfl⟩
abbrev main_cst_4 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_5 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_6 : Ref sig .tc := ⟨.hbm, 86, rfl⟩
abbrev main_v57 : Ref sig .tc := ⟨.hbm, 87, rfl⟩
abbrev main_cst_7 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_8 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_9 : Ref sig .tc := ⟨.hbm, 107, rfl⟩
abbrev main_v75 : Ref sig .tc := ⟨.hbm, 108, rfl⟩
abbrev main_v76 : Ref sig .tc := ⟨.hbm, 109, rfl⟩
abbrev main_cst_10 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_11 : Ref sig .tc := ⟨.hbm, 120, rfl⟩
abbrev main_v86 : Ref sig .tc := ⟨.hbm, 121, rfl⟩
abbrev main_v87 : Ref sig .tc := ⟨.hbm, 122, rfl⟩
abbrev main_cst_12 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_13 : Ref sig .tc := ⟨.hbm, 133, rfl⟩
abbrev main_v97 : Ref sig .tc := ⟨.hbm, 134, rfl⟩
abbrev main_v98 : Ref sig .tc := ⟨.hbm, 135, rfl⟩
abbrev main_cst_14 : Ref sig .tc := ⟨.hbm, 136, rfl⟩
abbrev main_v99 : Ref sig .tc := ⟨.hbm, 137, rfl⟩
abbrev main_v100 : Ref sig .tc := ⟨.hbm, 138, rfl⟩
abbrev main_cst_15 : Ref sig .tc := ⟨.hbm, 139, rfl⟩
abbrev main_v101 : Ref sig .tc := ⟨.hbm, 140, rfl⟩
abbrev main_v102 : Ref sig .tc := ⟨.hbm, 141, rfl⟩
abbrev main_cst_16 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_cst_17 : Ref sig .tc := ⟨.hbm, 151, rfl⟩
abbrev main_v111 : Ref sig .tc := ⟨.hbm, 152, rfl⟩
abbrev main_v112 : Ref sig .tc := ⟨.hbm, 153, rfl⟩
abbrev main_cst_18 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩

abbrev nD : Nat := 1
abbrev τ : Topo := Topo.v7x

variable {F : FTy → Type} [FloatOps F]

class Facts₀ : Prop where
  reducesTo_S8192x1024_S1024_d0 : S8192x1024.ReducesTo [0] S1024
  h_S_ : 0 < S_.numel
  bcast_S_S1024 : S_.BroadcastsInDim S1024 (![] : Fin 0 → Fin S1024.rank)
  bcast_S1_S1024_0 : S1.BroadcastsInDim S1024 (![0] : Fin 1 → Fin S1024.rank)
  transposes_S1024x1024_S1024x1024_1_0 : S1024x1024.Transposes [1, 0] S1024x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  concatenates_S8192x1024_S8192x1024_S8192x2048_d1 : Shape.Concatenates [S8192x1024, S8192x1024] S8192x2048 1
  transposes_S1024x2048_S2048x1024_1_0 : S1024x2048.Transposes [1, 0] S2048x1024
  transposes_S2048x1024_S1024x2048_1_0 : S2048x1024.Transposes [1, 0] S1024x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  reducesTo_S8192x2048_S8192_d1 : S8192x2048.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x2048_0_1 : S8192x1.BroadcastsInDim S8192x2048 (![0, 1] : Fin 2 → Fin S8192x2048.rank)
  bcast_S_S8192x2048 : S_.BroadcastsInDim S8192x2048 (![] : Fin 0 → Fin S8192x2048.rank)
  reducesTo_S8192x1024_S8192_d1 : S8192x1024.ReducesTo [1] S8192
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  dot_S8192x1024_S1024x1024_S8192x1024_1_0_0_1_n_n_wf : DotDims.WF S8192x1024 S1024x1024 S8192x1024 [1] [0] [0] [1] [] []
  dot_S8192x2048_S2048x1024_S8192x1024_1_0_0_1_n_n_wf : DotDims.WF S8192x2048 S2048x1024 S8192x1024 [1] [0] [0] [1] [] []
  dot_S8192x1024_S1024x2048_S8192x2048_1_0_0_1_n_n_wf : DotDims.WF S8192x1024 S1024x2048 S8192x2048 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf
def dot_S8192x1024_S1024x2048_S8192x2048_1_0_0_1_n_n : DotDims S8192x1024 S1024x2048 S8192x2048 where
  lhsContracting := [1]
  rhsContracting := [0]
  lhsNonContracting := [0]
  rhsNonContracting := [1]
  lhsBatch := []
  rhsBatch := []
  wf := dot_S8192x1024_S1024x2048_S8192x2048_1_0_0_1_n_n_wf

class Facts : Prop extends Facts₀ where

variable [Facts]
-- ==== Proof.R0RunBits.lean ====
/-
  The connection-strength kernel, run symbolically at one grid point.  The kernel keeps a running sum in a scratch
  buffer: the first point clears it, every point adds its block's column sums of absolute values, the last point
  turns the sum into the connection strength and stores it.  Three control cases follow: first point (A), middle
  points (B), last point (C).  For each case the body's run is stated on arbitrary whole buffers: the inputs come
  back unchanged, the scratch and (in case C) the output end with the pieces the stores wrote.
-/
import proofs.«132931_j11587821765036_2_alg».proof.Proof.Gen.Kernel.Launch
import proofs.«132931_j11587821765036_2_alg».proof.Proof.Gen.Kernel.Skeleton
import proofs.«132931_j11587821765036_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions, decided over the four grid points -/

/-- "this is the first point", as the body computes it from the grid coordinate. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "this is the last point". -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## The body's run, case by case -/

set_option maxHeartbeats 1000000 in
/-- Case A (first point): the scratch is cleared and then receives the first block's sums; the output is not touched. -/
noncomputable def kernelRun0_A (c : Dev nD) (i : grid0.Coords) (a1 : Memref sig .tc .vmem S2048x1024 .f32) (h1 : a1.IsWhole) (a2 : Memref sig .tc .vmem S1x1024 .f32) (h2 : a2.IsWhole) (a3 : Memref sig .tc .vmem S1x1 .f32) (h3 : a3.IsWhole) (a4 : Memref sig .tc .vmem S1x1024 .f32) (h4 : a4.IsWhole) (a5 : Memref sig .tc .vmem S1x1024 .f32) (h5 : a5.IsWhole) (sc : Memref sig .tc .vmem S1x1024 .f32) (hsc : sc.IsWhole) (hc0 : cond0_0 i) (hc1 : ¬cond0_1 i)
    (x0 : Vec F S2048x1024 .f32) (x1 : Vec F S1x1024 .f32) (x2 : Vec F S1x1 .f32) (x3 : Vec F S1x1024 .f32) :
    { LS : List (View.Piece (Elt F) S1x1024 .f32) //
      ∀ (xi : Vec F S1x1024 .f32) (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3
            ∗ owns (c : Thread nD τ) a5 fullShare xi ∗ (∃ d, owns (c : Thread nD τ) sc fullShare d)
            ∗ (iprop(owns (c : Thread nD τ) a1 fullShare x0 ∗ owns (c : Thread nD τ) a2 fullShare x1 ∗ owns (c : Thread nD τ) a3 fullShare x2 ∗ owns (c : Thread nD τ) a4 fullShare x3
                ∗ owns (c : Thread nD τ) a5 fullShare xi ∗ (∃ f, sc.view.loc (c : Thread nD τ) ↦[sc.view.set]{fullShare} sc.view.writes (Elt F) f LS)) -∗ K ⟨⟩))
          ⊢ wp frame (wpE (defs₀ (F := F)) Variants.none c none) E (cc0__cs_kernel i a1 h1 a2 h2 a3 h3 a4 h4 a5 h5 sc hsc) K } := by
  refine ⟨?_, fun xi E K => ?run⟩
  case run =>
    simp only [cc0__cs_kernel_eq_skeleton]; unfold cc0__cs_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := h1.eq_unread hf0; obtain rfl := h2.eq_unread hf1; obtain rfl := h3.eq_unread hf2; obtain rfl := h4.eq_unread hf3; obtain rfl := h5.eq_unread hf4
    sl_exec (disch := first | exact hc0 | exact hc1)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    isplitl [H4]
    · iexists _; isplitr; · ipureintro; exact h5.read_unread _
      iexact H4
    iexists _; iexact HS

set_option maxHeartbeats 1000000 in
/-- Case B (a middle point): the scratch, holding `xs`, receives `xs` plus the block's sums; the output is not touched. -/
noncomputable def kernelRun0_B (c : Dev nD) (i : grid0.Coords) (a1 : Memref sig .tc .vmem S2048x1024 .f32) (h1 : a1.IsWhole) (a2 : Memref sig .tc .vmem S1x1024 .f32) (h2 : a2.IsWhole) (a3 : Memref sig .tc .vmem S1x1 .f32) (h3 : a3.IsWhole) (a4 : Memref sig .tc .vmem S1x1024 .f32) (h4 : a4.IsWhole) (a5 : Memref sig .tc .vmem S1x1024 .f32) (h5 : a5.IsWhole) (sc : Memref sig .tc .vmem S1x1024 .f32) (hsc : sc.IsWhole) (hc0 : ¬cond0_0 i) (hc1 : ¬cond0_1 i)
    (x0 : Vec F S2048x1024 .f32) (x1 : Vec F S1x1024 .f32) (x2 : Vec F S1x1 .f32) (x3 : Vec F S1x1024 .f32) (xs : Vec F S1x1024 .f32) :
    { LS : List (View.Piece (Elt F) S1x1024 .f32) //
      ∀ (xi : Vec F S1x1024 .f32) (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3
            ∗ owns (c : Thread nD τ) a5 fullShare xi ∗ owns (c : Thread nD τ) sc fullShare xs
            ∗ (iprop(owns (c : Thread nD τ) a1 fullShare x0 ∗ owns (c : Thread nD τ) a2 fullShare x1 ∗ owns (c : Thread nD τ) a3 fullShare x2 ∗ owns (c : Thread nD τ) a4 fullShare x3
                ∗ owns (c : Thread nD τ) a5 fullShare xi ∗ (∃ f, sc.view.loc (c : Thread nD τ) ↦[sc.view.set]{fullShare} sc.view.writes (Elt F) f LS)) -∗ K ⟨⟩))
          ⊢ wp frame (wpE (defs₀ (F := F)) Variants.none c none) E (cc0__cs_kernel i a1 h1 a2 h2 a3 h3 a4 h4 a5 h5 sc hsc) K } := by
  refine ⟨?_, fun xi E K => ?run⟩
  case run =>
    simp only [cc0__cs_kernel_eq_skeleton]; unfold cc0__cs_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := h1.eq_unread hf0; obtain rfl := h2.eq_unread hf1; obtain rfl := h3.eq_unread hf2; obtain rfl := h4.eq_unread hf3; obtain rfl := h5.eq_unread hf4; obtain rfl := hsc.eq_unread hfs
    sl_exec (disch := first | exact hc0 | exact hc1)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    isplitl [H4]
    · iexists _; isplitr; · ipureintro; exact h5.read_unread _
      iexact H4
    iexists _; iexact HS

set_option maxHeartbeats 1000000 in
/-- Case C (the last point): the scratch receives its last block's sums, and the output receives the connection strength
    computed from the scratch's final contents and the three small operands. -/
noncomputable def kernelRun0_C (c : Dev nD) (i : grid0.Coords) (a1 : Memref sig .tc .vmem S2048x1024 .f32) (h1 : a1.IsWhole) (a2 : Memref sig .tc .vmem S1x1024 .f32) (h2 : a2.IsWhole) (a3 : Memref sig .tc .vmem S1x1 .f32) (h3 : a3.IsWhole) (a4 : Memref sig .tc .vmem S1x1024 .f32) (h4 : a4.IsWhole) (a5 : Memref sig .tc .vmem S1x1024 .f32) (h5 : a5.IsWhole) (sc : Memref sig .tc .vmem S1x1024 .f32) (hsc : sc.IsWhole) (hc0 : ¬cond0_0 i) (hc1 : cond0_1 i)
    (x0 : Vec F S2048x1024 .f32) (x1 : Vec F S1x1024 .f32) (x2 : Vec F S1x1 .f32) (x3 : Vec F S1x1024 .f32) (xs : Vec F S1x1024 .f32) :
    Σ' (LO : List (View.Piece (Elt F) S1x1024 .f32)), { LS : List (View.Piece (Elt F) S1x1024 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3
            ∗ (∃ d, owns (c : Thread nD τ) a5 fullShare d) ∗ owns (c : Thread nD τ) sc fullShare xs
            ∗ (iprop(owns (c : Thread nD τ) a1 fullShare x0 ∗ owns (c : Thread nD τ) a2 fullShare x1 ∗ owns (c : Thread nD τ) a3 fullShare x2 ∗ owns (c : Thread nD τ) a4 fullShare x3
                ∗ (∃ f, a5.view.loc (c : Thread nD τ) ↦[a5.view.set]{fullShare} a5.view.writes (Elt F) f LO)
                ∗ (∃ f, sc.view.loc (c : Thread nD τ) ↦[sc.view.set]{fullShare} sc.view.writes (Elt F) f LS)) -∗ K ⟨⟩))
          ⊢ wp frame (wpE (defs₀ (F := F)) Variants.none c none) E (cc0__cs_kernel i a1 h1 a2 h2 a3 h3 a4 h4 a5 h5 sc hsc) K } := by
  refine ⟨?_, ?_, fun E K => ?run⟩
  case run =>
    simp only [cc0__cs_kernel_eq_skeleton]; unfold cc0__cs_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := h1.eq_unread hf0; obtain rfl := h2.eq_unread hf1; obtain rfl := h3.eq_unread hf2; obtain rfl := h4.eq_unread hf3; obtain rfl := hsc.eq_unread hfs
    sl_exec (disch := first | exact hc0 | exact hc1)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    isplitl [H4]; · iexists _; iexact H4
    iexists _; iexact HS

end Cert.Kernel.Hand

end
-- ==== Proof.R0Bits.lean ====
/-
  The connection-strength kernel as one pipeline region: what its scratch accumulator and its output buffer hold
  after every grid point (a recursion over the four points: cleared and first block added; two more blocks added;
  last block added and the strength stored), the region's invariant carrying the scratch's contents from point to
  point, and the proof that the body, run at any point from that invariant and the windows' blocks, re-establishes it.
-/
import proofs.«132931_j11587821765036_2_alg».proof.Proof.Gen.Kernel.Launch
import proofs.«132931_j11587821765036_2_alg».proof.Proof.Gen.Kernel.Skeleton
import proofs.«132931_j11587821765036_2_alg».proof.Proof.Gen.Kernel.Points
import proofs.«132931_j11587821765036_2_alg».proof.Proof.R0RunBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, whether the point fetches it or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, whether the point fetches it or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, whether the point fetches it or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, whether the point fetches it or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last point the output window is idle and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The buffers the body is called with -/

abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
/-- The scratch accumulator: a whole scoped buffer of the kernel's own. -/
abbrev scM0 : Memref sig .tc .vmem S1x1024 .f32 := Memref.whole cc0_scratch0
abbrev VS0 : View sig .tc .vmem S1x1024 .f32 := scM0.view
/-- The output's staging buffer, as a view through which its contents are stated. -/
abbrev VO0 : View sig .tc .vmem S1x1024 .f32 := (Memref.whole cc0_stg4_0 : Memref sig .tc .vmem S1x1024 .f32).view

/-- The class invariant with the scratch split off: the scratch at some contents, every other scoped buffer unopened,
    the generator register at some state. -/
theorem PhiA0_eq (c : Dev nD) :
    (Pipeline.ΦA spec0 c : sProp 𝕄)
      = iprop(iprop(iprop((∃ d, owns (c : Thread nD τ) scM0 fullShare d)) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

/-! ## What each case leaves -/

theorem scover0_A (c : Dev nD) (i : grid0.Coords) (a1 : Memref sig .tc .vmem S2048x1024 .f32) (h1 : a1.IsWhole) (a2 : Memref sig .tc .vmem S1x1024 .f32) (h2 : a2.IsWhole) (a3 : Memref sig .tc .vmem S1x1 .f32) (h3 : a3.IsWhole) (a4 : Memref sig .tc .vmem S1x1024 .f32) (h4 : a4.IsWhole) (a5 : Memref sig .tc .vmem S1x1024 .f32) (h5 : a5.IsWhole) (sc : Memref sig .tc .vmem S1x1024 .f32) (hsc : sc.IsWhole) (hc0 : cond0_0 i) (hc1 : ¬cond0_1 i) (x0 : Vec F S2048x1024 .f32) (x1 : Vec F S1x1024 .f32) (x2 : Vec F S1x1 .f32) (x3 : Vec F S1x1024 .f32) (y : S1x1024.Idx) :
    ∃ pc ∈ (kernelRun0_A c i a1 h1 a2 h2 a3 h3 a4 h4 a5 h5 sc hsc hc0 hc1 x0 x1 x2 x3).1, y ∈ pc.1.set :=
  View.cover_of_tiledL (kernelRun0_A c i a1 h1 a2 h2 a3 h3 a4 h4 a5 h5 sc hsc hc0 hc1 x0 x1 x2 x3).1 S1x1024.size (by sl_kernel_rfl) y

/-- What the first point leaves in the scratch. -/
def sout0_A (c : Dev nD) (i : grid0.Coords) (a1 : Memref sig .tc .vmem S2048x1024 .f32) (h1 : a1.IsWhole) (a2 : Memref sig .tc .vmem S1x1024 .f32) (h2 : a2.IsWhole) (a3 : Memref sig .tc .vmem S1x1 .f32) (h3 : a3.IsWhole) (a4 : Memref sig .tc .vmem S1x1024 .f32) (h4 : a4.IsWhole) (a5 : Memref sig .tc .vmem S1x1024 .f32) (h5 : a5.IsWhole) (sc : Memref sig .tc .vmem S1x1024 .f32) (hsc : sc.IsWhole) (hc0 : cond0_0 i) (hc1 : ¬cond0_1 i) (x0 : Vec F S2048x1024 .f32) (x1 : Vec F S1x1024 .f32) (x2 : Vec F S1x1 .f32) (x3 : Vec F S1x1024 .f32) : Vec F S1x1024 .f32 :=
  VS0.read (Elt F) (VS0.writes (Elt F) VS0.junk (kernelRun0_A c i a1 h1 a2 h2 a3 h3 a4 h4 a5 h5 sc hsc hc0 hc1 x0 x1 x2 x3).1)

theorem scover0_B (c : Dev nD) (i : grid0.Coords) (a1 : Memref sig .tc .vmem S2048x1024 .f32) (h1 : a1.IsWhole) (a2 : Memref sig .tc .vmem S1x1024 .f32) (h2 : a2.IsWhole) (a3 : Memref sig .tc .vmem S1x1 .f32) (h3 : a3.IsWhole) (a4 : Memref sig .tc .vmem S1x1024 .f32) (h4 : a4.IsWhole) (a5 : Memref sig .tc .vmem S1x1024 .f32) (h5 : a5.IsWhole) (sc : Memref sig .tc .vmem S1x1024 .f32) (hsc : sc.IsWhole) (hc0 : ¬cond0_0 i) (hc1 : ¬cond0_1 i) (x0 : Vec F S2048x1024 .f32) (x1 : Vec F S1x1024 .f32) (x2 : Vec F S1x1 .f32) (x3 : Vec F S1x1024 .f32) (xs : Vec F S1x1024 .f32) (y : S1x1024.Idx) :
    ∃ pc ∈ (kernelRun0_B c i a1 h1 a2 h2 a3 h3 a4 h4 a5 h5 sc hsc hc0 hc1 x0 x1 x2 x3 xs).1, y ∈ pc.1.set :=
  View.cover_of_tiledL (kernelRun0_B c i a1 h1 a2 h2 a3 h3 a4 h4 a5 h5 sc hsc hc0 hc1 x0 x1 x2 x3 xs).1 S1x1024.size (by sl_kernel_rfl) y

/-- What a middle point leaves in the scratch, from what the point before left (`xs`). -/
def sout0_B (c : Dev nD) (i : grid0.Coords) (a1 : Memref sig .tc .vmem S2048x1024 .f32) (h1 : a1.IsWhole) (a2 : Memref sig .tc .vmem S1x1024 .f32) (h2 : a2.IsWhole) (a3 : Memref sig .tc .vmem S1x1 .f32) (h3 : a3.IsWhole) (a4 : Memref sig .tc .vmem S1x1024 .f32) (h4 : a4.IsWhole) (a5 : Memref sig .tc .vmem S1x1024 .f32) (h5 : a5.IsWhole) (sc : Memref sig .tc .vmem S1x1024 .f32) (hsc : sc.IsWhole) (hc0 : ¬cond0_0 i) (hc1 : ¬cond0_1 i) (x0 : Vec F S2048x1024 .f32) (x1 : Vec F S1x1024 .f32) (x2 : Vec F S1x1 .f32) (x3 : Vec F S1x1024 .f32) (xs : Vec F S1x1024 .f32) : Vec F S1x1024 .f32 :=
  VS0.read (Elt F) (VS0.writes (Elt F) VS0.junk (kernelRun0_B c i a1 h1 a2 h2 a3 h3 a4 h4 a5 h5 sc hsc hc0 hc1 x0 x1 x2 x3 xs).1)

theorem cover0_C (c : Dev nD) (i : grid0.Coords) (a1 : Memref sig .tc .vmem S2048x1024 .f32) (h1 : a1.IsWhole) (a2 : Memref sig .tc .vmem S1x1024 .f32) (h2 : a2.IsWhole) (a3 : Memref sig .tc .vmem S1x1 .f32) (h3 : a3.IsWhole) (a4 : Memref sig .tc .vmem S1x1024 .f32) (h4 : a4.IsWhole) (a5 : Memref sig .tc .vmem S1x1024 .f32) (h5 : a5.IsWhole) (sc : Memref sig .tc .vmem S1x1024 .f32) (hsc : sc.IsWhole) (hc0 : ¬cond0_0 i) (hc1 : cond0_1 i) (x0 : Vec F S2048x1024 .f32) (x1 : Vec F S1x1024 .f32) (x2 : Vec F S1x1 .f32) (x3 : Vec F S1x1024 .f32) (xs : Vec F S1x1024 .f32) (y : S1x1024.Idx) :
    ∃ pc ∈ (kernelRun0_C c i a1 h1 a2 h2 a3 h3 a4 h4 a5 h5 sc hsc hc0 hc1 x0 x1 x2 x3 xs).1, y ∈ pc.1.set :=
  View.cover_of_tiledL (kernelRun0_C c i a1 h1 a2 h2 a3 h3 a4 h4 a5 h5 sc hsc hc0 hc1 x0 x1 x2 x3 xs).1 S1x1024.size (by sl_kernel_rfl) y

/-- What the last point leaves in the output's buffer. -/
def out0_C (c : Dev nD) (i : grid0.Coords) (a1 : Memref sig .tc .vmem S2048x1024 .f32) (h1 : a1.IsWhole) (a2 : Memref sig .tc .vmem S1x1024 .f32) (h2 : a2.IsWhole) (a3 : Memref sig .tc .vmem S1x1 .f32) (h3 : a3.IsWhole) (a4 : Memref sig .tc .vmem S1x1024 .f32) (h4 : a4.IsWhole) (a5 : Memref sig .tc .vmem S1x1024 .f32) (h5 : a5.IsWhole) (sc : Memref sig .tc .vmem S1x1024 .f32) (hsc : sc.IsWhole) (hc0 : ¬cond0_0 i) (hc1 : cond0_1 i) (x0 : Vec F S2048x1024 .f32) (x1 : Vec F S1x1024 .f32) (x2 : Vec F S1x1 .f32) (x3 : Vec F S1x1024 .f32) (xs : Vec F S1x1024 .f32) : Vec F S1x1024 .f32 :=
  VO0.read (Elt F) (VO0.writes (Elt F) VO0.junk (kernelRun0_C c i a1 h1 a2 h2 a3 h3 a4 h4 a5 h5 sc hsc hc0 hc1 x0 x1 x2 x3 xs).1)

theorem scover0_C (c : Dev nD) (i : grid0.Coords) (a1 : Memref sig .tc .vmem S2048x1024 .f32) (h1 : a1.IsWhole) (a2 : Memref sig .tc .vmem S1x1024 .f32) (h2 : a2.IsWhole) (a3 : Memref sig .tc .vmem S1x1 .f32) (h3 : a3.IsWhole) (a4 : Memref sig .tc .vmem S1x1024 .f32) (h4 : a4.IsWhole) (a5 : Memref sig .tc .vmem S1x1024 .f32) (h5 : a5.IsWhole) (sc : Memref sig .tc .vmem S1x1024 .f32) (hsc : sc.IsWhole) (hc0 : ¬cond0_0 i) (hc1 : cond0_1 i) (x0 : Vec F S2048x1024 .f32) (x1 : Vec F S1x1024 .f32) (x2 : Vec F S1x1 .f32) (x3 : Vec F S1x1024 .f32) (xs : Vec F S1x1024 .f32) (y : S1x1024.Idx) :
    ∃ pc ∈ (kernelRun0_C c i a1 h1 a2 h2 a3 h3 a4 h4 a5 h5 sc hsc hc0 hc1 x0 x1 x2 x3 xs).2.1, y ∈ pc.1.set :=
  View.cover_of_tiledL (kernelRun0_C c i a1 h1 a2 h2 a3 h3 a4 h4 a5 h5 sc hsc hc0 hc1 x0 x1 x2 x3 xs).2.1 S1x1024.size (by sl_kernel_rfl) y

/-- What the last point leaves in the scratch. -/
def sout0_C (c : Dev nD) (i : grid0.Coords) (a1 : Memref sig .tc .vmem S2048x1024 .f32) (h1 : a1.IsWhole) (a2 : Memref sig .tc .vmem S1x1024 .f32) (h2 : a2.IsWhole) (a3 : Memref sig .tc .vmem S1x1 .f32) (h3 : a3.IsWhole) (a4 : Memref sig .tc .vmem S1x1024 .f32) (h4 : a4.IsWhole) (a5 : Memref sig .tc .vmem S1x1024 .f32) (h5 : a5.IsWhole) (sc : Memref sig .tc .vmem S1x1024 .f32) (hsc : sc.IsWhole) (hc0 : ¬cond0_0 i) (hc1 : cond0_1 i) (x0 : Vec F S2048x1024 .f32) (x1 : Vec F S1x1024 .f32) (x2 : Vec F S1x1 .f32) (x3 : Vec F S1x1024 .f32) (xs : Vec F S1x1024 .f32) : Vec F S1x1024 .f32 :=
  VS0.read (Elt F) (VS0.writes (Elt F) VS0.junk (kernelRun0_C c i a1 h1 a2 h2 a3 h3 a4 h4 a5 h5 sc hsc hc0 hc1 x0 x1 x2 x3 xs).2.1)

/-- Contents nothing reads: the output's buffer at a point that neither stores into it nor writes it back. -/
def unread0 : Vec F S1x1024 .f32 := VO0.read (Elt F) VO0.junk

/-! ## The accumulation, point by point -/

theorem N0_eq : cfg0.N = 4 := N_0

/-- What the output's buffer and the scratch hold after the body at position `n`: the case the position selects, run at
    the point's buffers and blocks, the scratch continued from what position `n - 1` left. -/
def outsAt0 (c : Dev nD) : (n : ℕ) → n < cfg0.N → Vec F S1x1024 .f32 × Vec F S1x1024 .f32
  | 0, hn => (unread0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h1 : (n + 1) % 4 = 3 then
      (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => (fun h => by (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2,
       sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => (fun h => by (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
    else
      (unread0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => (fun h => by (try dsimp only at h); have := N0_eq; omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

/-- `outsAt0` at the first point. -/
theorem outsAt0_A (c : Dev nD) (t : Fin cfg0.N) (h0 : t.val % 4 = 0) (h1 : ¬t.val % 4 = 3) :
    outsAt0 V c t.val t.isLt = (unread0, sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (by exfalso; (try dsimp only at h0); have := N0_eq; omega)

/-- `outsAt0` at a middle point: over what the point before left. -/
theorem outsAt0_B (c : Dev nD) (t : Fin cfg0.N) (h0 : ¬t.val % 4 = 0) (h1 : ¬t.val % 4 = 3) :
    outsAt0 V c t.val t.isLt = (unread0, sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

/-- `outsAt0` at the last point: over what the point before left. -/
theorem outsAt0_C (c : Dev nD) (t : Fin cfg0.N) (h0 : ¬t.val % 4 = 0) (h1 : t.val % 4 = 3) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-! ## The region's invariant -/

/-- Before position `n`: at the start the class's invariant (every scoped buffer no window stages at anything); afterwards
    the scratch at what the point before left, the other scoped buffers unopened, the generator register at some state. -/
def PhiS (c : Dev nD) : (n : ℕ) → n ≤ cfg0.N → sProp 𝕄
  | 0, _ => Pipeline.ΦA spec0 c
  | n + 1, hn => iprop(iprop(iprop(owns (c : Thread nD τ) scM0 fullShare ((outsAt0 V c n hn).2)) ∗ Pipeline.scopedRestBut (Ix := Unit) (Name := ℕ) (U := UR sig nD τ) (Lvl := ℕ) (Val := Elt F) spec0 c [cc0_scratch0]) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(iprop(owns (c : Thread nD τ) scM0 fullShare ((outsAt0 V c n hn).2)) ∗ Pipeline.scopedRestBut (Ix := Unit) (Name := ℕ) (U := UR sig nD τ) (Lvl := ℕ) (Val := Elt F) spec0 c [cc0_scratch0]) ∗ (∃ r, prngReg c r)) := rfl

theorem PhiS_pos (c : Dev nD) (n : ℕ) (h : n ≤ cfg0.N) (hz : n ≠ 0) :
    PhiS V c n h = iprop(iprop(iprop(owns (c : Thread nD τ) scM0 fullShare ((outsAt0 V c (n - 1) (by omega)).2)) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The region's proof data -/

/-- The arrays as the region finds them; after the body at point `t` each input's buffer at its block and the output's
    at `outsAt0`'s first component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

theorem leaves0_0 (c : Dev nD) (t : Fin cfg0.N) :
    (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) :
    (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) :
    (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) :
    (dat0 V c).leavesExact 3 t = owns (c : Thread nD τ) (ms0_3 t) fullShare (iblk0 V c 3 t) := by
  unfold Dat.leavesExact; rw [liveAt0_3 t, after0_3]

set_option maxHeartbeats 4800000 in
/-- The body at any point.  The position selects the case; the invariant hands the body the scratch at what the point
    before left (at anything at the first point) and takes it back at this point's contents; an output buffer the case
    does not store into is handed back as found; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2, leaves0_3]
  have hN : t.val < 4 := lt_of_lt_of_eq t.isLt N0_eq
  by_cases h1 : t.val % 4 = 3
  · have h0 : ¬t.val % 4 = 0 := by omega
    have hz : t.val ≠ 0 := by omega
    rw [show (dat0 V c).leavesExact 4 t = owns (c : Thread nD τ) (ms0_4 t) fullShare ((dat0 V c).after 4 t) from by
      unfold Dat.leavesExact; rw [liveAt0_4 t ((hcond0_1 t).mpr h1)], after0_4]
    rw [outsAt0_C V c t h0 h1]
    unfold out0_C sout0_C; (try dsimp only)
    rw [PhiS_castSucc V c t, PhiS_pos V c _ _ hz]
    iintro ⟨⟨⟨HS, HR⟩, Hg⟩, Ho, ⟨%d0, H0⟩, ⟨%d1, H1⟩, ⟨%d2, H2⟩, ⟨%d3, H3⟩, ⟨%d4, H4⟩⟩
    iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS HR Hg]
    · isplitl [HS HR]
      · isplitl [HS]
        · unfold owns; iexists _; isplitr
          swap; · iexact HS
          ipureintro; exact View.read_writes_of_cover _ _ _ _ _ (scover0_C c _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_C c _ _ _ _ _ _ _ _ _ _ _ _ _ _ _ _ _ _ _ _)
  · rw [Dat.leavesExact_idle (dat0 V c) 4 t (idleAt0_4 t (fun h => h1 ((hcond0_1 t).mp h))) (noFlush0_4 t (fun h => h1 ((hcond0_1 t).mp h)))]
    by_cases h0 : t.val % 4 = 0
    · have hz : t.val = 0 := by omega
      rw [outsAt0_A V c t h0 h1]
      unfold sout0_A; (try dsimp only)
      rw [PhiS_castSucc V c t, PhiS_zero V c _ _ hz, PhiA0_eq]
      iintro ⟨⟨⟨HS, HR⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scover0_A c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
    · have hz : t.val ≠ 0 := by omega
      rw [outsAt0_B V c t h0 h1]
      unfold sout0_B; (try dsimp only)
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scover0_B c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the scratch's named contents are forgotten. -/
theorem hout0 (c : Dev nD) : (dat0 V c).Φ (Fin.last cfg0.N) ⊢ Pipeline.ΦA spec0 c := by
  have ht : (Fin.last cfg0.N).val ≠ 0 := by rw [Fin.val_last]; have := N0_eq; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS, HR⟩, Hg⟩
  isplitl [HS HR]
  · isplitl [HS]
    · iexists _; iexact HS
    iexact HR
  iexact Hg

end Cert.Kernel.Hand

end
-- ==== Proof.R1RunBits.lean ====
/-
  The cell kernel, run symbolically at one grid point: on arbitrary whole buffers, the eighteen inputs (three
  activation blocks, the connection strength, the weights and biases) come back unchanged and the two outputs end
  with the pieces the body's two stores wrote.
-/
import proofs.«132931_j11587821765036_2_alg».proof.Proof.Gen.Kernel.Launch
import proofs.«132931_j11587821765036_2_alg».proof.Proof.Gen.Kernel.Skeleton
import proofs.«132931_j11587821765036_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1 (c : Dev nD) (i : grid1.Coords) (a1 : Memref sig .tc .vmem S256x1024 .f32) (h1 : a1.IsWhole) (a2 : Memref sig .tc .vmem S256x1024 .f32) (h2 : a2.IsWhole) (a3 : Memref sig .tc .vmem S256x2048 .f32) (h3 : a3.IsWhole) (a4 : Memref sig .tc .vmem S1x1024 .f32) (h4 : a4.IsWhole) (a5 : Memref sig .tc .vmem S1024x1024 .bf16) (h5 : a5.IsWhole) (a6 : Memref sig .tc .vmem S1x1024 .f32) (h6 : a6.IsWhole) (a7 : Memref sig .tc .vmem S2048x2048 .bf16) (h7 : a7.IsWhole) (a8 : Memref sig .tc .vmem S1x2048 .f32) (h8 : a8.IsWhole) (a9 : Memref sig .tc .vmem S1024x2048 .bf16) (h9 : a9.IsWhole) (a10 : Memref sig .tc .vmem S1x1024 .f32) (h10 : a10.IsWhole) (a11 : Memref sig .tc .vmem S2048x1024 .bf16) (h11 : a11.IsWhole) (a12 : Memref sig .tc .vmem S1x2048 .f32) (h12 : a12.IsWhole) (a13 : Memref sig .tc .vmem S2048x1024 .bf16) (h13 : a13.IsWhole) (a14 : Memref sig .tc .vmem S1x2048 .f32) (h14 : a14.IsWhole) (a15 : Memref sig .tc .vmem S2048x1024 .bf16) (h15 : a15.IsWhole) (a16 : Memref sig .tc .vmem S1x2048 .f32) (h16 : a16.IsWhole) (a17 : Memref sig .tc .vmem S2048x1024 .bf16) (h17 : a17.IsWhole) (a18 : Memref sig .tc .vmem S1x2048 .f32) (h18 : a18.IsWhole) (a19 : Memref sig .tc .vmem S256x1024 .f32) (h19 : a19.IsWhole) (a20 : Memref sig .tc .vmem S256x2048 .f32) (h20 : a20.IsWhole)
    (x1 : Vec F S256x1024 .f32) (x2 : Vec F S256x1024 .f32) (x3 : Vec F S256x2048 .f32) (x4 : Vec F S1x1024 .f32) (x5 : Vec F S1024x1024 .bf16) (x6 : Vec F S1x1024 .f32) (x7 : Vec F S2048x2048 .bf16) (x8 : Vec F S1x2048 .f32) (x9 : Vec F S1024x2048 .bf16) (x10 : Vec F S1x1024 .f32) (x11 : Vec F S2048x1024 .bf16) (x12 : Vec F S1x2048 .f32) (x13 : Vec F S2048x1024 .bf16) (x14 : Vec F S1x2048 .f32) (x15 : Vec F S2048x1024 .bf16) (x16 : Vec F S1x2048 .f32) (x17 : Vec F S2048x1024 .bf16) (x18 : Vec F S1x2048 .f32) :
    Σ' (L19 : List (View.Piece (Elt F) S256x1024 .f32)), { L20 : List (View.Piece (Elt F) S256x2048 .f32) //
      ∀ (E : Set ℕ) (K : PUnit → sProp 𝕄),
        iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16 ∗ owns (c : Thread nD τ) a17 fullShare x17 ∗ owns (c : Thread nD τ) a18 fullShare x18
            ∗ (∃ d, owns (c : Thread nD τ) a19 fullShare d) ∗ (∃ d, owns (c : Thread nD τ) a20 fullShare d)
            ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16 ∗ owns (c : Thread nD τ) a17 fullShare x17 ∗ owns (c : Thread nD τ) a18 fullShare x18
                ∗ (∃ f, a19.view.loc (c : Thread nD τ) ↦[a19.view.set]{fullShare} a19.view.writes (Elt F) f L19)
                ∗ (∃ f, a20.view.loc (c : Thread nD τ) ↦[a20.view.set]{fullShare} a20.view.writes (Elt F) f L20)) -∗ K ⟨⟩))
          ⊢ wp frame (wpE (defs₀ (F := F)) Variants.none c none) E (cc1_kernel i a1 h1 a2 h2 a3 h3 a4 h4 a5 h5 a6 h6 a7 h7 a8 h8 a9 h9 a10 h10 a11 h11 a12 h12 a13 h13 a14 h14 a15 h15 a16 h16 a17 h17 a18 h18 a19 h19 a20 h20) K } := by
  refine ⟨?_, ?_, fun E K => ?run⟩
  case run =>
    simp only [cc1_kernel_eq_skeleton]; unfold cc1_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, Hk⟩
    obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13; obtain rfl := h14.eq_unread hf14; obtain rfl := h15.eq_unread hf15; obtain rfl := h16.eq_unread hf16; obtain rfl := h17.eq_unread hf17; obtain rfl := h18.eq_unread hf18
    sl_exec
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]
    · iexists _; isplitr; · ipureintro; exact h13.read_unread _
      iexact H13
    isplitl [H14]
    · iexists _; isplitr; · ipureintro; exact h14.read_unread _
      iexact H14
    isplitl [H15]
    · iexists _; isplitr; · ipureintro; exact h15.read_unread _
      iexact H15
    isplitl [H16]
    · iexists _; isplitr; · ipureintro; exact h16.read_unread _
      iexact H16
    isplitl [H17]
    · iexists _; isplitr; · ipureintro; exact h17.read_unread _
      iexact H17
    isplitl [H18]
    · iexists _; isplitr; · ipureintro; exact h18.read_unread _
      iexact H18
    isplitl [H19]; · iexists _; iexact H19
    iexists _; iexact H20

end Cert.Kernel.Hand

end
-- ==== Proof.R1Bits.lean ====
/-
  The cell kernel as one pipeline region: each grid point reads its 256-row blocks of x, hidden and the memory and the
  whole weights, and leaves in its two output buffers the blocks the body stores; nothing is carried between points.
-/
import proofs.«132931_j11587821765036_2_alg».proof.Proof.Gen.Kernel.Launch
import proofs.«132931_j11587821765036_2_alg».proof.Proof.Gen.Kernel.Skeleton
import proofs.«132931_j11587821765036_2_alg».proof.Proof.Gen.Kernel.Points
import proofs.«132931_j11587821765036_2_alg».proof.Proof.R1RunBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)
theorem before1_15_of {c : Dev nD} (dat : Dat τ (Elt F) Unit ℕ (UR sig nD τ) ℕ cfg1 c) (hA : dat.A 15 = V c (Pipeline.arrRef spec1 15))
    (hafter : ∀ t, dat.after 15 t = iblk1 V c 15 t) (t : Fin cfg1.N) (d) : dat.before 15 t d = iblk1 V c 15 t :=
  (dat.before_in_eq_fetched 15 rfl (fun _ => rfl) (fun _ _ _ => rfl) (fun t => by rw [hafter]; unfold Dat.blockOf iblk1; rw [hA]; try rfl) t d).trans
    (by unfold Dat.fetched Dat.blockOf iblk1; rw [hA]; try rfl)
theorem before1_16_of {c : Dev nD} (dat : Dat τ (Elt F) Unit ℕ (UR sig nD τ) ℕ cfg1 c) (hA : dat.A 16 = V c (Pipeline.arrRef spec1 16))
    (hafter : ∀ t, dat.after 16 t = iblk1 V c 16 t) (t : Fin cfg1.N) (d) : dat.before 16 t d = iblk1 V c 16 t :=
  (dat.before_in_eq_fetched 16 rfl (fun _ => rfl) (fun _ _ _ => rfl) (fun t => by rw [hafter]; unfold Dat.blockOf iblk1; rw [hA]; try rfl) t d).trans
    (by unfold Dat.fetched Dat.blockOf iblk1; rw [hA]; try rfl)
theorem before1_17_of {c : Dev nD} (dat : Dat τ (Elt F) Unit ℕ (UR sig nD τ) ℕ cfg1 c) (hA : dat.A 17 = V c (Pipeline.arrRef spec1 17))
    (hafter : ∀ t, dat.after 17 t = iblk1 V c 17 t) (t : Fin cfg1.N) (d) : dat.before 17 t d = iblk1 V c 17 t :=
  (dat.before_in_eq_fetched 17 rfl (fun _ => rfl) (fun _ _ _ => rfl) (fun t => by rw [hafter]; unfold Dat.blockOf iblk1; rw [hA]; try rfl) t d).trans
    (by unfold Dat.fetched Dat.blockOf iblk1; rw [hA]; try rfl)

/-! ## The buffers the body is called with -/

abbrev ms1_0 (t : Fin cfg1.N) : Memref sig .tc .vmem S256x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2048x2048 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x2048 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1024x2048 .bf16 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x1024 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S2048x1024 .bf16 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x2048 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S2048x1024 .bf16 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S1x2048 .f32 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S2048x1024 .bf16 := win1_14.stage (cfg1.slots t 14)
abbrev hs1_14 (t : Fin cfg1.N) : (ms1_14 t).IsWhole := hstage1_14 ((cfg1.slots t 14).cast nbuf1_14)
abbrev ms1_15 (t : Fin cfg1.N) : Memref sig .tc .vmem S1x2048 .f32 := win1_15.stage (cfg1.slots t 15)
abbrev hs1_15 (t : Fin cfg1.N) : (ms1_15 t).IsWhole := hstage1_15 ((cfg1.slots t 15).cast nbuf1_15)
abbrev ms1_16 (t : Fin cfg1.N) : Memref sig .tc .vmem S2048x1024 .bf16 := win1_16.stage (cfg1.slots t 16)
abbrev hs1_16 (t : Fin cfg1.N) : (ms1_16 t).IsWhole := hstage1_16 ((cfg1.slots t 16).cast nbuf1_16)
abbrev ms1_17 (t : Fin cfg1.N) : Memref sig .tc .vmem S1x2048 .f32 := win1_17.stage (cfg1.slots t 17)
abbrev hs1_17 (t : Fin cfg1.N) : (ms1_17 t).IsWhole := hstage1_17 ((cfg1.slots t 17).cast nbuf1_17)
abbrev ms1_18 (t : Fin cfg1.N) : Memref sig .tc .vmem S256x1024 .f32 := win1_18.stage (cfg1.slots t 18)
abbrev hs1_18 (t : Fin cfg1.N) : (ms1_18 t).IsWhole := hstage1_18 ((cfg1.slots t 18).cast nbuf1_18)
abbrev ms1_19 (t : Fin cfg1.N) : Memref sig .tc .vmem S256x2048 .f32 := win1_19.stage (cfg1.slots t 19)
abbrev hs1_19 (t : Fin cfg1.N) : (ms1_19 t).IsWhole := hstage1_19 ((cfg1.slots t 19).cast nbuf1_19)
abbrev VO1_18 : View sig .tc .vmem S256x1024 .f32 := (Memref.whole cc1_stg18_0 : Memref sig .tc .vmem S256x1024 .f32).view
abbrev VO1_19 : View sig .tc .vmem S256x2048 .f32 := (Memref.whole cc1_stg19_0 : Memref sig .tc .vmem S256x2048 .f32).view

/-! ## What the body leaves in the two outputs -/

theorem cover1_18 (c : Dev nD) (i : grid1.Coords) (a1 : Memref sig .tc .vmem S256x1024 .f32) (h1 : a1.IsWhole) (a2 : Memref sig .tc .vmem S256x1024 .f32) (h2 : a2.IsWhole) (a3 : Memref sig .tc .vmem S256x2048 .f32) (h3 : a3.IsWhole) (a4 : Memref sig .tc .vmem S1x1024 .f32) (h4 : a4.IsWhole) (a5 : Memref sig .tc .vmem S1024x1024 .bf16) (h5 : a5.IsWhole) (a6 : Memref sig .tc .vmem S1x1024 .f32) (h6 : a6.IsWhole) (a7 : Memref sig .tc .vmem S2048x2048 .bf16) (h7 : a7.IsWhole) (a8 : Memref sig .tc .vmem S1x2048 .f32) (h8 : a8.IsWhole) (a9 : Memref sig .tc .vmem S1024x2048 .bf16) (h9 : a9.IsWhole) (a10 : Memref sig .tc .vmem S1x1024 .f32) (h10 : a10.IsWhole) (a11 : Memref sig .tc .vmem S2048x1024 .bf16) (h11 : a11.IsWhole) (a12 : Memref sig .tc .vmem S1x2048 .f32) (h12 : a12.IsWhole) (a13 : Memref sig .tc .vmem S2048x1024 .bf16) (h13 : a13.IsWhole) (a14 : Memref sig .tc .vmem S1x2048 .f32) (h14 : a14.IsWhole) (a15 : Memref sig .tc .vmem S2048x1024 .bf16) (h15 : a15.IsWhole) (a16 : Memref sig .tc .vmem S1x2048 .f32) (h16 : a16.IsWhole) (a17 : Memref sig .tc .vmem S2048x1024 .bf16) (h17 : a17.IsWhole) (a18 : Memref sig .tc .vmem S1x2048 .f32) (h18 : a18.IsWhole) (a19 : Memref sig .tc .vmem S256x1024 .f32) (h19 : a19.IsWhole) (a20 : Memref sig .tc .vmem S256x2048 .f32) (h20 : a20.IsWhole) (x1 : Vec F S256x1024 .f32) (x2 : Vec F S256x1024 .f32) (x3 : Vec F S256x2048 .f32) (x4 : Vec F S1x1024 .f32) (x5 : Vec F S1024x1024 .bf16) (x6 : Vec F S1x1024 .f32) (x7 : Vec F S2048x2048 .bf16) (x8 : Vec F S1x2048 .f32) (x9 : Vec F S1024x2048 .bf16) (x10 : Vec F S1x1024 .f32) (x11 : Vec F S2048x1024 .bf16) (x12 : Vec F S1x2048 .f32) (x13 : Vec F S2048x1024 .bf16) (x14 : Vec F S1x2048 .f32) (x15 : Vec F S2048x1024 .bf16) (x16 : Vec F S1x2048 .f32) (x17 : Vec F S2048x1024 .bf16) (x18 : Vec F S1x2048 .f32) (y : S256x1024.Idx) :
    ∃ pc ∈ (kernelRun1 c i a1 h1 a2 h2 a3 h3 a4 h4 a5 h5 a6 h6 a7 h7 a8 h8 a9 h9 a10 h10 a11 h11 a12 h12 a13 h13 a14 h14 a15 h15 a16 h16 a17 h17 a18 h18 a19 h19 a20 h20 x1 x2 x3 x4 x5 x6 x7 x8 x9 x10 x11 x12 x13 x14 x15 x16 x17 x18).1, y ∈ pc.1.set :=
  View.cover_of_tiledL (kernelRun1 c i a1 h1 a2 h2 a3 h3 a4 h4 a5 h5 a6 h6 a7 h7 a8 h8 a9 h9 a10 h10 a11 h11 a12 h12 a13 h13 a14 h14 a15 h15 a16 h16 a17 h17 a18 h18 a19 h19 a20 h20 x1 x2 x3 x4 x5 x6 x7 x8 x9 x10 x11 x12 x13 x14 x15 x16 x17 x18).1 S256x1024.size (by sl_kernel_rfl) y

theorem cover1_19 (c : Dev nD) (i : grid1.Coords) (a1 : Memref sig .tc .vmem S256x1024 .f32) (h1 : a1.IsWhole) (a2 : Memref sig .tc .vmem S256x1024 .f32) (h2 : a2.IsWhole) (a3 : Memref sig .tc .vmem S256x2048 .f32) (h3 : a3.IsWhole) (a4 : Memref sig .tc .vmem S1x1024 .f32) (h4 : a4.IsWhole) (a5 : Memref sig .tc .vmem S1024x1024 .bf16) (h5 : a5.IsWhole) (a6 : Memref sig .tc .vmem S1x1024 .f32) (h6 : a6.IsWhole) (a7 : Memref sig .tc .vmem S2048x2048 .bf16) (h7 : a7.IsWhole) (a8 : Memref sig .tc .vmem S1x2048 .f32) (h8 : a8.IsWhole) (a9 : Memref sig .tc .vmem S1024x2048 .bf16) (h9 : a9.IsWhole) (a10 : Memref sig .tc .vmem S1x1024 .f32) (h10 : a10.IsWhole) (a11 : Memref sig .tc .vmem S2048x1024 .bf16) (h11 : a11.IsWhole) (a12 : Memref sig .tc .vmem S1x2048 .f32) (h12 : a12.IsWhole) (a13 : Memref sig .tc .vmem S2048x1024 .bf16) (h13 : a13.IsWhole) (a14 : Memref sig .tc .vmem S1x2048 .f32) (h14 : a14.IsWhole) (a15 : Memref sig .tc .vmem S2048x1024 .bf16) (h15 : a15.IsWhole) (a16 : Memref sig .tc .vmem S1x2048 .f32) (h16 : a16.IsWhole) (a17 : Memref sig .tc .vmem S2048x1024 .bf16) (h17 : a17.IsWhole) (a18 : Memref sig .tc .vmem S1x2048 .f32) (h18 : a18.IsWhole) (a19 : Memref sig .tc .vmem S256x1024 .f32) (h19 : a19.IsWhole) (a20 : Memref sig .tc .vmem S256x2048 .f32) (h20 : a20.IsWhole) (x1 : Vec F S256x1024 .f32) (x2 : Vec F S256x1024 .f32) (x3 : Vec F S256x2048 .f32) (x4 : Vec F S1x1024 .f32) (x5 : Vec F S1024x1024 .bf16) (x6 : Vec F S1x1024 .f32) (x7 : Vec F S2048x2048 .bf16) (x8 : Vec F S1x2048 .f32) (x9 : Vec F S1024x2048 .bf16) (x10 : Vec F S1x1024 .f32) (x11 : Vec F S2048x1024 .bf16) (x12 : Vec F S1x2048 .f32) (x13 : Vec F S2048x1024 .bf16) (x14 : Vec F S1x2048 .f32) (x15 : Vec F S2048x1024 .bf16) (x16 : Vec F S1x2048 .f32) (x17 : Vec F S2048x1024 .bf16) (x18 : Vec F S1x2048 .f32) (y : S256x2048.Idx) :
    ∃ pc ∈ (kernelRun1 c i a1 h1 a2 h2 a3 h3 a4 h4 a5 h5 a6 h6 a7 h7 a8 h8 a9 h9 a10 h10 a11 h11 a12 h12 a13 h13 a14 h14 a15 h15 a16 h16 a17 h17 a18 h18 a19 h19 a20 h20 x1 x2 x3 x4 x5 x6 x7 x8 x9 x10 x11 x12 x13 x14 x15 x16 x17 x18).2.1, y ∈ pc.1.set :=
  View.cover_of_tiledL (kernelRun1 c i a1 h1 a2 h2 a3 h3 a4 h4 a5 h5 a6 h6 a7 h7 a8 h8 a9 h9 a10 h10 a11 h11 a12 h12 a13 h13 a14 h14 a15 h15 a16 h16 a17 h17 a18 h18 a19 h19 a20 h20 x1 x2 x3 x4 x5 x6 x7 x8 x9 x10 x11 x12 x13 x14 x15 x16 x17 x18).2.1 S256x2048.size (by sl_kernel_rfl) y

/-- The final hidden state's block as the body leaves it. -/
def out1_18 (c : Dev nD) (i : grid1.Coords) (a1 : Memref sig .tc .vmem S256x1024 .f32) (h1 : a1.IsWhole) (a2 : Memref sig .tc .vmem S256x1024 .f32) (h2 : a2.IsWhole) (a3 : Memref sig .tc .vmem S256x2048 .f32) (h3 : a3.IsWhole) (a4 : Memref sig .tc .vmem S1x1024 .f32) (h4 : a4.IsWhole) (a5 : Memref sig .tc .vmem S1024x1024 .bf16) (h5 : a5.IsWhole) (a6 : Memref sig .tc .vmem S1x1024 .f32) (h6 : a6.IsWhole) (a7 : Memref sig .tc .vmem S2048x2048 .bf16) (h7 : a7.IsWhole) (a8 : Memref sig .tc .vmem S1x2048 .f32) (h8 : a8.IsWhole) (a9 : Memref sig .tc .vmem S1024x2048 .bf16) (h9 : a9.IsWhole) (a10 : Memref sig .tc .vmem S1x1024 .f32) (h10 : a10.IsWhole) (a11 : Memref sig .tc .vmem S2048x1024 .bf16) (h11 : a11.IsWhole) (a12 : Memref sig .tc .vmem S1x2048 .f32) (h12 : a12.IsWhole) (a13 : Memref sig .tc .vmem S2048x1024 .bf16) (h13 : a13.IsWhole) (a14 : Memref sig .tc .vmem S1x2048 .f32) (h14 : a14.IsWhole) (a15 : Memref sig .tc .vmem S2048x1024 .bf16) (h15 : a15.IsWhole) (a16 : Memref sig .tc .vmem S1x2048 .f32) (h16 : a16.IsWhole) (a17 : Memref sig .tc .vmem S2048x1024 .bf16) (h17 : a17.IsWhole) (a18 : Memref sig .tc .vmem S1x2048 .f32) (h18 : a18.IsWhole) (a19 : Memref sig .tc .vmem S256x1024 .f32) (h19 : a19.IsWhole) (a20 : Memref sig .tc .vmem S256x2048 .f32) (h20 : a20.IsWhole) (x1 : Vec F S256x1024 .f32) (x2 : Vec F S256x1024 .f32) (x3 : Vec F S256x2048 .f32) (x4 : Vec F S1x1024 .f32) (x5 : Vec F S1024x1024 .bf16) (x6 : Vec F S1x1024 .f32) (x7 : Vec F S2048x2048 .bf16) (x8 : Vec F S1x2048 .f32) (x9 : Vec F S1024x2048 .bf16) (x10 : Vec F S1x1024 .f32) (x11 : Vec F S2048x1024 .bf16) (x12 : Vec F S1x2048 .f32) (x13 : Vec F S2048x1024 .bf16) (x14 : Vec F S1x2048 .f32) (x15 : Vec F S2048x1024 .bf16) (x16 : Vec F S1x2048 .f32) (x17 : Vec F S2048x1024 .bf16) (x18 : Vec F S1x2048 .f32) : Vec F S256x1024 .f32 :=
  VO1_18.read (Elt F) (VO1_18.writes (Elt F) VO1_18.junk (kernelRun1 c i a1 h1 a2 h2 a3 h3 a4 h4 a5 h5 a6 h6 a7 h7 a8 h8 a9 h9 a10 h10 a11 h11 a12 h12 a13 h13 a14 h14 a15 h15 a16 h16 a17 h17 a18 h18 a19 h19 a20 h20 x1 x2 x3 x4 x5 x6 x7 x8 x9 x10 x11 x12 x13 x14 x15 x16 x17 x18).1)

/-- The new memory's block as the body leaves it. -/
def out1_19 (c : Dev nD) (i : grid1.Coords) (a1 : Memref sig .tc .vmem S256x1024 .f32) (h1 : a1.IsWhole) (a2 : Memref sig .tc .vmem S256x1024 .f32) (h2 : a2.IsWhole) (a3 : Memref sig .tc .vmem S256x2048 .f32) (h3 : a3.IsWhole) (a4 : Memref sig .tc .vmem S1x1024 .f32) (h4 : a4.IsWhole) (a5 : Memref sig .tc .vmem S1024x1024 .bf16) (h5 : a5.IsWhole) (a6 : Memref sig .tc .vmem S1x1024 .f32) (h6 : a6.IsWhole) (a7 : Memref sig .tc .vmem S2048x2048 .bf16) (h7 : a7.IsWhole) (a8 : Memref sig .tc .vmem S1x2048 .f32) (h8 : a8.IsWhole) (a9 : Memref sig .tc .vmem S1024x2048 .bf16) (h9 : a9.IsWhole) (a10 : Memref sig .tc .vmem S1x1024 .f32) (h10 : a10.IsWhole) (a11 : Memref sig .tc .vmem S2048x1024 .bf16) (h11 : a11.IsWhole) (a12 : Memref sig .tc .vmem S1x2048 .f32) (h12 : a12.IsWhole) (a13 : Memref sig .tc .vmem S2048x1024 .bf16) (h13 : a13.IsWhole) (a14 : Memref sig .tc .vmem S1x2048 .f32) (h14 : a14.IsWhole) (a15 : Memref sig .tc .vmem S2048x1024 .bf16) (h15 : a15.IsWhole) (a16 : Memref sig .tc .vmem S1x2048 .f32) (h16 : a16.IsWhole) (a17 : Memref sig .tc .vmem S2048x1024 .bf16) (h17 : a17.IsWhole) (a18 : Memref sig .tc .vmem S1x2048 .f32) (h18 : a18.IsWhole) (a19 : Memref sig .tc .vmem S256x1024 .f32) (h19 : a19.IsWhole) (a20 : Memref sig .tc .vmem S256x2048 .f32) (h20 : a20.IsWhole) (x1 : Vec F S256x1024 .f32) (x2 : Vec F S256x1024 .f32) (x3 : Vec F S256x2048 .f32) (x4 : Vec F S1x1024 .f32) (x5 : Vec F S1024x1024 .bf16) (x6 : Vec F S1x1024 .f32) (x7 : Vec F S2048x2048 .bf16) (x8 : Vec F S1x2048 .f32) (x9 : Vec F S1024x2048 .bf16) (x10 : Vec F S1x1024 .f32) (x11 : Vec F S2048x1024 .bf16) (x12 : Vec F S1x2048 .f32) (x13 : Vec F S2048x1024 .bf16) (x14 : Vec F S1x2048 .f32) (x15 : Vec F S2048x1024 .bf16) (x16 : Vec F S1x2048 .f32) (x17 : Vec F S2048x1024 .bf16) (x18 : Vec F S1x2048 .f32) : Vec F S256x2048 .f32 :=
  VO1_19.read (Elt F) (VO1_19.writes (Elt F) VO1_19.junk (kernelRun1 c i a1 h1 a2 h2 a3 h3 a4 h4 a5 h5 a6 h6 a7 h7 a8 h8 a9 h9 a10 h10 a11 h11 a12 h12 a13 h13 a14 h14 a15 h15 a16 h16 a17 h17 a18 h18 a19 h19 a20 h20 x1 x2 x3 x4 x5 x6 x7 x8 x9 x10 x11 x12 x13 x14 x15 x16 x17 x18).2.1)

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => out1_18 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t)
    | ⟨19, _⟩ => out1_19 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t)
    | ⟨_ + 20, h⟩ => absurd h (Nat.not_lt.2 (Nat.le_add_left _ _))
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = iblk1 V c 16 t := by dsimp only [dat1]
theorem after1_17 (c : Dev nD) (t : Fin cfg1.N) : (dat1 V c).after 17 t = iblk1 V c 17 t := by dsimp only [dat1]
theorem after1_18 (c : Dev nD) (t : Fin cfg1.N) : (dat1 V c).after 18 t = out1_18 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) := by dsimp only [dat1]
theorem after1_19 (c : Dev nD) (t : Fin cfg1.N) : (dat1 V c).after 19 t = out1_19 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d
theorem before1_15 (c : Dev nD) (t : Fin cfg1.N) (d) : (dat1 V c).before 15 t d = iblk1 V c 15 t :=
  before1_15_of V (dat1 V c) (A_eq1 V c 15) (after1_15 V c) t d
theorem before1_16 (c : Dev nD) (t : Fin cfg1.N) (d) : (dat1 V c).before 16 t d = iblk1 V c 16 t :=
  before1_16_of V (dat1 V c) (A_eq1 V c 16) (after1_16 V c) t d
theorem before1_17 (c : Dev nD) (t : Fin cfg1.N) (d) : (dat1 V c).before 17 t d = iblk1 V c 17 t :=
  before1_17_of V (dat1 V c) (A_eq1 V c 17) (after1_17 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d))
    ∗ (∃ d, owns (c : Thread nD τ) (st1_17 t) fullShare ((dat1 V c).before 17 t d))
    ∗ (∃ d, owns (c : Thread nD τ) (st1_18 t) fullShare ((dat1 V c).before 18 t d))
    ∗ (∃ d, owns (c : Thread nD τ) (st1_19 t) fullShare ((dat1 V c).before 19 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t)
    ∗ owns (c : Thread nD τ) (st1_17 t) fullShare ((dat1 V c).after 17 t)
    ∗ owns (c : Thread nD τ) (st1_18 t) fullShare ((dat1 V c).after 18 t)
    ∗ owns (c : Thread nD τ) (st1_19 t) fullShare ((dat1 V c).after 19 t))

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15, before1_16, before1_17]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18, after1_19]
  unfold out1_18 out1_19
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply ((kernelRun1 c (grid1.coords t) _ _ _ _ _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  iintro ⟨H0, H1, H2, H3, H4, H5, H6, H7, H8, H9, H10, H11, H12, H13, H14, H15, H16, H17, ⟨%e18, H18⟩, ⟨%e19, H19⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]
  · unfold owns; iexists _; isplitr
    swap; · iexact H18
    ipureintro; exact View.read_writes_of_cover _ _ _ _ _ (cover1_18 c _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H19
  ipureintro; exact View.read_writes_of_cover _ _ _ _ _ (cover1_19 c _ _ _ _ _ _ _ _ _ _ _ _ _ _ _ _ _ _ _ _ _ _ _ _ _ _ _ _ _ _ _ _ _ _ _ _ _ _ _ _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.RunBits.lean ====
/-
  The whole program's run: host operations, the connection-strength region, host operations, the cell region.  The
  contents of every unscoped buffer are followed from the launch memory through the four segments (a host stretch
  applies its operations; a region leaves its arrays at what its write-backs produce and every other buffer as
  found); every weakly fair execution terminates with every unscoped buffer at the last of these contents.  Read at
  the argument arrays this is the frame; read at the two result arrays it names what the program computes.
-/
import proofs.«132931_j11587821765036_2_alg».proof.Proof.Gen.Kernel.Launch
import proofs.«132931_j11587821765036_2_alg».proof.Proof.Gen.Kernel.Skeleton
import proofs.«132931_j11587821765036_2_alg».proof.Proof.Gen.Kernel.Points
import proofs.«132931_j11587821765036_2_alg».proof.Proof.Gen.Kernel.Regions
import proofs.«132931_j11587821765036_2_alg».proof.Proof.R0Bits
import proofs.«132931_j11587821765036_2_alg».proof.Proof.R1Bits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second region. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 1).trans (((dat1 (V3 m ρ) c).arrAt_in 1 rfl _).trans (A_eq1 (V3 m ρ) c 1))
    _ = W2 m ρ c (Proc.devRef .tc main_arg1) := StableHlo.after_of_writes_sub hostOps1 _ hostOps1_writes (by decide)
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := (W4_arr m ρ c 2).trans (((dat1 (V3 m ρ) c).arrAt_in 2 rfl _).trans (A_eq1 (V3 m ρ) c 2))
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

theorem W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := StableHlo.after_of_writes_sub hostOps1 _ hostOps1_writes (by decide)
    _ = W1 m ρ c (Proc.devRef .tc main_arg13) := W2_of_ne m ρ c main_arg13 (by decide)
    _ = W0 m ρ c (Proc.devRef .tc main_arg13) := StableHlo.after_of_writes_sub hostOps0 _ hostOps0_writes (by decide)
    _ = m ((c : Thread nD τ).loc main_arg13) := rfl

theorem W4_main_arg14 (c : Dev nD) : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := StableHlo.after_of_writes_sub hostOps1 _ hostOps1_writes (by decide)
    _ = W1 m ρ c (Proc.devRef .tc main_arg14) := W2_of_ne m ρ c main_arg14 (by decide)
    _ = W0 m ρ c (Proc.devRef .tc main_arg14) := StableHlo.after_of_writes_sub hostOps0 _ hostOps0_writes (by decide)
    _ = m ((c : Thread nD τ).loc main_arg14) := rfl

theorem W4_main_arg15 (c : Dev nD) : W4 m ρ c (Proc.devRef .tc main_arg15) = m ((c : Thread nD τ).loc main_arg15) :=
  calc W4 m ρ c (Proc.devRef .tc main_arg15)
    _ = W3 m ρ c (Proc.devRef .tc main_arg15) := W4_of_ne m ρ c main_arg15 (by decide)
    _ = W2 m ρ c (Proc.devRef .tc main_arg15) := StableHlo.after_of_writes_sub hostOps1 _ hostOps1_writes (by decide)
    _ = W1 m ρ c (Proc.devRef .tc main_arg15) := W2_of_ne m ρ c main_arg15 (by decide)
    _ = W0 m ρ c (Proc.devRef .tc main_arg15) := StableHlo.after_of_writes_sub hostOps0 _ hostOps0_writes (by decide)
    _ = m ((c : Thread nD τ).loc main_arg15) := rfl

theorem W4_main_arg16 (c : Dev nD) : W4 m ρ c (Proc.devRef .tc main_arg16) = m ((c : Thread nD τ).loc main_arg16) :=
  calc W4 m ρ c (Proc.devRef .tc main_arg16)
    _ = W3 m ρ c (Proc.devRef .tc main_arg16) := W4_of_ne m ρ c main_arg16 (by decide)
    _ = W2 m ρ c (Proc.devRef .tc main_arg16) := StableHlo.after_of_writes_sub hostOps1 _ hostOps1_writes (by decide)
    _ = W1 m ρ c (Proc.devRef .tc main_arg16) := W2_of_ne m ρ c main_arg16 (by decide)
    _ = W0 m ρ c (Proc.devRef .tc main_arg16) := StableHlo.after_of_writes_sub hostOps0 _ hostOps0_writes (by decide)
    _ = m ((c : Thread nD τ).loc main_arg16) := rfl

theorem W4_main_arg17 (c : Dev nD) : W4 m ρ c (Proc.devRef .tc main_arg17) = m ((c : Thread nD τ).loc main_arg17) :=
  calc W4 m ρ c (Proc.devRef .tc main_arg17)
    _ = W3 m ρ c (Proc.devRef .tc main_arg17) := W4_of_ne m ρ c main_arg17 (by decide)
    _ = W2 m ρ c (Proc.devRef .tc main_arg17) := StableHlo.after_of_writes_sub hostOps1 _ hostOps1_writes (by decide)
    _ = W1 m ρ c (Proc.devRef .tc main_arg17) := W2_of_ne m ρ c main_arg17 (by decide)
    _ = W0 m ρ c (Proc.devRef .tc main_arg17) := StableHlo.after_of_writes_sub hostOps0 _ hostOps0_writes (by decide)
    _ = m ((c : Thread nD τ).loc main_arg17) := rfl

theorem W4_main_arg18 (c : Dev nD) : W4 m ρ c (Proc.devRef .tc main_arg18) = m ((c : Thread nD τ).loc main_arg18) :=
  calc W4 m ρ c (Proc.devRef .tc main_arg18)
    _ = W3 m ρ c (Proc.devRef .tc main_arg18) := W4_of_ne m ρ c main_arg18 (by decide)
    _ = W2 m ρ c (Proc.devRef .tc main_arg18) := StableHlo.after_of_writes_sub hostOps1 _ hostOps1_writes (by decide)
    _ = W1 m ρ c (Proc.devRef .tc main_arg18) := W2_of_ne m ρ c main_arg18 (by decide)
    _ = W0 m ρ c (Proc.devRef .tc main_arg18) := StableHlo.after_of_writes_sub hostOps0 _ hostOps0_writes (by decide)
    _ = m ((c : Thread nD τ).loc main_arg18) := rfl

theorem W4_main_arg19 (c : Dev nD) : W4 m ρ c (Proc.devRef .tc main_arg19) = m ((c : Thread nD τ).loc main_arg19) :=
  calc W4 m ρ c (Proc.devRef .tc main_arg19)
    _ = W3 m ρ c (Proc.devRef .tc main_arg19) := W4_of_ne m ρ c main_arg19 (by decide)
    _ = W2 m ρ c (Proc.devRef .tc main_arg19) := StableHlo.after_of_writes_sub hostOps1 _ hostOps1_writes (by decide)
    _ = W1 m ρ c (Proc.devRef .tc main_arg19) := W2_of_ne m ρ c main_arg19 (by decide)
    _ = W0 m ρ c (Proc.devRef .tc main_arg19) := StableHlo.after_of_writes_sub hostOps0 _ hostOps0_writes (by decide)
    _ = m ((c : Thread nD τ).loc main_arg19) := rfl

theorem W4_main_arg20 (c : Dev nD) : W4 m ρ c (Proc.devRef .tc main_arg20) = m ((c : Thread nD τ).loc main_arg20) :=
  calc W4 m ρ c (Proc.devRef .tc main_arg20)
    _ = W3 m ρ c (Proc.devRef .tc main_arg20) := W4_of_ne m ρ c main_arg20 (by decide)
    _ = W2 m ρ c (Proc.devRef .tc main_arg20) := StableHlo.after_of_writes_sub hostOps1 _ hostOps1_writes (by decide)
    _ = W1 m ρ c (Proc.devRef .tc main_arg20) := W2_of_ne m ρ c main_arg20 (by decide)
    _ = W0 m ρ c (Proc.devRef .tc main_arg20) := StableHlo.after_of_writes_sub hostOps0 _ hostOps0_writes (by decide)
    _ = m ((c : Thread nD τ).loc main_arg20) := rfl

theorem W4_main_arg21 (c : Dev nD) : W4 m ρ c (Proc.devRef .tc main_arg21) = m ((c : Thread nD τ).loc main_arg21) :=
  calc W4 m ρ c (Proc.devRef .tc main_arg21)
    _ = W3 m ρ c (Proc.devRef .tc main_arg21) := W4_of_ne m ρ c main_arg21 (by decide)
    _ = W2 m ρ c (Proc.devRef .tc main_arg21) := StableHlo.after_of_writes_sub hostOps1 _ hostOps1_writes (by decide)
    _ = W1 m ρ c (Proc.devRef .tc main_arg21) := W2_of_ne m ρ c main_arg21 (by decide)
    _ = W0 m ρ c (Proc.devRef .tc main_arg21) := StableHlo.after_of_writes_sub hostOps0 _ hostOps0_writes (by decide)
    _ = m ((c : Thread nD τ).loc main_arg21) := rfl

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

-- a library lemma stated over the pinned configuration unifies with the printed one only when unification may unfold plain
-- definitions in a metavariable's type
set_option backward.isDefEq.respectTransparency.types false in
/-- Region 0 over the thread state: entered with every unscoped buffer at `W1`, left with them at `W2`.  Its arrays are
    split out of the unscoped buffers and put back at what the write-backs leave; the generator register goes into the
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Region 1 over the thread state: entered with every unscoped buffer at `W3`, left with them at `W4`.  Its arrays are
    split out of the unscoped buffers and put back at what the write-backs leave; the generator register goes into the
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN.  From any memory with zero counters every weakly fair execution terminates, nothing faulting, and every
    final state has every unscoped buffer at the contents `W4` computes. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME, at any `F`: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c),
    (h c _ (mem_uc main_arg12 (by decide))).trans (W4_main_arg12 m ρ c),
    (h c _ (mem_uc main_arg13 (by decide))).trans (W4_main_arg13 m ρ c),
    (h c _ (mem_uc main_arg14 (by decide))).trans (W4_main_arg14 m ρ c),
    (h c _ (mem_uc main_arg15 (by decide))).trans (W4_main_arg15 m ρ c),
    (h c _ (mem_uc main_arg16 (by decide))).trans (W4_main_arg16 m ρ c),
    (h c _ (mem_uc main_arg17 (by decide))).trans (W4_main_arg17 m ρ c),
    (h c _ (mem_uc main_arg18 (by decide))).trans (W4_main_arg18 m ρ c),
    (h c _ (mem_uc main_arg19 (by decide))).trans (W4_main_arg19 m ρ c),
    (h c _ (mem_uc main_arg20 (by decide))).trans (W4_main_arg20 m ρ c),
    (h c _ (mem_uc main_arg21 (by decide))).trans (W4_main_arg21 m ρ c)⟩) (run_all m ρ)

end Cert.Kernel.Hand

end
-- ==== Proof.R0RunIdeal.lean ====
/-
  The connection-strength kernel, run symbolically at one grid point.  The kernel keeps a running sum in a scratch
  buffer: the first point clears it, every point adds its block's column sums of absolute values, the last point
  turns the sum into the connection strength and stores it.  Three control cases follow: first point (A), middle
  points (B), last point (C).  For each case the body's run is stated on arbitrary whole buffers: the inputs come
  back unchanged, the scratch and (in case C) the output end with the pieces the stores wrote.
-/
import proofs.«132931_j11587821765036_2_alg».proof.Proof.Gen.KernelIdeal.Launch
import proofs.«132931_j11587821765036_2_alg».proof.Proof.Gen.KernelIdeal.Skeleton
import proofs.«132931_j11587821765036_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions, decided over the four grid points -/

/-- "this is the first point", as the body computes it from the grid coordinate. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "this is the last point". -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## The body's run, case by case -/

set_option maxHeartbeats 1000000 in
/-- Case A (first point): the scratch is cleared and then receives the first block's sums; the output is not touched. -/
noncomputable def kernelRun0_A (c : Dev nD) (i : grid0.Coords) (a1 : Memref sig .tc .vmem S2048x1024 .f32) (h1 : a1.IsWhole) (a2 : Memref sig .tc .vmem S1x1024 .f32) (h2 : a2.IsWhole) (a3 : Memref sig .tc .vmem S1x1 .f32) (h3 : a3.IsWhole) (a4 : Memref sig .tc .vmem S1x1024 .f32) (h4 : a4.IsWhole) (a5 : Memref sig .tc .vmem S1x1024 .f32) (h5 : a5.IsWhole) (sc : Memref sig .tc .vmem S1x1024 .f32) (hsc : sc.IsWhole) (hc0 : cond0_0 i) (hc1 : ¬cond0_1 i)
    (x0 : Vec F S2048x1024 .f32) (x1 : Vec F S1x1024 .f32) (x2 : Vec F S1x1 .f32) (x3 : Vec F S1x1024 .f32) :
    { LS : List (View.Piece (Elt F) S1x1024 .f32) //
      ∀ (xi : Vec F S1x1024 .f32) (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3
            ∗ owns (c : Thread nD τ) a5 fullShare xi ∗ (∃ d, owns (c : Thread nD τ) sc fullShare d)
            ∗ (iprop(owns (c : Thread nD τ) a1 fullShare x0 ∗ owns (c : Thread nD τ) a2 fullShare x1 ∗ owns (c : Thread nD τ) a3 fullShare x2 ∗ owns (c : Thread nD τ) a4 fullShare x3
                ∗ owns (c : Thread nD τ) a5 fullShare xi ∗ (∃ f, sc.view.loc (c : Thread nD τ) ↦[sc.view.set]{fullShare} sc.view.writes (Elt F) f LS)) -∗ K ⟨⟩))
          ⊢ wp frame (wpE (defs₀ (F := F)) Variants.none c none) E (cc0__cs_kernel i a1 h1 a2 h2 a3 h3 a4 h4 a5 h5 sc hsc) K } := by
  refine ⟨?_, fun xi E K => ?run⟩
  case run =>
    simp only [cc0__cs_kernel_eq_skeleton]; unfold cc0__cs_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := h1.eq_unread hf0; obtain rfl := h2.eq_unread hf1; obtain rfl := h3.eq_unread hf2; obtain rfl := h4.eq_unread hf3; obtain rfl := h5.eq_unread hf4
    sl_exec (disch := first | exact hc0 | exact hc1)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    isplitl [H4]
    · iexists _; isplitr; · ipureintro; exact h5.read_unread _
      iexact H4
    iexists _; iexact HS

set_option maxHeartbeats 1000000 in
/-- Case B (a middle point): the scratch, holding `xs`, receives `xs` plus the block's sums; the output is not touched. -/
noncomputable def kernelRun0_B (c : Dev nD) (i : grid0.Coords) (a1 : Memref sig .tc .vmem S2048x1024 .f32) (h1 : a1.IsWhole) (a2 : Memref sig .tc .vmem S1x1024 .f32) (h2 : a2.IsWhole) (a3 : Memref sig .tc .vmem S1x1 .f32) (h3 : a3.IsWhole) (a4 : Memref sig .tc .vmem S1x1024 .f32) (h4 : a4.IsWhole) (a5 : Memref sig .tc .vmem S1x1024 .f32) (h5 : a5.IsWhole) (sc : Memref sig .tc .vmem S1x1024 .f32) (hsc : sc.IsWhole) (hc0 : ¬cond0_0 i) (hc1 : ¬cond0_1 i)
    (x0 : Vec F S2048x1024 .f32) (x1 : Vec F S1x1024 .f32) (x2 : Vec F S1x1 .f32) (x3 : Vec F S1x1024 .f32) (xs : Vec F S1x1024 .f32) :
    { LS : List (View.Piece (Elt F) S1x1024 .f32) //
      ∀ (xi : Vec F S1x1024 .f32) (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3
            ∗ owns (c : Thread nD τ) a5 fullShare xi ∗ owns (c : Thread nD τ) sc fullShare xs
            ∗ (iprop(owns (c : Thread nD τ) a1 fullShare x0 ∗ owns (c : Thread nD τ) a2 fullShare x1 ∗ owns (c : Thread nD τ) a3 fullShare x2 ∗ owns (c : Thread nD τ) a4 fullShare x3
                ∗ owns (c : Thread nD τ) a5 fullShare xi ∗ (∃ f, sc.view.loc (c : Thread nD τ) ↦[sc.view.set]{fullShare} sc.view.writes (Elt F) f LS)) -∗ K ⟨⟩))
          ⊢ wp frame (wpE (defs₀ (F := F)) Variants.none c none) E (cc0__cs_kernel i a1 h1 a2 h2 a3 h3 a4 h4 a5 h5 sc hsc) K } := by
  refine ⟨?_, fun xi E K => ?run⟩
  case run =>
    simp only [cc0__cs_kernel_eq_skeleton]; unfold cc0__cs_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := h1.eq_unread hf0; obtain rfl := h2.eq_unread hf1; obtain rfl := h3.eq_unread hf2; obtain rfl := h4.eq_unread hf3; obtain rfl := h5.eq_unread hf4; obtain rfl := hsc.eq_unread hfs
    sl_exec (disch := first | exact hc0 | exact hc1)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    isplitl [H4]
    · iexists _; isplitr; · ipureintro; exact h5.read_unread _
      iexact H4
    iexists _; iexact HS

set_option maxHeartbeats 1000000 in
/-- Case C (the last point): the scratch receives its last block's sums, and the output receives the connection strength
    computed from the scratch's final contents and the three small operands. -/
noncomputable def kernelRun0_C (c : Dev nD) (i : grid0.Coords) (a1 : Memref sig .tc .vmem S2048x1024 .f32) (h1 : a1.IsWhole) (a2 : Memref sig .tc .vmem S1x1024 .f32) (h2 : a2.IsWhole) (a3 : Memref sig .tc .vmem S1x1 .f32) (h3 : a3.IsWhole) (a4 : Memref sig .tc .vmem S1x1024 .f32) (h4 : a4.IsWhole) (a5 : Memref sig .tc .vmem S1x1024 .f32) (h5 : a5.IsWhole) (sc : Memref sig .tc .vmem S1x1024 .f32) (hsc : sc.IsWhole) (hc0 : ¬cond0_0 i) (hc1 : cond0_1 i)
    (x0 : Vec F S2048x1024 .f32) (x1 : Vec F S1x1024 .f32) (x2 : Vec F S1x1 .f32) (x3 : Vec F S1x1024 .f32) (xs : Vec F S1x1024 .f32) :
    Σ' (LO : List (View.Piece (Elt F) S1x1024 .f32)), { LS : List (View.Piece (Elt F) S1x1024 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3
            ∗ (∃ d, owns (c : Thread nD τ) a5 fullShare d) ∗ owns (c : Thread nD τ) sc fullShare xs
            ∗ (iprop(owns (c : Thread nD τ) a1 fullShare x0 ∗ owns (c : Thread nD τ) a2 fullShare x1 ∗ owns (c : Thread nD τ) a3 fullShare x2 ∗ owns (c : Thread nD τ) a4 fullShare x3
                ∗ (∃ f, a5.view.loc (c : Thread nD τ) ↦[a5.view.set]{fullShare} a5.view.writes (Elt F) f LO)
                ∗ (∃ f, sc.view.loc (c : Thread nD τ) ↦[sc.view.set]{fullShare} sc.view.writes (Elt F) f LS)) -∗ K ⟨⟩))
          ⊢ wp frame (wpE (defs₀ (F := F)) Variants.none c none) E (cc0__cs_kernel i a1 h1 a2 h2 a3 h3 a4 h4 a5 h5 sc hsc) K } := by
  refine ⟨?_, ?_, fun E K => ?run⟩
  case run =>
    simp only [cc0__cs_kernel_eq_skeleton]; unfold cc0__cs_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := h1.eq_unread hf0; obtain rfl := h2.eq_unread hf1; obtain rfl := h3.eq_unread hf2; obtain rfl := h4.eq_unread hf3; obtain rfl := hsc.eq_unread hfs
    sl_exec (disch := first | exact hc0 | exact hc1)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    isplitl [H4]; · iexists _; iexact H4
    iexists _; iexact HS

end Cert.KernelIdeal.Hand

end
-- ==== Proof.R0Ideal.lean ====
/-
  The connection-strength kernel as one pipeline region: what its scratch accumulator and its output buffer hold
  after every grid point (a recursion over the four points: cleared and first block added; two more blocks added;
  last block added and the strength stored), the region's invariant carrying the scratch's contents from point to
  point, and the proof that the body, run at any point from that invariant and the windows' blocks, re-establishes it.
-/
import proofs.«132931_j11587821765036_2_alg».proof.Proof.Gen.KernelIdeal.Launch
import proofs.«132931_j11587821765036_2_alg».proof.Proof.Gen.KernelIdeal.Skeleton
import proofs.«132931_j11587821765036_2_alg».proof.Proof.Gen.KernelIdeal.Points
import proofs.«132931_j11587821765036_2_alg».proof.Proof.R0RunIdeal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, whether the point fetches it or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, whether the point fetches it or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, whether the point fetches it or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, whether the point fetches it or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last point the output window is idle and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The buffers the body is called with -/

abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
/-- The scratch accumulator: a whole scoped buffer of the kernel's own. -/
abbrev scM0 : Memref sig .tc .vmem S1x1024 .f32 := Memref.whole cc0_scratch0
abbrev VS0 : View sig .tc .vmem S1x1024 .f32 := scM0.view
/-- The output's staging buffer, as a view through which its contents are stated. -/
abbrev VO0 : View sig .tc .vmem S1x1024 .f32 := (Memref.whole cc0_stg4_0 : Memref sig .tc .vmem S1x1024 .f32).view

/-- The class invariant with the scratch split off: the scratch at some contents, every other scoped buffer unopened,
    the generator register at some state. -/
theorem PhiA0_eq (c : Dev nD) :
    (Pipeline.ΦA spec0 c : sProp 𝕄)
      = iprop(iprop(iprop((∃ d, owns (c : Thread nD τ) scM0 fullShare d)) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

/-! ## What each case leaves -/

theorem scover0_A (c : Dev nD) (i : grid0.Coords) (a1 : Memref sig .tc .vmem S2048x1024 .f32) (h1 : a1.IsWhole) (a2 : Memref sig .tc .vmem S1x1024 .f32) (h2 : a2.IsWhole) (a3 : Memref sig .tc .vmem S1x1 .f32) (h3 : a3.IsWhole) (a4 : Memref sig .tc .vmem S1x1024 .f32) (h4 : a4.IsWhole) (a5 : Memref sig .tc .vmem S1x1024 .f32) (h5 : a5.IsWhole) (sc : Memref sig .tc .vmem S1x1024 .f32) (hsc : sc.IsWhole) (hc0 : cond0_0 i) (hc1 : ¬cond0_1 i) (x0 : Vec F S2048x1024 .f32) (x1 : Vec F S1x1024 .f32) (x2 : Vec F S1x1 .f32) (x3 : Vec F S1x1024 .f32) (y : S1x1024.Idx) :
    ∃ pc ∈ (kernelRun0_A c i a1 h1 a2 h2 a3 h3 a4 h4 a5 h5 sc hsc hc0 hc1 x0 x1 x2 x3).1, y ∈ pc.1.set :=
  View.cover_of_tiledL (kernelRun0_A c i a1 h1 a2 h2 a3 h3 a4 h4 a5 h5 sc hsc hc0 hc1 x0 x1 x2 x3).1 S1x1024.size (by sl_kernel_rfl) y

/-- What the first point leaves in the scratch. -/
def sout0_A (c : Dev nD) (i : grid0.Coords) (a1 : Memref sig .tc .vmem S2048x1024 .f32) (h1 : a1.IsWhole) (a2 : Memref sig .tc .vmem S1x1024 .f32) (h2 : a2.IsWhole) (a3 : Memref sig .tc .vmem S1x1 .f32) (h3 : a3.IsWhole) (a4 : Memref sig .tc .vmem S1x1024 .f32) (h4 : a4.IsWhole) (a5 : Memref sig .tc .vmem S1x1024 .f32) (h5 : a5.IsWhole) (sc : Memref sig .tc .vmem S1x1024 .f32) (hsc : sc.IsWhole) (hc0 : cond0_0 i) (hc1 : ¬cond0_1 i) (x0 : Vec F S2048x1024 .f32) (x1 : Vec F S1x1024 .f32) (x2 : Vec F S1x1 .f32) (x3 : Vec F S1x1024 .f32) : Vec F S1x1024 .f32 :=
  VS0.read (Elt F) (VS0.writes (Elt F) VS0.junk (kernelRun0_A c i a1 h1 a2 h2 a3 h3 a4 h4 a5 h5 sc hsc hc0 hc1 x0 x1 x2 x3).1)

theorem scover0_B (c : Dev nD) (i : grid0.Coords) (a1 : Memref sig .tc .vmem S2048x1024 .f32) (h1 : a1.IsWhole) (a2 : Memref sig .tc .vmem S1x1024 .f32) (h2 : a2.IsWhole) (a3 : Memref sig .tc .vmem S1x1 .f32) (h3 : a3.IsWhole) (a4 : Memref sig .tc .vmem S1x1024 .f32) (h4 : a4.IsWhole) (a5 : Memref sig .tc .vmem S1x1024 .f32) (h5 : a5.IsWhole) (sc : Memref sig .tc .vmem S1x1024 .f32) (hsc : sc.IsWhole) (hc0 : ¬cond0_0 i) (hc1 : ¬cond0_1 i) (x0 : Vec F S2048x1024 .f32) (x1 : Vec F S1x1024 .f32) (x2 : Vec F S1x1 .f32) (x3 : Vec F S1x1024 .f32) (xs : Vec F S1x1024 .f32) (y : S1x1024.Idx) :
    ∃ pc ∈ (kernelRun0_B c i a1 h1 a2 h2 a3 h3 a4 h4 a5 h5 sc hsc hc0 hc1 x0 x1 x2 x3 xs).1, y ∈ pc.1.set :=
  View.cover_of_tiledL (kernelRun0_B c i a1 h1 a2 h2 a3 h3 a4 h4 a5 h5 sc hsc hc0 hc1 x0 x1 x2 x3 xs).1 S1x1024.size (by sl_kernel_rfl) y

/-- What a middle point leaves in the scratch, from what the point before left (`xs`). -/
def sout0_B (c : Dev nD) (i : grid0.Coords) (a1 : Memref sig .tc .vmem S2048x1024 .f32) (h1 : a1.IsWhole) (a2 : Memref sig .tc .vmem S1x1024 .f32) (h2 : a2.IsWhole) (a3 : Memref sig .tc .vmem S1x1 .f32) (h3 : a3.IsWhole) (a4 : Memref sig .tc .vmem S1x1024 .f32) (h4 : a4.IsWhole) (a5 : Memref sig .tc .vmem S1x1024 .f32) (h5 : a5.IsWhole) (sc : Memref sig .tc .vmem S1x1024 .f32) (hsc : sc.IsWhole) (hc0 : ¬cond0_0 i) (hc1 : ¬cond0_1 i) (x0 : Vec F S2048x1024 .f32) (x1 : Vec F S1x1024 .f32) (x2 : Vec F S1x1 .f32) (x3 : Vec F S1x1024 .f32) (xs : Vec F S1x1024 .f32) : Vec F S1x1024 .f32 :=
  VS0.read (Elt F) (VS0.writes (Elt F) VS0.junk (kernelRun0_B c i a1 h1 a2 h2 a3 h3 a4 h4 a5 h5 sc hsc hc0 hc1 x0 x1 x2 x3 xs).1)

theorem cover0_C (c : Dev nD) (i : grid0.Coords) (a1 : Memref sig .tc .vmem S2048x1024 .f32) (h1 : a1.IsWhole) (a2 : Memref sig .tc .vmem S1x1024 .f32) (h2 : a2.IsWhole) (a3 : Memref sig .tc .vmem S1x1 .f32) (h3 : a3.IsWhole) (a4 : Memref sig .tc .vmem S1x1024 .f32) (h4 : a4.IsWhole) (a5 : Memref sig .tc .vmem S1x1024 .f32) (h5 : a5.IsWhole) (sc : Memref sig .tc .vmem S1x1024 .f32) (hsc : sc.IsWhole) (hc0 : ¬cond0_0 i) (hc1 : cond0_1 i) (x0 : Vec F S2048x1024 .f32) (x1 : Vec F S1x1024 .f32) (x2 : Vec F S1x1 .f32) (x3 : Vec F S1x1024 .f32) (xs : Vec F S1x1024 .f32) (y : S1x1024.Idx) :
    ∃ pc ∈ (kernelRun0_C c i a1 h1 a2 h2 a3 h3 a4 h4 a5 h5 sc hsc hc0 hc1 x0 x1 x2 x3 xs).1, y ∈ pc.1.set :=
  View.cover_of_tiledL (kernelRun0_C c i a1 h1 a2 h2 a3 h3 a4 h4 a5 h5 sc hsc hc0 hc1 x0 x1 x2 x3 xs).1 S1x1024.size (by sl_kernel_rfl) y

/-- What the last point leaves in the output's buffer. -/
def out0_C (c : Dev nD) (i : grid0.Coords) (a1 : Memref sig .tc .vmem S2048x1024 .f32) (h1 : a1.IsWhole) (a2 : Memref sig .tc .vmem S1x1024 .f32) (h2 : a2.IsWhole) (a3 : Memref sig .tc .vmem S1x1 .f32) (h3 : a3.IsWhole) (a4 : Memref sig .tc .vmem S1x1024 .f32) (h4 : a4.IsWhole) (a5 : Memref sig .tc .vmem S1x1024 .f32) (h5 : a5.IsWhole) (sc : Memref sig .tc .vmem S1x1024 .f32) (hsc : sc.IsWhole) (hc0 : ¬cond0_0 i) (hc1 : cond0_1 i) (x0 : Vec F S2048x1024 .f32) (x1 : Vec F S1x1024 .f32) (x2 : Vec F S1x1 .f32) (x3 : Vec F S1x1024 .f32) (xs : Vec F S1x1024 .f32) : Vec F S1x1024 .f32 :=
  VO0.read (Elt F) (VO0.writes (Elt F) VO0.junk (kernelRun0_C c i a1 h1 a2 h2 a3 h3 a4 h4 a5 h5 sc hsc hc0 hc1 x0 x1 x2 x3 xs).1)

theorem scover0_C (c : Dev nD) (i : grid0.Coords) (a1 : Memref sig .tc .vmem S2048x1024 .f32) (h1 : a1.IsWhole) (a2 : Memref sig .tc .vmem S1x1024 .f32) (h2 : a2.IsWhole) (a3 : Memref sig .tc .vmem S1x1 .f32) (h3 : a3.IsWhole) (a4 : Memref sig .tc .vmem S1x1024 .f32) (h4 : a4.IsWhole) (a5 : Memref sig .tc .vmem S1x1024 .f32) (h5 : a5.IsWhole) (sc : Memref sig .tc .vmem S1x1024 .f32) (hsc : sc.IsWhole) (hc0 : ¬cond0_0 i) (hc1 : cond0_1 i) (x0 : Vec F S2048x1024 .f32) (x1 : Vec F S1x1024 .f32) (x2 : Vec F S1x1 .f32) (x3 : Vec F S1x1024 .f32) (xs : Vec F S1x1024 .f32) (y : S1x1024.Idx) :
    ∃ pc ∈ (kernelRun0_C c i a1 h1 a2 h2 a3 h3 a4 h4 a5 h5 sc hsc hc0 hc1 x0 x1 x2 x3 xs).2.1, y ∈ pc.1.set :=
  View.cover_of_tiledL (kernelRun0_C c i a1 h1 a2 h2 a3 h3 a4 h4 a5 h5 sc hsc hc0 hc1 x0 x1 x2 x3 xs).2.1 S1x1024.size (by sl_kernel_rfl) y

/-- What the last point leaves in the scratch. -/
def sout0_C (c : Dev nD) (i : grid0.Coords) (a1 : Memref sig .tc .vmem S2048x1024 .f32) (h1 : a1.IsWhole) (a2 : Memref sig .tc .vmem S1x1024 .f32) (h2 : a2.IsWhole) (a3 : Memref sig .tc .vmem S1x1 .f32) (h3 : a3.IsWhole) (a4 : Memref sig .tc .vmem S1x1024 .f32) (h4 : a4.IsWhole) (a5 : Memref sig .tc .vmem S1x1024 .f32) (h5 : a5.IsWhole) (sc : Memref sig .tc .vmem S1x1024 .f32) (hsc : sc.IsWhole) (hc0 : ¬cond0_0 i) (hc1 : cond0_1 i) (x0 : Vec F S2048x1024 .f32) (x1 : Vec F S1x1024 .f32) (x2 : Vec F S1x1 .f32) (x3 : Vec F S1x1024 .f32) (xs : Vec F S1x1024 .f32) : Vec F S1x1024 .f32 :=
  VS0.read (Elt F) (VS0.writes (Elt F) VS0.junk (kernelRun0_C c i a1 h1 a2 h2 a3 h3 a4 h4 a5 h5 sc hsc hc0 hc1 x0 x1 x2 x3 xs).2.1)

/-- Contents nothing reads: the output's buffer at a point that neither stores into it nor writes it back. -/
def unread0 : Vec F S1x1024 .f32 := VO0.read (Elt F) VO0.junk

/-! ## The accumulation, point by point -/

theorem N0_eq : cfg0.N = 4 := N_0

/-- What the output's buffer and the scratch hold after the body at position `n`: the case the position selects, run at
    the point's buffers and blocks, the scratch continued from what position `n - 1` left. -/
def outsAt0 (c : Dev nD) : (n : ℕ) → n < cfg0.N → Vec F S1x1024 .f32 × Vec F S1x1024 .f32
  | 0, hn => (unread0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h1 : (n + 1) % 4 = 3 then
      (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => (fun h => by (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2,
       sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => (fun h => by (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
    else
      (unread0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => (fun h => by (try dsimp only at h); have := N0_eq; omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

/-- `outsAt0` at the first point. -/
theorem outsAt0_A (c : Dev nD) (t : Fin cfg0.N) (h0 : t.val % 4 = 0) (h1 : ¬t.val % 4 = 3) :
    outsAt0 V c t.val t.isLt = (unread0, sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (by exfalso; (try dsimp only at h0); have := N0_eq; omega)

/-- `outsAt0` at a middle point: over what the point before left. -/
theorem outsAt0_B (c : Dev nD) (t : Fin cfg0.N) (h0 : ¬t.val % 4 = 0) (h1 : ¬t.val % 4 = 3) :
    outsAt0 V c t.val t.isLt = (unread0, sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

/-- `outsAt0` at the last point: over what the point before left. -/
theorem outsAt0_C (c : Dev nD) (t : Fin cfg0.N) (h0 : ¬t.val % 4 = 0) (h1 : t.val % 4 = 3) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-! ## The region's invariant -/

/-- Before position `n`: at the start the class's invariant (every scoped buffer no window stages at anything); afterwards
    the scratch at what the point before left, the other scoped buffers unopened, the generator register at some state. -/
def PhiS (c : Dev nD) : (n : ℕ) → n ≤ cfg0.N → sProp 𝕄
  | 0, _ => Pipeline.ΦA spec0 c
  | n + 1, hn => iprop(iprop(iprop(owns (c : Thread nD τ) scM0 fullShare ((outsAt0 V c n hn).2)) ∗ Pipeline.scopedRestBut (Ix := Unit) (Name := ℕ) (U := UR sig nD τ) (Lvl := ℕ) (Val := Elt F) spec0 c [cc0_scratch0]) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(iprop(owns (c : Thread nD τ) scM0 fullShare ((outsAt0 V c n hn).2)) ∗ Pipeline.scopedRestBut (Ix := Unit) (Name := ℕ) (U := UR sig nD τ) (Lvl := ℕ) (Val := Elt F) spec0 c [cc0_scratch0]) ∗ (∃ r, prngReg c r)) := rfl

theorem PhiS_pos (c : Dev nD) (n : ℕ) (h : n ≤ cfg0.N) (hz : n ≠ 0) :
    PhiS V c n h = iprop(iprop(iprop(owns (c : Thread nD τ) scM0 fullShare ((outsAt0 V c (n - 1) (by omega)).2)) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The region's proof data -/

/-- The arrays as the region finds them; after the body at point `t` each input's buffer at its block and the output's
    at `outsAt0`'s first component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

theorem leaves0_0 (c : Dev nD) (t : Fin cfg0.N) :
    (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) :
    (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) :
    (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) :
    (dat0 V c).leavesExact 3 t = owns (c : Thread nD τ) (ms0_3 t) fullShare (iblk0 V c 3 t) := by
  unfold Dat.leavesExact; rw [liveAt0_3 t, after0_3]

set_option maxHeartbeats 4800000 in
/-- The body at any point.  The position selects the case; the invariant hands the body the scratch at what the point
    before left (at anything at the first point) and takes it back at this point's contents; an output buffer the case
    does not store into is handed back as found; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2, leaves0_3]
  have hN : t.val < 4 := lt_of_lt_of_eq t.isLt N0_eq
  by_cases h1 : t.val % 4 = 3
  · have h0 : ¬t.val % 4 = 0 := by omega
    have hz : t.val ≠ 0 := by omega
    rw [show (dat0 V c).leavesExact 4 t = owns (c : Thread nD τ) (ms0_4 t) fullShare ((dat0 V c).after 4 t) from by
      unfold Dat.leavesExact; rw [liveAt0_4 t ((hcond0_1 t).mpr h1)], after0_4]
    rw [outsAt0_C V c t h0 h1]
    unfold out0_C sout0_C; (try dsimp only)
    rw [PhiS_castSucc V c t, PhiS_pos V c _ _ hz]
    iintro ⟨⟨⟨HS, HR⟩, Hg⟩, Ho, ⟨%d0, H0⟩, ⟨%d1, H1⟩, ⟨%d2, H2⟩, ⟨%d3, H3⟩, ⟨%d4, H4⟩⟩
    iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS HR Hg]
    · isplitl [HS HR]
      · isplitl [HS]
        · unfold owns; iexists _; isplitr
          swap; · iexact HS
          ipureintro; exact View.read_writes_of_cover _ _ _ _ _ (scover0_C c _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_C c _ _ _ _ _ _ _ _ _ _ _ _ _ _ _ _ _ _ _ _)
  · rw [Dat.leavesExact_idle (dat0 V c) 4 t (idleAt0_4 t (fun h => h1 ((hcond0_1 t).mp h))) (noFlush0_4 t (fun h => h1 ((hcond0_1 t).mp h)))]
    by_cases h0 : t.val % 4 = 0
    · have hz : t.val = 0 := by omega
      rw [outsAt0_A V c t h0 h1]
      unfold sout0_A; (try dsimp only)
      rw [PhiS_castSucc V c t, PhiS_zero V c _ _ hz, PhiA0_eq]
      iintro ⟨⟨⟨HS, HR⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scover0_A c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
    · have hz : t.val ≠ 0 := by omega
      rw [outsAt0_B V c t h0 h1]
      unfold sout0_B; (try dsimp only)
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scover0_B c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the scratch's named contents are forgotten. -/
theorem hout0 (c : Dev nD) : (dat0 V c).Φ (Fin.last cfg0.N) ⊢ Pipeline.ΦA spec0 c := by
  have ht : (Fin.last cfg0.N).val ≠ 0 := by rw [Fin.val_last]; have := N0_eq; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS, HR⟩, Hg⟩
  isplitl [HS HR]
  · isplitl [HS]
    · iexists _; iexact HS
    iexact HR
  iexact Hg

end Cert.KernelIdeal.Hand

end
-- ==== Proof.R1RunIdeal.lean ====
/-
  The cell kernel, run symbolically at one grid point: on arbitrary whole buffers, the eighteen inputs (three
  activation blocks, the connection strength, the weights and biases) come back unchanged and the two outputs end
  with the pieces the body's two stores wrote.
-/
import proofs.«132931_j11587821765036_2_alg».proof.Proof.Gen.KernelIdeal.Launch
import proofs.«132931_j11587821765036_2_alg».proof.Proof.Gen.KernelIdeal.Skeleton
import proofs.«132931_j11587821765036_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1 (c : Dev nD) (i : grid1.Coords) (a1 : Memref sig .tc .vmem S256x1024 .f32) (h1 : a1.IsWhole) (a2 : Memref sig .tc .vmem S256x1024 .f32) (h2 : a2.IsWhole) (a3 : Memref sig .tc .vmem S256x2048 .f32) (h3 : a3.IsWhole) (a4 : Memref sig .tc .vmem S1x1024 .f32) (h4 : a4.IsWhole) (a5 : Memref sig .tc .vmem S1024x1024 .bf16) (h5 : a5.IsWhole) (a6 : Memref sig .tc .vmem S1x1024 .f32) (h6 : a6.IsWhole) (a7 : Memref sig .tc .vmem S2048x2048 .bf16) (h7 : a7.IsWhole) (a8 : Memref sig .tc .vmem S1x2048 .f32) (h8 : a8.IsWhole) (a9 : Memref sig .tc .vmem S1024x2048 .bf16) (h9 : a9.IsWhole) (a10 : Memref sig .tc .vmem S1x1024 .f32) (h10 : a10.IsWhole) (a11 : Memref sig .tc .vmem S2048x1024 .bf16) (h11 : a11.IsWhole) (a12 : Memref sig .tc .vmem S1x2048 .f32) (h12 : a12.IsWhole) (a13 : Memref sig .tc .vmem S2048x1024 .bf16) (h13 : a13.IsWhole) (a14 : Memref sig .tc .vmem S1x2048 .f32) (h14 : a14.IsWhole) (a15 : Memref sig .tc .vmem S2048x1024 .bf16) (h15 : a15.IsWhole) (a16 : Memref sig .tc .vmem S1x2048 .f32) (h16 : a16.IsWhole) (a17 : Memref sig .tc .vmem S2048x1024 .bf16) (h17 : a17.IsWhole) (a18 : Memref sig .tc .vmem S1x2048 .f32) (h18 : a18.IsWhole) (a19 : Memref sig .tc .vmem S256x1024 .f32) (h19 : a19.IsWhole) (a20 : Memref sig .tc .vmem S256x2048 .f32) (h20 : a20.IsWhole)
    (x1 : Vec F S256x1024 .f32) (x2 : Vec F S256x1024 .f32) (x3 : Vec F S256x2048 .f32) (x4 : Vec F S1x1024 .f32) (x5 : Vec F S1024x1024 .bf16) (x6 : Vec F S1x1024 .f32) (x7 : Vec F S2048x2048 .bf16) (x8 : Vec F S1x2048 .f32) (x9 : Vec F S1024x2048 .bf16) (x10 : Vec F S1x1024 .f32) (x11 : Vec F S2048x1024 .bf16) (x12 : Vec F S1x2048 .f32) (x13 : Vec F S2048x1024 .bf16) (x14 : Vec F S1x2048 .f32) (x15 : Vec F S2048x1024 .bf16) (x16 : Vec F S1x2048 .f32) (x17 : Vec F S2048x1024 .bf16) (x18 : Vec F S1x2048 .f32) :
    Σ' (L19 : List (View.Piece (Elt F) S256x1024 .f32)), { L20 : List (View.Piece (Elt F) S256x2048 .f32) //
      ∀ (E : Set ℕ) (K : PUnit → sProp 𝕄),
        iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16 ∗ owns (c : Thread nD τ) a17 fullShare x17 ∗ owns (c : Thread nD τ) a18 fullShare x18
            ∗ (∃ d, owns (c : Thread nD τ) a19 fullShare d) ∗ (∃ d, owns (c : Thread nD τ) a20 fullShare d)
            ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16 ∗ owns (c : Thread nD τ) a17 fullShare x17 ∗ owns (c : Thread nD τ) a18 fullShare x18
                ∗ (∃ f, a19.view.loc (c : Thread nD τ) ↦[a19.view.set]{fullShare} a19.view.writes (Elt F) f L19)
                ∗ (∃ f, a20.view.loc (c : Thread nD τ) ↦[a20.view.set]{fullShare} a20.view.writes (Elt F) f L20)) -∗ K ⟨⟩))
          ⊢ wp frame (wpE (defs₀ (F := F)) Variants.none c none) E (cc1_kernel i a1 h1 a2 h2 a3 h3 a4 h4 a5 h5 a6 h6 a7 h7 a8 h8 a9 h9 a10 h10 a11 h11 a12 h12 a13 h13 a14 h14 a15 h15 a16 h16 a17 h17 a18 h18 a19 h19 a20 h20) K } := by
  refine ⟨?_, ?_, fun E K => ?run⟩
  case run =>
    simp only [cc1_kernel_eq_skeleton]; unfold cc1_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, Hk⟩
    obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13; obtain rfl := h14.eq_unread hf14; obtain rfl := h15.eq_unread hf15; obtain rfl := h16.eq_unread hf16; obtain rfl := h17.eq_unread hf17; obtain rfl := h18.eq_unread hf18
    sl_exec
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]
    · iexists _; isplitr; · ipureintro; exact h13.read_unread _
      iexact H13
    isplitl [H14]
    · iexists _; isplitr; · ipureintro; exact h14.read_unread _
      iexact H14
    isplitl [H15]
    · iexists _; isplitr; · ipureintro; exact h15.read_unread _
      iexact H15
    isplitl [H16]
    · iexists _; isplitr; · ipureintro; exact h16.read_unread _
      iexact H16
    isplitl [H17]
    · iexists _; isplitr; · ipureintro; exact h17.read_unread _
      iexact H17
    isplitl [H18]
    · iexists _; isplitr; · ipureintro; exact h18.read_unread _
      iexact H18
    isplitl [H19]; · iexists _; iexact H19
    iexists _; iexact H20

end Cert.KernelIdeal.Hand

end
-- ==== Proof.R1Ideal.lean ====
/-
  The cell kernel as one pipeline region: each grid point reads its 256-row blocks of x, hidden and the memory and the
  whole weights, and leaves in its two output buffers the blocks the body stores; nothing is carried between points.
-/
import proofs.«132931_j11587821765036_2_alg».proof.Proof.Gen.KernelIdeal.Launch
import proofs.«132931_j11587821765036_2_alg».proof.Proof.Gen.KernelIdeal.Skeleton
import proofs.«132931_j11587821765036_2_alg».proof.Proof.Gen.KernelIdeal.Points
import proofs.«132931_j11587821765036_2_alg».proof.Proof.R1RunIdeal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)
theorem before1_15_of {c : Dev nD} (dat : Dat τ (Elt F) Unit ℕ (UR sig nD τ) ℕ cfg1 c) (hA : dat.A 15 = V c (Pipeline.arrRef spec1 15))
    (hafter : ∀ t, dat.after 15 t = iblk1 V c 15 t) (t : Fin cfg1.N) (d) : dat.before 15 t d = iblk1 V c 15 t :=
  (dat.before_in_eq_fetched 15 rfl (fun _ => rfl) (fun _ _ _ => rfl) (fun t => by rw [hafter]; unfold Dat.blockOf iblk1; rw [hA]; try rfl) t d).trans
    (by unfold Dat.fetched Dat.blockOf iblk1; rw [hA]; try rfl)
theorem before1_16_of {c : Dev nD} (dat : Dat τ (Elt F) Unit ℕ (UR sig nD τ) ℕ cfg1 c) (hA : dat.A 16 = V c (Pipeline.arrRef spec1 16))
    (hafter : ∀ t, dat.after 16 t = iblk1 V c 16 t) (t : Fin cfg1.N) (d) : dat.before 16 t d = iblk1 V c 16 t :=
  (dat.before_in_eq_fetched 16 rfl (fun _ => rfl) (fun _ _ _ => rfl) (fun t => by rw [hafter]; unfold Dat.blockOf iblk1; rw [hA]; try rfl) t d).trans
    (by unfold Dat.fetched Dat.blockOf iblk1; rw [hA]; try rfl)
theorem before1_17_of {c : Dev nD} (dat : Dat τ (Elt F) Unit ℕ (UR sig nD τ) ℕ cfg1 c) (hA : dat.A 17 = V c (Pipeline.arrRef spec1 17))
    (hafter : ∀ t, dat.after 17 t = iblk1 V c 17 t) (t : Fin cfg1.N) (d) : dat.before 17 t d = iblk1 V c 17 t :=
  (dat.before_in_eq_fetched 17 rfl (fun _ => rfl) (fun _ _ _ => rfl) (fun t => by rw [hafter]; unfold Dat.blockOf iblk1; rw [hA]; try rfl) t d).trans
    (by unfold Dat.fetched Dat.blockOf iblk1; rw [hA]; try rfl)

/-! ## The buffers the body is called with -/

abbrev ms1_0 (t : Fin cfg1.N) : Memref sig .tc .vmem S256x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2048x2048 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x2048 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1024x2048 .bf16 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x1024 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S2048x1024 .bf16 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x2048 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S2048x1024 .bf16 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S1x2048 .f32 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S2048x1024 .bf16 := win1_14.stage (cfg1.slots t 14)
abbrev hs1_14 (t : Fin cfg1.N) : (ms1_14 t).IsWhole := hstage1_14 ((cfg1.slots t 14).cast nbuf1_14)
abbrev ms1_15 (t : Fin cfg1.N) : Memref sig .tc .vmem S1x2048 .f32 := win1_15.stage (cfg1.slots t 15)
abbrev hs1_15 (t : Fin cfg1.N) : (ms1_15 t).IsWhole := hstage1_15 ((cfg1.slots t 15).cast nbuf1_15)
abbrev ms1_16 (t : Fin cfg1.N) : Memref sig .tc .vmem S2048x1024 .bf16 := win1_16.stage (cfg1.slots t 16)
abbrev hs1_16 (t : Fin cfg1.N) : (ms1_16 t).IsWhole := hstage1_16 ((cfg1.slots t 16).cast nbuf1_16)
abbrev ms1_17 (t : Fin cfg1.N) : Memref sig .tc .vmem S1x2048 .f32 := win1_17.stage (cfg1.slots t 17)
abbrev hs1_17 (t : Fin cfg1.N) : (ms1_17 t).IsWhole := hstage1_17 ((cfg1.slots t 17).cast nbuf1_17)
abbrev ms1_18 (t : Fin cfg1.N) : Memref sig .tc .vmem S256x1024 .f32 := win1_18.stage (cfg1.slots t 18)
abbrev hs1_18 (t : Fin cfg1.N) : (ms1_18 t).IsWhole := hstage1_18 ((cfg1.slots t 18).cast nbuf1_18)
abbrev ms1_19 (t : Fin cfg1.N) : Memref sig .tc .vmem S256x2048 .f32 := win1_19.stage (cfg1.slots t 19)
abbrev hs1_19 (t : Fin cfg1.N) : (ms1_19 t).IsWhole := hstage1_19 ((cfg1.slots t 19).cast nbuf1_19)
abbrev VO1_18 : View sig .tc .vmem S256x1024 .f32 := (Memref.whole cc1_stg18_0 : Memref sig .tc .vmem S256x1024 .f32).view
abbrev VO1_19 : View sig .tc .vmem S256x2048 .f32 := (Memref.whole cc1_stg19_0 : Memref sig .tc .vmem S256x2048 .f32).view

/-! ## What the body leaves in the two outputs -/

theorem cover1_18 (c : Dev nD) (i : grid1.Coords) (a1 : Memref sig .tc .vmem S256x1024 .f32) (h1 : a1.IsWhole) (a2 : Memref sig .tc .vmem S256x1024 .f32) (h2 : a2.IsWhole) (a3 : Memref sig .tc .vmem S256x2048 .f32) (h3 : a3.IsWhole) (a4 : Memref sig .tc .vmem S1x1024 .f32) (h4 : a4.IsWhole) (a5 : Memref sig .tc .vmem S1024x1024 .bf16) (h5 : a5.IsWhole) (a6 : Memref sig .tc .vmem S1x1024 .f32) (h6 : a6.IsWhole) (a7 : Memref sig .tc .vmem S2048x2048 .bf16) (h7 : a7.IsWhole) (a8 : Memref sig .tc .vmem S1x2048 .f32) (h8 : a8.IsWhole) (a9 : Memref sig .tc .vmem S1024x2048 .bf16) (h9 : a9.IsWhole) (a10 : Memref sig .tc .vmem S1x1024 .f32) (h10 : a10.IsWhole) (a11 : Memref sig .tc .vmem S2048x1024 .bf16) (h11 : a11.IsWhole) (a12 : Memref sig .tc .vmem S1x2048 .f32) (h12 : a12.IsWhole) (a13 : Memref sig .tc .vmem S2048x1024 .bf16) (h13 : a13.IsWhole) (a14 : Memref sig .tc .vmem S1x2048 .f32) (h14 : a14.IsWhole) (a15 : Memref sig .tc .vmem S2048x1024 .bf16) (h15 : a15.IsWhole) (a16 : Memref sig .tc .vmem S1x2048 .f32) (h16 : a16.IsWhole) (a17 : Memref sig .tc .vmem S2048x1024 .bf16) (h17 : a17.IsWhole) (a18 : Memref sig .tc .vmem S1x2048 .f32) (h18 : a18.IsWhole) (a19 : Memref sig .tc .vmem S256x1024 .f32) (h19 : a19.IsWhole) (a20 : Memref sig .tc .vmem S256x2048 .f32) (h20 : a20.IsWhole) (x1 : Vec F S256x1024 .f32) (x2 : Vec F S256x1024 .f32) (x3 : Vec F S256x2048 .f32) (x4 : Vec F S1x1024 .f32) (x5 : Vec F S1024x1024 .bf16) (x6 : Vec F S1x1024 .f32) (x7 : Vec F S2048x2048 .bf16) (x8 : Vec F S1x2048 .f32) (x9 : Vec F S1024x2048 .bf16) (x10 : Vec F S1x1024 .f32) (x11 : Vec F S2048x1024 .bf16) (x12 : Vec F S1x2048 .f32) (x13 : Vec F S2048x1024 .bf16) (x14 : Vec F S1x2048 .f32) (x15 : Vec F S2048x1024 .bf16) (x16 : Vec F S1x2048 .f32) (x17 : Vec F S2048x1024 .bf16) (x18 : Vec F S1x2048 .f32) (y : S256x1024.Idx) :
    ∃ pc ∈ (kernelRun1 c i a1 h1 a2 h2 a3 h3 a4 h4 a5 h5 a6 h6 a7 h7 a8 h8 a9 h9 a10 h10 a11 h11 a12 h12 a13 h13 a14 h14 a15 h15 a16 h16 a17 h17 a18 h18 a19 h19 a20 h20 x1 x2 x3 x4 x5 x6 x7 x8 x9 x10 x11 x12 x13 x14 x15 x16 x17 x18).1, y ∈ pc.1.set :=
  View.cover_of_tiledL (kernelRun1 c i a1 h1 a2 h2 a3 h3 a4 h4 a5 h5 a6 h6 a7 h7 a8 h8 a9 h9 a10 h10 a11 h11 a12 h12 a13 h13 a14 h14 a15 h15 a16 h16 a17 h17 a18 h18 a19 h19 a20 h20 x1 x2 x3 x4 x5 x6 x7 x8 x9 x10 x11 x12 x13 x14 x15 x16 x17 x18).1 S256x1024.size (by sl_kernel_rfl) y

theorem cover1_19 (c : Dev nD) (i : grid1.Coords) (a1 : Memref sig .tc .vmem S256x1024 .f32) (h1 : a1.IsWhole) (a2 : Memref sig .tc .vmem S256x1024 .f32) (h2 : a2.IsWhole) (a3 : Memref sig .tc .vmem S256x2048 .f32) (h3 : a3.IsWhole) (a4 : Memref sig .tc .vmem S1x1024 .f32) (h4 : a4.IsWhole) (a5 : Memref sig .tc .vmem S1024x1024 .bf16) (h5 : a5.IsWhole) (a6 : Memref sig .tc .vmem S1x1024 .f32) (h6 : a6.IsWhole) (a7 : Memref sig .tc .vmem S2048x2048 .bf16) (h7 : a7.IsWhole) (a8 : Memref sig .tc .vmem S1x2048 .f32) (h8 : a8.IsWhole) (a9 : Memref sig .tc .vmem S1024x2048 .bf16) (h9 : a9.IsWhole) (a10 : Memref sig .tc .vmem S1x1024 .f32) (h10 : a10.IsWhole) (a11 : Memref sig .tc .vmem S2048x1024 .bf16) (h11 : a11.IsWhole) (a12 : Memref sig .tc .vmem S1x2048 .f32) (h12 : a12.IsWhole) (a13 : Memref sig .tc .vmem S2048x1024 .bf16) (h13 : a13.IsWhole) (a14 : Memref sig .tc .vmem S1x2048 .f32) (h14 : a14.IsWhole) (a15 : Memref sig .tc .vmem S2048x1024 .bf16) (h15 : a15.IsWhole) (a16 : Memref sig .tc .vmem S1x2048 .f32) (h16 : a16.IsWhole) (a17 : Memref sig .tc .vmem S2048x1024 .bf16) (h17 : a17.IsWhole) (a18 : Memref sig .tc .vmem S1x2048 .f32) (h18 : a18.IsWhole) (a19 : Memref sig .tc .vmem S256x1024 .f32) (h19 : a19.IsWhole) (a20 : Memref sig .tc .vmem S256x2048 .f32) (h20 : a20.IsWhole) (x1 : Vec F S256x1024 .f32) (x2 : Vec F S256x1024 .f32) (x3 : Vec F S256x2048 .f32) (x4 : Vec F S1x1024 .f32) (x5 : Vec F S1024x1024 .bf16) (x6 : Vec F S1x1024 .f32) (x7 : Vec F S2048x2048 .bf16) (x8 : Vec F S1x2048 .f32) (x9 : Vec F S1024x2048 .bf16) (x10 : Vec F S1x1024 .f32) (x11 : Vec F S2048x1024 .bf16) (x12 : Vec F S1x2048 .f32) (x13 : Vec F S2048x1024 .bf16) (x14 : Vec F S1x2048 .f32) (x15 : Vec F S2048x1024 .bf16) (x16 : Vec F S1x2048 .f32) (x17 : Vec F S2048x1024 .bf16) (x18 : Vec F S1x2048 .f32) (y : S256x2048.Idx) :
    ∃ pc ∈ (kernelRun1 c i a1 h1 a2 h2 a3 h3 a4 h4 a5 h5 a6 h6 a7 h7 a8 h8 a9 h9 a10 h10 a11 h11 a12 h12 a13 h13 a14 h14 a15 h15 a16 h16 a17 h17 a18 h18 a19 h19 a20 h20 x1 x2 x3 x4 x5 x6 x7 x8 x9 x10 x11 x12 x13 x14 x15 x16 x17 x18).2.1, y ∈ pc.1.set :=
  View.cover_of_tiledL (kernelRun1 c i a1 h1 a2 h2 a3 h3 a4 h4 a5 h5 a6 h6 a7 h7 a8 h8 a9 h9 a10 h10 a11 h11 a12 h12 a13 h13 a14 h14 a15 h15 a16 h16 a17 h17 a18 h18 a19 h19 a20 h20 x1 x2 x3 x4 x5 x6 x7 x8 x9 x10 x11 x12 x13 x14 x15 x16 x17 x18).2.1 S256x2048.size (by sl_kernel_rfl) y

/-- The final hidden state's block as the body leaves it. -/
def out1_18 (c : Dev nD) (i : grid1.Coords) (a1 : Memref sig .tc .vmem S256x1024 .f32) (h1 : a1.IsWhole) (a2 : Memref sig .tc .vmem S256x1024 .f32) (h2 : a2.IsWhole) (a3 : Memref sig .tc .vmem S256x2048 .f32) (h3 : a3.IsWhole) (a4 : Memref sig .tc .vmem S1x1024 .f32) (h4 : a4.IsWhole) (a5 : Memref sig .tc .vmem S1024x1024 .bf16) (h5 : a5.IsWhole) (a6 : Memref sig .tc .vmem S1x1024 .f32) (h6 : a6.IsWhole) (a7 : Memref sig .tc .vmem S2048x2048 .bf16) (h7 : a7.IsWhole) (a8 : Memref sig .tc .vmem S1x2048 .f32) (h8 : a8.IsWhole) (a9 : Memref sig .tc .vmem S1024x2048 .bf16) (h9 : a9.IsWhole) (a10 : Memref sig .tc .vmem S1x1024 .f32) (h10 : a10.IsWhole) (a11 : Memref sig .tc .vmem S2048x1024 .bf16) (h11 : a11.IsWhole) (a12 : Memref sig .tc .vmem S1x2048 .f32) (h12 : a12.IsWhole) (a13 : Memref sig .tc .vmem S2048x1024 .bf16) (h13 : a13.IsWhole) (a14 : Memref sig .tc .vmem S1x2048 .f32) (h14 : a14.IsWhole) (a15 : Memref sig .tc .vmem S2048x1024 .bf16) (h15 : a15.IsWhole) (a16 : Memref sig .tc .vmem S1x2048 .f32) (h16 : a16.IsWhole) (a17 : Memref sig .tc .vmem S2048x1024 .bf16) (h17 : a17.IsWhole) (a18 : Memref sig .tc .vmem S1x2048 .f32) (h18 : a18.IsWhole) (a19 : Memref sig .tc .vmem S256x1024 .f32) (h19 : a19.IsWhole) (a20 : Memref sig .tc .vmem S256x2048 .f32) (h20 : a20.IsWhole) (x1 : Vec F S256x1024 .f32) (x2 : Vec F S256x1024 .f32) (x3 : Vec F S256x2048 .f32) (x4 : Vec F S1x1024 .f32) (x5 : Vec F S1024x1024 .bf16) (x6 : Vec F S1x1024 .f32) (x7 : Vec F S2048x2048 .bf16) (x8 : Vec F S1x2048 .f32) (x9 : Vec F S1024x2048 .bf16) (x10 : Vec F S1x1024 .f32) (x11 : Vec F S2048x1024 .bf16) (x12 : Vec F S1x2048 .f32) (x13 : Vec F S2048x1024 .bf16) (x14 : Vec F S1x2048 .f32) (x15 : Vec F S2048x1024 .bf16) (x16 : Vec F S1x2048 .f32) (x17 : Vec F S2048x1024 .bf16) (x18 : Vec F S1x2048 .f32) : Vec F S256x1024 .f32 :=
  VO1_18.read (Elt F) (VO1_18.writes (Elt F) VO1_18.junk (kernelRun1 c i a1 h1 a2 h2 a3 h3 a4 h4 a5 h5 a6 h6 a7 h7 a8 h8 a9 h9 a10 h10 a11 h11 a12 h12 a13 h13 a14 h14 a15 h15 a16 h16 a17 h17 a18 h18 a19 h19 a20 h20 x1 x2 x3 x4 x5 x6 x7 x8 x9 x10 x11 x12 x13 x14 x15 x16 x17 x18).1)

/-- The new memory's block as the body leaves it. -/
def out1_19 (c : Dev nD) (i : grid1.Coords) (a1 : Memref sig .tc .vmem S256x1024 .f32) (h1 : a1.IsWhole) (a2 : Memref sig .tc .vmem S256x1024 .f32) (h2 : a2.IsWhole) (a3 : Memref sig .tc .vmem S256x2048 .f32) (h3 : a3.IsWhole) (a4 : Memref sig .tc .vmem S1x1024 .f32) (h4 : a4.IsWhole) (a5 : Memref sig .tc .vmem S1024x1024 .bf16) (h5 : a5.IsWhole) (a6 : Memref sig .tc .vmem S1x1024 .f32) (h6 : a6.IsWhole) (a7 : Memref sig .tc .vmem S2048x2048 .bf16) (h7 : a7.IsWhole) (a8 : Memref sig .tc .vmem S1x2048 .f32) (h8 : a8.IsWhole) (a9 : Memref sig .tc .vmem S1024x2048 .bf16) (h9 : a9.IsWhole) (a10 : Memref sig .tc .vmem S1x1024 .f32) (h10 : a10.IsWhole) (a11 : Memref sig .tc .vmem S2048x1024 .bf16) (h11 : a11.IsWhole) (a12 : Memref sig .tc .vmem S1x2048 .f32) (h12 : a12.IsWhole) (a13 : Memref sig .tc .vmem S2048x1024 .bf16) (h13 : a13.IsWhole) (a14 : Memref sig .tc .vmem S1x2048 .f32) (h14 : a14.IsWhole) (a15 : Memref sig .tc .vmem S2048x1024 .bf16) (h15 : a15.IsWhole) (a16 : Memref sig .tc .vmem S1x2048 .f32) (h16 : a16.IsWhole) (a17 : Memref sig .tc .vmem S2048x1024 .bf16) (h17 : a17.IsWhole) (a18 : Memref sig .tc .vmem S1x2048 .f32) (h18 : a18.IsWhole) (a19 : Memref sig .tc .vmem S256x1024 .f32) (h19 : a19.IsWhole) (a20 : Memref sig .tc .vmem S256x2048 .f32) (h20 : a20.IsWhole) (x1 : Vec F S256x1024 .f32) (x2 : Vec F S256x1024 .f32) (x3 : Vec F S256x2048 .f32) (x4 : Vec F S1x1024 .f32) (x5 : Vec F S1024x1024 .bf16) (x6 : Vec F S1x1024 .f32) (x7 : Vec F S2048x2048 .bf16) (x8 : Vec F S1x2048 .f32) (x9 : Vec F S1024x2048 .bf16) (x10 : Vec F S1x1024 .f32) (x11 : Vec F S2048x1024 .bf16) (x12 : Vec F S1x2048 .f32) (x13 : Vec F S2048x1024 .bf16) (x14 : Vec F S1x2048 .f32) (x15 : Vec F S2048x1024 .bf16) (x16 : Vec F S1x2048 .f32) (x17 : Vec F S2048x1024 .bf16) (x18 : Vec F S1x2048 .f32) : Vec F S256x2048 .f32 :=
  VO1_19.read (Elt F) (VO1_19.writes (Elt F) VO1_19.junk (kernelRun1 c i a1 h1 a2 h2 a3 h3 a4 h4 a5 h5 a6 h6 a7 h7 a8 h8 a9 h9 a10 h10 a11 h11 a12 h12 a13 h13 a14 h14 a15 h15 a16 h16 a17 h17 a18 h18 a19 h19 a20 h20 x1 x2 x3 x4 x5 x6 x7 x8 x9 x10 x11 x12 x13 x14 x15 x16 x17 x18).2.1)

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => out1_18 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t)
    | ⟨19, _⟩ => out1_19 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t)
    | ⟨_ + 20, h⟩ => absurd h (Nat.not_lt.2 (Nat.le_add_left _ _))
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = iblk1 V c 16 t := by dsimp only [dat1]
theorem after1_17 (c : Dev nD) (t : Fin cfg1.N) : (dat1 V c).after 17 t = iblk1 V c 17 t := by dsimp only [dat1]
theorem after1_18 (c : Dev nD) (t : Fin cfg1.N) : (dat1 V c).after 18 t = out1_18 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) := by dsimp only [dat1]
theorem after1_19 (c : Dev nD) (t : Fin cfg1.N) : (dat1 V c).after 19 t = out1_19 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d
theorem before1_15 (c : Dev nD) (t : Fin cfg1.N) (d) : (dat1 V c).before 15 t d = iblk1 V c 15 t :=
  before1_15_of V (dat1 V c) (A_eq1 V c 15) (after1_15 V c) t d
theorem before1_16 (c : Dev nD) (t : Fin cfg1.N) (d) : (dat1 V c).before 16 t d = iblk1 V c 16 t :=
  before1_16_of V (dat1 V c) (A_eq1 V c 16) (after1_16 V c) t d
theorem before1_17 (c : Dev nD) (t : Fin cfg1.N) (d) : (dat1 V c).before 17 t d = iblk1 V c 17 t :=
  before1_17_of V (dat1 V c) (A_eq1 V c 17) (after1_17 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d))
    ∗ (∃ d, owns (c : Thread nD τ) (st1_17 t) fullShare ((dat1 V c).before 17 t d))
    ∗ (∃ d, owns (c : Thread nD τ) (st1_18 t) fullShare ((dat1 V c).before 18 t d))
    ∗ (∃ d, owns (c : Thread nD τ) (st1_19 t) fullShare ((dat1 V c).before 19 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t)
    ∗ owns (c : Thread nD τ) (st1_17 t) fullShare ((dat1 V c).after 17 t)
    ∗ owns (c : Thread nD τ) (st1_18 t) fullShare ((dat1 V c).after 18 t)
    ∗ owns (c : Thread nD τ) (st1_19 t) fullShare ((dat1 V c).after 19 t))

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15, before1_16, before1_17]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18, after1_19]
  unfold out1_18 out1_19
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply ((kernelRun1 c (grid1.coords t) _ _ _ _ _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  iintro ⟨H0, H1, H2, H3, H4, H5, H6, H7, H8, H9, H10, H11, H12, H13, H14, H15, H16, H17, ⟨%e18, H18⟩, ⟨%e19, H19⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]
  · unfold owns; iexists _; isplitr
    swap; · iexact H18
    ipureintro; exact View.read_writes_of_cover _ _ _ _ _ (cover1_18 c _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H19
  ipureintro; exact View.read_writes_of_cover _ _ _ _ _ (cover1_19 c _ _ _ _ _ _ _ _ _ _ _ _ _ _ _ _ _ _ _ _ _ _ _ _ _ _ _ _ _ _ _ _ _ _ _ _ _ _ _ _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.RunIdeal.lean ====
/-
  The whole program's run: host operations, the connection-strength region, host operations, the cell region.  The
  contents of every unscoped buffer are followed from the launch memory through the four segments (a host stretch
  applies its operations; a region leaves its arrays at what its write-backs produce and every other buffer as
  found); every weakly fair execution terminates with every unscoped buffer at the last of these contents.  Read at
  the argument arrays this is the frame; read at the two result arrays it names what the program computes.
-/
import proofs.«132931_j11587821765036_2_alg».proof.Proof.Gen.KernelIdeal.Launch
import proofs.«132931_j11587821765036_2_alg».proof.Proof.Gen.KernelIdeal.Skeleton
import proofs.«132931_j11587821765036_2_alg».proof.Proof.Gen.KernelIdeal.Points
import proofs.«132931_j11587821765036_2_alg».proof.Proof.Gen.KernelIdeal.Regions
import proofs.«132931_j11587821765036_2_alg».proof.Proof.R0Ideal
import proofs.«132931_j11587821765036_2_alg».proof.Proof.R1Ideal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second region. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 1).trans (((dat1 (V3 m ρ) c).arrAt_in 1 rfl _).trans (A_eq1 (V3 m ρ) c 1))
    _ = W2 m ρ c (Proc.devRef .tc main_arg1) := StableHlo.after_of_writes_sub hostOps1 _ hostOps1_writes (by decide)
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := (W4_arr m ρ c 2).trans (((dat1 (V3 m ρ) c).arrAt_in 2 rfl _).trans (A_eq1 (V3 m ρ) c 2))
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

theorem W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := StableHlo.after_of_writes_sub hostOps1 _ hostOps1_writes (by decide)
    _ = W1 m ρ c (Proc.devRef .tc main_arg13) := W2_of_ne m ρ c main_arg13 (by decide)
    _ = W0 m ρ c (Proc.devRef .tc main_arg13) := StableHlo.after_of_writes_sub hostOps0 _ hostOps0_writes (by decide)
    _ = m ((c : Thread nD τ).loc main_arg13) := rfl

theorem W4_main_arg14 (c : Dev nD) : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := StableHlo.after_of_writes_sub hostOps1 _ hostOps1_writes (by decide)
    _ = W1 m ρ c (Proc.devRef .tc main_arg14) := W2_of_ne m ρ c main_arg14 (by decide)
    _ = W0 m ρ c (Proc.devRef .tc main_arg14) := StableHlo.after_of_writes_sub hostOps0 _ hostOps0_writes (by decide)
    _ = m ((c : Thread nD τ).loc main_arg14) := rfl

theorem W4_main_arg15 (c : Dev nD) : W4 m ρ c (Proc.devRef .tc main_arg15) = m ((c : Thread nD τ).loc main_arg15) :=
  calc W4 m ρ c (Proc.devRef .tc main_arg15)
    _ = W3 m ρ c (Proc.devRef .tc main_arg15) := W4_of_ne m ρ c main_arg15 (by decide)
    _ = W2 m ρ c (Proc.devRef .tc main_arg15) := StableHlo.after_of_writes_sub hostOps1 _ hostOps1_writes (by decide)
    _ = W1 m ρ c (Proc.devRef .tc main_arg15) := W2_of_ne m ρ c main_arg15 (by decide)
    _ = W0 m ρ c (Proc.devRef .tc main_arg15) := StableHlo.after_of_writes_sub hostOps0 _ hostOps0_writes (by decide)
    _ = m ((c : Thread nD τ).loc main_arg15) := rfl

theorem W4_main_arg16 (c : Dev nD) : W4 m ρ c (Proc.devRef .tc main_arg16) = m ((c : Thread nD τ).loc main_arg16) :=
  calc W4 m ρ c (Proc.devRef .tc main_arg16)
    _ = W3 m ρ c (Proc.devRef .tc main_arg16) := W4_of_ne m ρ c main_arg16 (by decide)
    _ = W2 m ρ c (Proc.devRef .tc main_arg16) := StableHlo.after_of_writes_sub hostOps1 _ hostOps1_writes (by decide)
    _ = W1 m ρ c (Proc.devRef .tc main_arg16) := W2_of_ne m ρ c main_arg16 (by decide)
    _ = W0 m ρ c (Proc.devRef .tc main_arg16) := StableHlo.after_of_writes_sub hostOps0 _ hostOps0_writes (by decide)
    _ = m ((c : Thread nD τ).loc main_arg16) := rfl

theorem W4_main_arg17 (c : Dev nD) : W4 m ρ c (Proc.devRef .tc main_arg17) = m ((c : Thread nD τ).loc main_arg17) :=
  calc W4 m ρ c (Proc.devRef .tc main_arg17)
    _ = W3 m ρ c (Proc.devRef .tc main_arg17) := W4_of_ne m ρ c main_arg17 (by decide)
    _ = W2 m ρ c (Proc.devRef .tc main_arg17) := StableHlo.after_of_writes_sub hostOps1 _ hostOps1_writes (by decide)
    _ = W1 m ρ c (Proc.devRef .tc main_arg17) := W2_of_ne m ρ c main_arg17 (by decide)
    _ = W0 m ρ c (Proc.devRef .tc main_arg17) := StableHlo.after_of_writes_sub hostOps0 _ hostOps0_writes (by decide)
    _ = m ((c : Thread nD τ).loc main_arg17) := rfl

theorem W4_main_arg18 (c : Dev nD) : W4 m ρ c (Proc.devRef .tc main_arg18) = m ((c : Thread nD τ).loc main_arg18) :=
  calc W4 m ρ c (Proc.devRef .tc main_arg18)
    _ = W3 m ρ c (Proc.devRef .tc main_arg18) := W4_of_ne m ρ c main_arg18 (by decide)
    _ = W2 m ρ c (Proc.devRef .tc main_arg18) := StableHlo.after_of_writes_sub hostOps1 _ hostOps1_writes (by decide)
    _ = W1 m ρ c (Proc.devRef .tc main_arg18) := W2_of_ne m ρ c main_arg18 (by decide)
    _ = W0 m ρ c (Proc.devRef .tc main_arg18) := StableHlo.after_of_writes_sub hostOps0 _ hostOps0_writes (by decide)
    _ = m ((c : Thread nD τ).loc main_arg18) := rfl

theorem W4_main_arg19 (c : Dev nD) : W4 m ρ c (Proc.devRef .tc main_arg19) = m ((c : Thread nD τ).loc main_arg19) :=
  calc W4 m ρ c (Proc.devRef .tc main_arg19)
    _ = W3 m ρ c (Proc.devRef .tc main_arg19) := W4_of_ne m ρ c main_arg19 (by decide)
    _ = W2 m ρ c (Proc.devRef .tc main_arg19) := StableHlo.after_of_writes_sub hostOps1 _ hostOps1_writes (by decide)
    _ = W1 m ρ c (Proc.devRef .tc main_arg19) := W2_of_ne m ρ c main_arg19 (by decide)
    _ = W0 m ρ c (Proc.devRef .tc main_arg19) := StableHlo.after_of_writes_sub hostOps0 _ hostOps0_writes (by decide)
    _ = m ((c : Thread nD τ).loc main_arg19) := rfl

theorem W4_main_arg20 (c : Dev nD) : W4 m ρ c (Proc.devRef .tc main_arg20) = m ((c : Thread nD τ).loc main_arg20) :=
  calc W4 m ρ c (Proc.devRef .tc main_arg20)
    _ = W3 m ρ c (Proc.devRef .tc main_arg20) := W4_of_ne m ρ c main_arg20 (by decide)
    _ = W2 m ρ c (Proc.devRef .tc main_arg20) := StableHlo.after_of_writes_sub hostOps1 _ hostOps1_writes (by decide)
    _ = W1 m ρ c (Proc.devRef .tc main_arg20) := W2_of_ne m ρ c main_arg20 (by decide)
    _ = W0 m ρ c (Proc.devRef .tc main_arg20) := StableHlo.after_of_writes_sub hostOps0 _ hostOps0_writes (by decide)
    _ = m ((c : Thread nD τ).loc main_arg20) := rfl

theorem W4_main_arg21 (c : Dev nD) : W4 m ρ c (Proc.devRef .tc main_arg21) = m ((c : Thread nD τ).loc main_arg21) :=
  calc W4 m ρ c (Proc.devRef .tc main_arg21)
    _ = W3 m ρ c (Proc.devRef .tc main_arg21) := W4_of_ne m ρ c main_arg21 (by decide)
    _ = W2 m ρ c (Proc.devRef .tc main_arg21) := StableHlo.after_of_writes_sub hostOps1 _ hostOps1_writes (by decide)
    _ = W1 m ρ c (Proc.devRef .tc main_arg21) := W2_of_ne m ρ c main_arg21 (by decide)
    _ = W0 m ρ c (Proc.devRef .tc main_arg21) := StableHlo.after_of_writes_sub hostOps0 _ hostOps0_writes (by decide)
    _ = m ((c : Thread nD τ).loc main_arg21) := rfl

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

-- a library lemma stated over the pinned configuration unifies with the printed one only when unification may unfold plain
-- definitions in a metavariable's type
set_option backward.isDefEq.respectTransparency.types false in
/-- Region 0 over the thread state: entered with every unscoped buffer at `W1`, left with them at `W2`.  Its arrays are
    split out of the unscoped buffers and put back at what the write-backs leave; the generator register goes into the
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Region 1 over the thread state: entered with every unscoped buffer at `W3`, left with them at `W4`.  Its arrays are
    split out of the unscoped buffers and put back at what the write-backs leave; the generator register goes into the
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN.  From any memory with zero counters every weakly fair execution terminates, nothing faulting, and every
    final state has every unscoped buffer at the contents `W4` computes. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME, at any `F`: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c),
    (h c _ (mem_uc main_arg12 (by decide))).trans (W4_main_arg12 m ρ c),
    (h c _ (mem_uc main_arg13 (by decide))).trans (W4_main_arg13 m ρ c),
    (h c _ (mem_uc main_arg14 (by decide))).trans (W4_main_arg14 m ρ c),
    (h c _ (mem_uc main_arg15 (by decide))).trans (W4_main_arg15 m ρ c),
    (h c _ (mem_uc main_arg16 (by decide))).trans (W4_main_arg16 m ρ c),
    (h c _ (mem_uc main_arg17 (by decide))).trans (W4_main_arg17 m ρ c),
    (h c _ (mem_uc main_arg18 (by decide))).trans (W4_main_arg18 m ρ c),
    (h c _ (mem_uc main_arg19 (by decide))).trans (W4_main_arg19 m ρ c),
    (h c _ (mem_uc main_arg20 (by decide))).trans (W4_main_arg20 m ρ c),
    (h c _ (mem_uc main_arg21 (by decide))).trans (W4_main_arg21 m ρ c)⟩) (run_all m ρ)

end Cert.KernelIdeal.Hand

end
-- ==== Proof.KPayIdeal.lean ====
/-
  The two kernels' arithmetic as pure functions of the blocks their bodies load, composed from the bodies' named
  payloads: for the connection-strength kernel the running column sums of |hidden| over the batch blocks and the
  strength computed from the last of them; for the cell kernel the two stored blocks (final hidden state, new memory)
  as functions of the activation blocks, the connection strength and the weights.
-/
import proofs.«132931_j11587821765036_2_alg».proof.Proof.Gen.KernelIdeal.Skeleton

noncomputable section

namespace Cert.KernelIdeal.KPay

open Idealize.ShloMosaic Cert.KernelIdeal Cert.KernelIdeal.Gen

variable {F : FTy → Type} [FloatOps F]

/-! ## The connection-strength kernel -/

/-- The accumulator after batch block `t`: zero, then each block's column sums of absolute values added in turn. -/
def acc (b : ℕ → Vec F S2048x1024 .f32) : ℕ → FVec F S1x1024 .f32
  | 0 => k0_pay2 (k0_pay1 (F := F)) (b 0)
  | t + 1 => k0_pay2 (acc b t) (b (t + 1))

/-- The connection strength stored at the last block, from the accumulator there and the three small operands. -/
def cs0 (b : ℕ → Vec F S2048x1024 .f32) (hist : Vec F S1x1024 .f32) (decay : Vec F S1x1 .f32) (strength : Vec F S1x1024 .f32) :
    FVec F S1x1024 .f32 :=
  k0_pay3 (acc b 3) hist decay strength

/-! ## The cell kernel -/

/-- The blocks one grid point of the cell kernel loads: 256 rows of x, hidden and the memory, the connection strength,
    and the weights and biases whole. -/
structure Blk (F : FTy → Type) [FloatOps F] where
  xb : Vec F S256x1024 .f32
  hb : Vec F S256x1024 .f32
  pmb : Vec F S256x2048 .f32
  csb : Vec F S1x1024 .f32
  Wa : Vec F S1024x1024 .bf16
  ba : Vec F S1x1024 .f32
  Wru : Vec F S2048x2048 .bf16
  bru : Vec F S1x2048 .f32
  Wn : Vec F S1024x2048 .bf16
  bn : Vec F S1x1024 .f32
  Wread : Vec F S2048x1024 .bf16
  bread : Vec F S1x2048 .f32
  Wwrite : Vec F S2048x1024 .bf16
  bwrite : Vec F S1x2048 .f32
  Wforget : Vec F S2048x1024 .bf16
  bforget : Vec F S1x2048 .f32
  Waddr : Vec F S2048x1024 .bf16
  baddr : Vec F S1x2048 .f32

variable (B : Blk F)

/-- The update gate's block. -/
def upd : FVec F S256x1024 .f32 := k1_pay5 B.hb B.xb B.Wa B.ba B.Wru B.bru
/-- The candidate state's block. -/
def cand : FVec F S256x1024 .f32 := k1_pay6 B.hb B.xb B.Wa B.ba B.Wru B.bru B.Wn B.bn
/-- The connection strength as loaded. -/
def csv : FVec F S1x1024 .f32 := k1_pay7 B.csb
/-- The new hidden state's block, and the same in the matrix unit's input format. -/
def hnew : FVec F S256x1024 .f32 := k1_pay8 B.hb (upd B) (cand B) (csv B)
def hnewT : FVec F S256x1024 .bf16 := k1_pay9 B.hb (upd B) (cand B) (csv B)
/-- The address weights (softmax), the read gate, and the write gate's logits. -/
def addrB : FVec F S256x2048 .f32 := k1_pay10 B.hb (upd B) (cand B) (csv B) B.Waddr B.baddr
def readB : FVec F S256x2048 .f32 := k1_pay11 B.hb (upd B) (cand B) (csv B) B.Wread B.bread
def writeL : FVec F S256x2048 .f32 := k1_pay12 B.hb (upd B) (cand B) (csv B) B.Wwrite B.bwrite

/-- The new memory's block: what the body stores into its second output. -/
def out1 : FVec F S256x2048 .f32 :=
  k1_pay1 B.pmb (hnew B) (hnewT B) (addrB B) (writeL B) B.Wforget B.bforget

/-- The final hidden state's block: what the body stores into its first output. -/
def out0 : FVec F S256x1024 .f32 :=
  k1_pay2 B.pmb (hnew B) (hnewT B) (addrB B) (readB B) (writeL B) B.Wforget B.bforget

end Cert.KernelIdeal.KPay

end
-- ==== Proof.P0Ideal.lean ====
/-
  What the connection-strength kernel's stores leave, as pure functions of what the body loaded: the scratch ends
  every point at its previous contents (zero at the first point) plus the block's column sums of absolute values, and
  the last point's output is the strength computed from the scratch's final contents.  Then the recursion over the
  four points is the running sum of the blocks.
-/
import proofs.«132931_j11587821765036_2_alg».proof.Proof.Gen.KernelIdeal.Launch
import proofs.«132931_j11587821765036_2_alg».proof.Proof.Gen.KernelIdeal.Skeleton
import proofs.«132931_j11587821765036_2_alg».proof.Proof.Gen.KernelIdeal.Points
import proofs.«132931_j11587821765036_2_alg».proof.Proof.R0Ideal
import proofs.«132931_j11587821765036_2_alg».proof.Proof.KPayIdeal
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := by
  funext a; match a with | ⟨0, _⟩ => rfl | ⟨1, _⟩ => rfl

theorem sout0_A_eq (c : Dev nD) (i : grid0.Coords) (a1 : Memref sig .tc .vmem S2048x1024 .f32) (h1 : a1.IsWhole) (a2 : Memref sig .tc .vmem S1x1024 .f32) (h2 : a2.IsWhole) (a3 : Memref sig .tc .vmem S1x1 .f32) (h3 : a3.IsWhole) (a4 : Memref sig .tc .vmem S1x1024 .f32) (h4 : a4.IsWhole) (a5 : Memref sig .tc .vmem S1x1024 .f32) (h5 : a5.IsWhole) (sc : Memref sig .tc .vmem S1x1024 .f32) (hsc : sc.IsWhole) (hc0 : cond0_0 i) (hc1 : ¬cond0_1 i) (x0 : Vec F S2048x1024 .f32) (x1 : Vec F S1x1024 .f32) (x2 : Vec F S1x1 .f32) (x3 : Vec F S1x1024 .f32) :
    sout0_A c i a1 h1 a2 h2 a3 h3 a4 h4 a5 h5 sc hsc hc0 hc1 x0 x1 x2 x3 = k0_pay2 (k0_pay1 (F := F)) x0 := by
  unfold sout0_A
  rw [View.read_writes_eq_canon _ _ _ (scover0_A c i a1 h1 a2 h2 a3 h3 a4 h4 a5 h5 sc hsc hc0 hc1 x0 x1 x2 x3)]
  unfold kernelRun0_A
  dsimp only
  sl_unfold_words
  rw [View.canon_cons_unit_zero hz2]
  rw [View.readCov_unit_zero _ hz2]
  simp only [View.readAt_eq_ld, h1.read_unread, View.ld_unit_zero (S := S2048x1024) hz2]

theorem sout0_B_eq (c : Dev nD) (i : grid0.Coords) (a1 : Memref sig .tc .vmem S2048x1024 .f32) (h1 : a1.IsWhole) (a2 : Memref sig .tc .vmem S1x1024 .f32) (h2 : a2.IsWhole) (a3 : Memref sig .tc .vmem S1x1 .f32) (h3 : a3.IsWhole) (a4 : Memref sig .tc .vmem S1x1024 .f32) (h4 : a4.IsWhole) (a5 : Memref sig .tc .vmem S1x1024 .f32) (h5 : a5.IsWhole) (sc : Memref sig .tc .vmem S1x1024 .f32) (hsc : sc.IsWhole) (hc0 : ¬cond0_0 i) (hc1 : ¬cond0_1 i) (x0 : Vec F S2048x1024 .f32) (x1 : Vec F S1x1024 .f32) (x2 : Vec F S1x1 .f32) (x3 : Vec F S1x1024 .f32) (xs : Vec F S1x1024 .f32) :
    sout0_B c i a1 h1 a2 h2 a3 h3 a4 h4 a5 h5 sc hsc hc0 hc1 x0 x1 x2 x3 xs = k0_pay2 xs x0 := by
  unfold sout0_B
  rw [View.read_writes_eq_canon _ _ _ (scover0_B c i a1 h1 a2 h2 a3 h3 a4 h4 a5 h5 sc hsc hc0 hc1 x0 x1 x2 x3 xs)]
  unfold kernelRun0_B
  dsimp only
  sl_unfold_words
  rw [View.canon_unit_zero hz2]
  simp only [View.readAt_eq_ld, hsc.read_unread, h1.read_unread, View.ld_unit_zero (S := S1x1024) hz2, View.ld_unit_zero (S := S2048x1024) hz2]

theorem sout0_C_eq (c : Dev nD) (i : grid0.Coords) (a1 : Memref sig .tc .vmem S2048x1024 .f32) (h1 : a1.IsWhole) (a2 : Memref sig .tc .vmem S1x1024 .f32) (h2 : a2.IsWhole) (a3 : Memref sig .tc .vmem S1x1 .f32) (h3 : a3.IsWhole) (a4 : Memref sig .tc .vmem S1x1024 .f32) (h4 : a4.IsWhole) (a5 : Memref sig .tc .vmem S1x1024 .f32) (h5 : a5.IsWhole) (sc : Memref sig .tc .vmem S1x1024 .f32) (hsc : sc.IsWhole) (hc0 : ¬cond0_0 i) (hc1 : cond0_1 i) (x0 : Vec F S2048x1024 .f32) (x1 : Vec F S1x1024 .f32) (x2 : Vec F S1x1 .f32) (x3 : Vec F S1x1024 .f32) (xs : Vec F S1x1024 .f32) :
    sout0_C c i a1 h1 a2 h2 a3 h3 a4 h4 a5 h5 sc hsc hc0 hc1 x0 x1 x2 x3 xs = k0_pay2 xs x0 := by
  unfold sout0_C
  rw [View.read_writes_eq_canon _ _ _ (scover0_C c i a1 h1 a2 h2 a3 h3 a4 h4 a5 h5 sc hsc hc0 hc1 x0 x1 x2 x3 xs)]
  unfold kernelRun0_C
  dsimp only
  sl_unfold_words
  rw [View.canon_unit_zero hz2]
  simp only [View.readAt_eq_ld, hsc.read_unread, h1.read_unread, View.ld_unit_zero (S := S1x1024) hz2, View.ld_unit_zero (S := S2048x1024) hz2]

theorem out0_C_eq (c : Dev nD) (i : grid0.Coords) (a1 : Memref sig .tc .vmem S2048x1024 .f32) (h1 : a1.IsWhole) (a2 : Memref sig .tc .vmem S1x1024 .f32) (h2 : a2.IsWhole) (a3 : Memref sig .tc .vmem S1x1 .f32) (h3 : a3.IsWhole) (a4 : Memref sig .tc .vmem S1x1024 .f32) (h4 : a4.IsWhole) (a5 : Memref sig .tc .vmem S1x1024 .f32) (h5 : a5.IsWhole) (sc : Memref sig .tc .vmem S1x1024 .f32) (hsc : sc.IsWhole) (hc0 : ¬cond0_0 i) (hc1 : cond0_1 i) (x0 : Vec F S2048x1024 .f32) (x1 : Vec F S1x1024 .f32) (x2 : Vec F S1x1 .f32) (x3 : Vec F S1x1024 .f32) (xs : Vec F S1x1024 .f32) :
    out0_C c i a1 h1 a2 h2 a3 h3 a4 h4 a5 h5 sc hsc hc0 hc1 x0 x1 x2 x3 xs = k0_pay3 (k0_pay2 xs x0) x3 x2 x1 := by
  unfold out0_C
  rw [View.read_writes_eq_canon _ _ _ (cover0_C c i a1 h1 a2 h2 a3 h3 a4 h4 a5 h5 sc hsc hc0 hc1 x0 x1 x2 x3 xs)]
  unfold kernelRun0_C
  dsimp only
  sl_unfold_words
  rw [View.canon_unit_zero hz2, View.readCov_unit_zero _ hz2]
  simp only [View.readAt_eq_ld, hsc.read_unread, h1.read_unread, h2.read_unread, h3.read_unread, h4.read_unread,
    View.ld_unit_zero (S := S1x1024) hz2, View.ld_unit_zero (S := S2048x1024) hz2, View.ld_unit_zero (S := S1x1) hz2]

/-! ## The recursion over the points is the running sum -/

variable (V : (c : Dev nD) → (b : Ref sig .tc) → Buf (Elt F) ((c : Thread nD τ).loc b))

/-- The block of `hidden` the point at position `t` reads (positions beyond the grid wrap around; nothing reads them). -/
def hblk (c : Dev nD) (t : ℕ) : Vec F S2048x1024 .f32 :=
  iblk0 V c 0 ⟨t % 4, by rw [N0_eq]; exact Nat.mod_lt _ (by decide)⟩

theorem hblk_eq (c : Dev nD) (t : Fin cfg0.N) : hblk V c t.val = iblk0 V c 0 t := by
  unfold hblk; congr 1; apply Fin.ext; exact Nat.mod_eq_of_lt (lt_of_lt_of_eq t.isLt N0_eq)

/-- After position `n` the scratch holds the running sum through block `n`. -/
theorem scratch_eq (c : Dev nD) : ∀ (n : ℕ) (hn : n < cfg0.N), (outsAt0 V c n hn).2 = KPay.acc (hblk V c) n
  | 0, hn => by
    rw [outsAt0_A V c ⟨0, hn⟩ (Nat.zero_mod _) (by dsimp only; omega)]
    dsimp only; rw [sout0_A_eq, ← hblk_eq V c ⟨0, hn⟩]; rfl
  | n + 1, hn => by
    have hN : n + 1 < 4 := lt_of_lt_of_eq hn N0_eq
    have ih := scratch_eq c n (Nat.lt_of_succ_lt hn)
    by_cases h1 : (n + 1) % 4 = 3
    · rw [outsAt0_C V c ⟨n + 1, hn⟩ (by dsimp only; omega) h1]
      dsimp only; rw [sout0_C_eq, ← hblk_eq V c ⟨n + 1, hn⟩]
      exact congrArg (fun a => k0_pay2 a (hblk V c (n + 1))) ih
    · rw [outsAt0_B V c ⟨n + 1, hn⟩ (by dsimp only; omega) h1]
      dsimp only; rw [sout0_B_eq, ← hblk_eq V c ⟨n + 1, hn⟩]
      exact congrArg (fun a => k0_pay2 a (hblk V c (n + 1))) ih

/-- At the last point the output's buffer holds the strength computed from the full sum. -/
theorem out_eq (c : Dev nD) (t : Fin cfg0.N) (h1 : t.val % 4 = 3) :
    (outsAt0 V c t.val t.isLt).1 = KPay.cs0 (hblk V c) (iblk0 V c 3 t) (iblk0 V c 2 t) (iblk0 V c 1 t) := by
  have hN : t.val < 4 := lt_of_lt_of_eq t.isLt N0_eq
  have h0 : ¬t.val % 4 = 0 := by omega
  have ht : t.val = 3 := by omega
  rw [outsAt0_C V c t h0 h1]
  dsimp only; rw [out0_C_eq, scratch_eq, ← hblk_eq V c t]
  unfold KPay.cs0
  rw [ht]
  rfl

end Cert.KernelIdeal.Hand

end
-- ==== Proof.P1Ideal.lean ====
/-
  What the cell kernel's two stores leave, as pure functions of the eighteen blocks the body loaded.
-/
import proofs.«132931_j11587821765036_2_alg».proof.Proof.Gen.KernelIdeal.Launch
import proofs.«132931_j11587821765036_2_alg».proof.Proof.Gen.KernelIdeal.Skeleton
import proofs.«132931_j11587821765036_2_alg».proof.Proof.Gen.KernelIdeal.Points
import proofs.«132931_j11587821765036_2_alg».proof.Proof.R1Ideal
import proofs.«132931_j11587821765036_2_alg».proof.Proof.KPayIdeal
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2' : (![0, 0] : Fin 2 → Nat) = fun _ => 0 := by
  funext a; match a with | ⟨0, _⟩ => rfl | ⟨1, _⟩ => rfl

theorem out1_18_eq (c : Dev nD) (i : grid1.Coords) (a1 : Memref sig .tc .vmem S256x1024 .f32) (h1 : a1.IsWhole) (a2 : Memref sig .tc .vmem S256x1024 .f32) (h2 : a2.IsWhole) (a3 : Memref sig .tc .vmem S256x2048 .f32) (h3 : a3.IsWhole) (a4 : Memref sig .tc .vmem S1x1024 .f32) (h4 : a4.IsWhole) (a5 : Memref sig .tc .vmem S1024x1024 .bf16) (h5 : a5.IsWhole) (a6 : Memref sig .tc .vmem S1x1024 .f32) (h6 : a6.IsWhole) (a7 : Memref sig .tc .vmem S2048x2048 .bf16) (h7 : a7.IsWhole) (a8 : Memref sig .tc .vmem S1x2048 .f32) (h8 : a8.IsWhole) (a9 : Memref sig .tc .vmem S1024x2048 .bf16) (h9 : a9.IsWhole) (a10 : Memref sig .tc .vmem S1x1024 .f32) (h10 : a10.IsWhole) (a11 : Memref sig .tc .vmem S2048x1024 .bf16) (h11 : a11.IsWhole) (a12 : Memref sig .tc .vmem S1x2048 .f32) (h12 : a12.IsWhole) (a13 : Memref sig .tc .vmem S2048x1024 .bf16) (h13 : a13.IsWhole) (a14 : Memref sig .tc .vmem S1x2048 .f32) (h14 : a14.IsWhole) (a15 : Memref sig .tc .vmem S2048x1024 .bf16) (h15 : a15.IsWhole) (a16 : Memref sig .tc .vmem S1x2048 .f32) (h16 : a16.IsWhole) (a17 : Memref sig .tc .vmem S2048x1024 .bf16) (h17 : a17.IsWhole) (a18 : Memref sig .tc .vmem S1x2048 .f32) (h18 : a18.IsWhole) (a19 : Memref sig .tc .vmem S256x1024 .f32) (h19 : a19.IsWhole) (a20 : Memref sig .tc .vmem S256x2048 .f32) (h20 : a20.IsWhole) (x1 : Vec F S256x1024 .f32) (x2 : Vec F S256x1024 .f32) (x3 : Vec F S256x2048 .f32) (x4 : Vec F S1x1024 .f32) (x5 : Vec F S1024x1024 .bf16) (x6 : Vec F S1x1024 .f32) (x7 : Vec F S2048x2048 .bf16) (x8 : Vec F S1x2048 .f32) (x9 : Vec F S1024x2048 .bf16) (x10 : Vec F S1x1024 .f32) (x11 : Vec F S2048x1024 .bf16) (x12 : Vec F S1x2048 .f32) (x13 : Vec F S2048x1024 .bf16) (x14 : Vec F S1x2048 .f32) (x15 : Vec F S2048x1024 .bf16) (x16 : Vec F S1x2048 .f32) (x17 : Vec F S2048x1024 .bf16) (x18 : Vec F S1x2048 .f32) :
    out1_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 x1 x2 x3 x4 x5 x6 x7 x8 x9 x10 x11 x12 x13 x14 x15 x16 x17 x18 = KPay.out0 (⟨x1, x2, x3, x4, x5, x6, x7, x8, x9, x10, x11, x12, x13, x14, x15, x16, x17, x18⟩ : KPay.Blk F) := by
  unfold out1_18
  rw [View.read_writes_eq_canon _ _ _ (cover1_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 x1 x2 x3 x4 x5 x6 x7 x8 x9 x10 x11 x12 x13 x14 x15 x16 x17 x18)]
  unfold kernelRun1
  dsimp only
  sl_unfold_words
  rw [View.canon_unit_zero hz2']
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread,
    View.ld_unit_zero (S := S256x1024) hz2', View.ld_unit_zero (S := S256x2048) hz2', View.ld_unit_zero (S := S1x1024) hz2', View.ld_unit_zero (S := S1024x1024) hz2', View.ld_unit_zero (S := S2048x2048) hz2', View.ld_unit_zero (S := S1x2048) hz2', View.ld_unit_zero (S := S1024x2048) hz2', View.ld_unit_zero (S := S2048x1024) hz2']
  rfl

theorem out1_19_eq (c : Dev nD) (i : grid1.Coords) (a1 : Memref sig .tc .vmem S256x1024 .f32) (h1 : a1.IsWhole) (a2 : Memref sig .tc .vmem S256x1024 .f32) (h2 : a2.IsWhole) (a3 : Memref sig .tc .vmem S256x2048 .f32) (h3 : a3.IsWhole) (a4 : Memref sig .tc .vmem S1x1024 .f32) (h4 : a4.IsWhole) (a5 : Memref sig .tc .vmem S1024x1024 .bf16) (h5 : a5.IsWhole) (a6 : Memref sig .tc .vmem S1x1024 .f32) (h6 : a6.IsWhole) (a7 : Memref sig .tc .vmem S2048x2048 .bf16) (h7 : a7.IsWhole) (a8 : Memref sig .tc .vmem S1x2048 .f32) (h8 : a8.IsWhole) (a9 : Memref sig .tc .vmem S1024x2048 .bf16) (h9 : a9.IsWhole) (a10 : Memref sig .tc .vmem S1x1024 .f32) (h10 : a10.IsWhole) (a11 : Memref sig .tc .vmem S2048x1024 .bf16) (h11 : a11.IsWhole) (a12 : Memref sig .tc .vmem S1x2048 .f32) (h12 : a12.IsWhole) (a13 : Memref sig .tc .vmem S2048x1024 .bf16) (h13 : a13.IsWhole) (a14 : Memref sig .tc .vmem S1x2048 .f32) (h14 : a14.IsWhole) (a15 : Memref sig .tc .vmem S2048x1024 .bf16) (h15 : a15.IsWhole) (a16 : Memref sig .tc .vmem S1x2048 .f32) (h16 : a16.IsWhole) (a17 : Memref sig .tc .vmem S2048x1024 .bf16) (h17 : a17.IsWhole) (a18 : Memref sig .tc .vmem S1x2048 .f32) (h18 : a18.IsWhole) (a19 : Memref sig .tc .vmem S256x1024 .f32) (h19 : a19.IsWhole) (a20 : Memref sig .tc .vmem S256x2048 .f32) (h20 : a20.IsWhole) (x1 : Vec F S256x1024 .f32) (x2 : Vec F S256x1024 .f32) (x3 : Vec F S256x2048 .f32) (x4 : Vec F S1x1024 .f32) (x5 : Vec F S1024x1024 .bf16) (x6 : Vec F S1x1024 .f32) (x7 : Vec F S2048x2048 .bf16) (x8 : Vec F S1x2048 .f32) (x9 : Vec F S1024x2048 .bf16) (x10 : Vec F S1x1024 .f32) (x11 : Vec F S2048x1024 .bf16) (x12 : Vec F S1x2048 .f32) (x13 : Vec F S2048x1024 .bf16) (x14 : Vec F S1x2048 .f32) (x15 : Vec F S2048x1024 .bf16) (x16 : Vec F S1x2048 .f32) (x17 : Vec F S2048x1024 .bf16) (x18 : Vec F S1x2048 .f32) :
    out1_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 x1 x2 x3 x4 x5 x6 x7 x8 x9 x10 x11 x12 x13 x14 x15 x16 x17 x18 = KPay.out1 (⟨x1, x2, x3, x4, x5, x6, x7, x8, x9, x10, x11, x12, x13, x14, x15, x16, x17, x18⟩ : KPay.Blk F) := by
  unfold out1_19
  rw [View.read_writes_eq_canon _ _ _ (cover1_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 x1 x2 x3 x4 x5 x6 x7 x8 x9 x10 x11 x12 x13 x14 x15 x16 x17 x18)]
  unfold kernelRun1
  dsimp only
  sl_unfold_words
  rw [View.canon_unit_zero hz2']
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread,
    View.ld_unit_zero (S := S256x1024) hz2', View.ld_unit_zero (S := S256x2048) hz2', View.ld_unit_zero (S := S1x1024) hz2', View.ld_unit_zero (S := S1024x1024) hz2', View.ld_unit_zero (S := S2048x2048) hz2', View.ld_unit_zero (S := S1x2048) hz2', View.ld_unit_zero (S := S1024x2048) hz2', View.ld_unit_zero (S := S2048x1024) hz2']
  rfl

end Cert.KernelIdeal.Hand

end
-- ==== Proof.CoverIdeal.lean ====
/-
  The cell kernel's output blocks tile the two result arrays: point t writes rows 256·t … 256·t + 255 of every
  column, so each index of a result is in the block of exactly the point its row number selects.  Likewise the
  connection-strength kernel's single output block is its whole 1 × 1024 result.
-/
import proofs.«132931_j11587821765036_2_alg».proof.Proof.Gen.KernelIdeal.Launch
import proofs.«132931_j11587821765036_2_alg».proof.Proof.Gen.KernelIdeal.Skeleton
import proofs.«132931_j11587821765036_2_alg».proof.Proof.Gen.KernelIdeal.Points
import proofs.«132931_j11587821765036_2_alg».proof.Proof.RunIdeal
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem cfg1N_eq : cfg1.N = 32 := N_1

theorem idx1_18 : ∀ t : Fin cfg1.N, win1_18.index t (0 : Fin 2) = t.val ∧ win1_18.index t (1 : Fin 2) = 0 :=
  (by decide +kernel : ∀ t : Fin grid1.N, win1_18.index t (0 : Fin 2) = t.val ∧ win1_18.index t (1 : Fin 2) = 0)
theorem idx1_19 : ∀ t : Fin cfg1.N, win1_19.index t (0 : Fin 2) = t.val ∧ win1_19.index t (1 : Fin 2) = 0 :=
  (by decide +kernel : ∀ t : Fin grid1.N, win1_19.index t (0 : Fin 2) = t.val ∧ win1_19.index t (1 : Fin 2) = 0)

theorem mem_blk18 (t : Fin cfg1.N) (i : S8192x1024.Idx) :
    i ∈ ((cfg1.win 18).blk t).view.set ↔ ∀ a : Fin 2, win1_18.index t a * S256x1024.size a ≤ (i a).val ∧ (i a).val < win1_18.index t a * S256x1024.size a + S256x1024.size a := by
  show i ∈ ((View.whole main_v20_0).slice (win1_18.rect t)).set ↔ _
  rw [View.set_slice_whole, Rect.mem_set_unit]
  exact Iff.rfl

/-- Every row of the result lies in the block of the point that is its row number divided by 256. -/
theorem cover18 (i : S8192x1024.Idx) : ∃ t : Fin cfg1.N, (cfg1.win 18).flush t = true ∧ i ∈ ((cfg1.win 18).blk t).view.set := by
  have hi0 : (i 0).val < 8192 := (i 0).isLt
  have hi1 : (i 1).val < 1024 := (i 1).isLt
  obtain ⟨e0, e1⟩ := idx1_18 ⟨(i 0).val / 256, by rw [cfg1N_eq]; omega⟩
  refine ⟨⟨(i 0).val / 256, by rw [cfg1N_eq]; omega⟩, flush1_18 _, ?_⟩
  rw [mem_blk18]
  intro a
  match a with
  | ⟨0, _⟩ =>
    show win1_18.index _ (0 : Fin 2) * 256 ≤ (i 0).val ∧ (i 0).val < win1_18.index _ (0 : Fin 2) * 256 + 256
    rw [e0]; dsimp only; omega
  | ⟨1, _⟩ =>
    show win1_18.index _ (1 : Fin 2) * 1024 ≤ (i 1).val ∧ (i 1).val < win1_18.index _ (1 : Fin 2) * 1024 + 1024
    rw [e1]; omega

theorem mem_blk19 (t : Fin cfg1.N) (i : S8192x2048.Idx) :
    i ∈ ((cfg1.win 19).blk t).view.set ↔ ∀ a : Fin 2, win1_19.index t a * S256x2048.size a ≤ (i a).val ∧ (i a).val < win1_19.index t a * S256x2048.size a + S256x2048.size a := by
  show i ∈ ((View.whole main_v20_1).slice (win1_19.rect t)).set ↔ _
  rw [View.set_slice_whole, Rect.mem_set_unit]
  exact Iff.rfl

/-- Every row of the result lies in the block of the point that is its row number divided by 256. -/
theorem cover19 (i : S8192x2048.Idx) : ∃ t : Fin cfg1.N, (cfg1.win 19).flush t = true ∧ i ∈ ((cfg1.win 19).blk t).view.set := by
  have hi0 : (i 0).val < 8192 := (i 0).isLt
  have hi1 : (i 1).val < 2048 := (i 1).isLt
  obtain ⟨e0, e1⟩ := idx1_19 ⟨(i 0).val / 256, by rw [cfg1N_eq]; omega⟩
  refine ⟨⟨(i 0).val / 256, by rw [cfg1N_eq]; omega⟩, flush1_19 _, ?_⟩
  rw [mem_blk19]
  intro a
  match a with
  | ⟨0, _⟩ =>
    show win1_19.index _ (0 : Fin 2) * 256 ≤ (i 0).val ∧ (i 0).val < win1_19.index _ (0 : Fin 2) * 256 + 256
    rw [e0]; dsimp only; omega
  | ⟨1, _⟩ =>
    show win1_19.index _ (1 : Fin 2) * 2048 ≤ (i 1).val ∧ (i 1).val < win1_19.index _ (1 : Fin 2) * 2048 + 2048
    rw [e1]; omega

theorem idx0_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

theorem mem_blk0_4 (t : Fin cfg0.N) (i : S1x1024.Idx) :
    i ∈ ((cfg0.win 4).blk t).view.set ↔ ∀ a : Fin 2, win0_4.index t a * S1x1024.size a ≤ (i a).val ∧ (i a).val < win0_4.index t a * S1x1024.size a + S1x1024.size a := by
  show i ∈ ((View.whole main_v11).slice (win0_4.rect t)).set ↔ _
  rw [View.set_slice_whole, Rect.mem_set_unit]
  exact Iff.rfl

/-- The last point's block is the whole connection-strength array. -/
theorem cover0_4 (i : S1x1024.Idx) : ∃ t : Fin cfg0.N, (cfg0.win 4).flush t = true ∧ i ∈ ((cfg0.win 4).blk t).view.set := by
  have hi0 : (i 0).val < 1 := (i 0).isLt
  have hi1 : (i 1).val < 1024 := (i 1).isLt
  obtain ⟨e0, e1⟩ := idx0_4 ⟨3, by rw [N0_eq]; omega⟩
  refine ⟨⟨3, by rw [N0_eq]; omega⟩, (flush0_4 _).mpr rfl, ?_⟩
  rw [mem_blk0_4]
  intro a
  match a with
  | ⟨0, _⟩ =>
    show win0_4.index _ (0 : Fin 2) * 1 ≤ (i 0).val ∧ (i 0).val < win0_4.index _ (0 : Fin 2) * 1 + 1
    rw [e0]; omega
  | ⟨1, _⟩ =>
    show win0_4.index _ (1 : Fin 2) * 1024 ≤ (i 1).val ∧ (i 1).val < win0_4.index _ (1 : Fin 2) * 1024 + 1024
    rw [e1]; omega

end Cert.KernelIdeal.Hand

end
-- ==== Proof.Spec.lean ====
/-
  The mathematics both programs compute, as ONE function of the twenty-two argument arrays, index by index, on the
  extended reals.  A gated recurrent cell with a persistent memory:

    cs      = strength · σ(history · decay + (Σ_r |hidden[r,·]|) / 8192)                       (per hidden unit)
    att     = σ(hidden · Waᵀ + ba),   ha = hidden · att                                        (per row)
    reset   = [x, ha] · Wrᵀ + br,     update = [x, ha] · Wuᵀ + bu
    new     = [x, reset · ha] · Wnᵀ + bn
    hn      = (1 − update) · hidden + update · new · cs
    addr    = softmax(hn · Waddrᵀ + baddr),  read/write/forget = σ(hn · W•ᵀ + b•)
    mem     = forget · pm + write · mean(hn) · addr
    out0    = hn + mean(read · mem),   out1 = mem

  Every output row depends on the same row of x, hidden and pm only (and on the weights and on cs, which depends on every
  row of hidden).  σ is the logistic function; a sum is a finite sum over the literal index type; a row maximum is the
  supremum over the row (the supremum of the extended reals: ⊥ on no entry).  The float literals are kept as their words.
-/
import Idealize.ShloMosaic.PureOps.Ideal
import Idealize.ShloMosaic.Lib.ValueIdx

noncomputable section

namespace Cert.Spec

open Idealize.ShloMosaic Idealize.ShloMosaic.ValueIdx

/-- An f32 array of a literal shape at the ideal values. -/
abbrev Arr (n : Nat) (d : Fin n → Nat) : Type := FVec Ideal ⟨n, d⟩ .f32

/-- The twenty-two argument arrays, in the programs' order. -/
structure Args where
  x : Arr 2 ![8192, 1024]
  h : Arr 2 ![8192, 1024]
  pm : Arr 2 ![8192, 2048]
  Wa : Arr 2 ![1024, 1024]
  ba : Arr 1 ![1024]
  Wr : Arr 2 ![1024, 2048]
  br : Arr 1 ![1024]
  Wu : Arr 2 ![1024, 2048]
  bu : Arr 1 ![1024]
  Wn : Arr 2 ![1024, 2048]
  bn : Arr 1 ![1024]
  Wread : Arr 2 ![2048, 1024]
  bread : Arr 1 ![2048]
  Wwrite : Arr 2 ![2048, 1024]
  bwrite : Arr 1 ![2048]
  Wforget : Arr 2 ![2048, 1024]
  bforget : Arr 1 ![2048]
  Waddr : Arr 2 ![2048, 1024]
  baddr : Arr 1 ![2048]
  strength : Arr 1 ![1024]
  decay : Arr 1 ![1]
  hist : Arr 1 ![1024]

variable (A : Args)

/-- The literal 1.0, 1024.0, 2048.0, 8192.0 as the programs spell them. -/
abbrev one : EReal := Ideal.ofBits .f32 0x3F800000#32
abbrev c1024 : EReal := Ideal.ofBits .f32 0x44800000#32
abbrev c2048 : EReal := Ideal.ofBits .f32 0x45000000#32
abbrev c8192 : EReal := Ideal.ofBits .f32 0x46000000#32

/-- The connection strength of hidden unit `j`: the batch mean of |hidden| enters the decayed history. -/
def cs (j : Fin 1024) : EReal :=
  A.strength (ix1 j) * Ideal.logistic (A.hist (ix1 j) * A.decay (ix1 0)
    + Ideal.div (∑ r : Fin 8192, max (A.h (ix2 r j)) (-(A.h (ix2 r j)))) c8192)

/-- The attention gate of row `r` at unit `j`. -/
def att (r : Fin 8192) (j : Fin 1024) : EReal :=
  Ideal.logistic (∑ k : Fin 1024, A.h (ix2 r k) * A.Wa (ix2 j k) + A.ba (ix1 j))

/-- The attended hidden state. -/
def ha (r : Fin 8192) (j : Fin 1024) : EReal := A.h (ix2 r j) * att A r j

/-- The row `[x, v]`: x on the first 1024 columns, `v` on the last 1024. -/
def cat (r : Fin 8192) (v : Fin 1024 → EReal) (k : Fin 2048) : EReal :=
  if hk : k.val < 1024 then A.x (ix2 r ⟨k.val, hk⟩) else v ⟨k.val - 1024, by omega⟩

def reset (r : Fin 8192) (j : Fin 1024) : EReal :=
  ∑ k : Fin 2048, cat A r (ha A r) k * A.Wr (ix2 j k) + A.br (ix1 j)

def update (r : Fin 8192) (j : Fin 1024) : EReal :=
  ∑ k : Fin 2048, cat A r (ha A r) k * A.Wu (ix2 j k) + A.bu (ix1 j)

def new (r : Fin 8192) (j : Fin 1024) : EReal :=
  ∑ k : Fin 2048, cat A r (fun j' => reset A r j' * ha A r j') k * A.Wn (ix2 j k) + A.bn (ix1 j)

/-- The new hidden state before the memory read is added. -/
def hn (r : Fin 8192) (j : Fin 1024) : EReal :=
  (one - update A r j) * A.h (ix2 r j) + update A r j * new A r j * cs A j

/-- A memory gate's logits: `hn · Wᵀ + b`. -/
def logits (W : Arr 2 ![2048, 1024]) (b : Arr 1 ![2048]) (r : Fin 8192) (p : Fin 2048) : EReal :=
  ∑ j : Fin 1024, hn A r j * W (ix2 p j) + b (ix1 p)

/-- The softmax numerator: the exponential of the logit less the row's supremum. -/
def aexp (r : Fin 8192) (p : Fin 2048) : EReal :=
  Ideal.exp (logits A A.Waddr A.baddr r p - Finset.univ.sup fun p' : Fin 2048 => logits A A.Waddr A.baddr r p')

def addr (r : Fin 8192) (p : Fin 2048) : EReal := Ideal.div (aexp A r p) (∑ p' : Fin 2048, aexp A r p')

def rd (r : Fin 8192) (p : Fin 2048) : EReal := Ideal.logistic (logits A A.Wread A.bread r p)
def wr (r : Fin 8192) (p : Fin 2048) : EReal := Ideal.logistic (logits A A.Wwrite A.bwrite r p)
def fg (r : Fin 8192) (p : Fin 2048) : EReal := Ideal.logistic (logits A A.Wforget A.bforget r p)

/-- The row mean of the new hidden state. -/
def hp (r : Fin 8192) : EReal := Ideal.div (∑ j : Fin 1024, hn A r j) c1024

/-- The new memory (the second result). -/
def mem (r : Fin 8192) (p : Fin 2048) : EReal :=
  fg A r p * A.pm (ix2 r p) + wr A r p * hp A r * addr A r p

/-- The final hidden state (the first result). -/
def out0 (r : Fin 8192) (j : Fin 1024) : EReal :=
  hn A r j + Ideal.div (∑ p : Fin 2048, rd A r p * mem A r p) c2048

/-- The two results as arrays. -/
def res0 : Arr 2 ![8192, 1024] := fun i => out0 A (i 0) (i 1)
def res1 : Arr 2 ![8192, 2048] := fun i => mem A (i 0) (i 1)

end Cert.Spec

end
-- ==== Proof.ArgsK.lean ====
/-
  The idealized kernel program's twenty-two argument arrays on a core, as the specification's record.
-/
import proofs.«132931_j11587821765036_2_alg».proof.KernelIdeal
import proofs.«132931_j11587821765036_2_alg».proof.Proof.Spec

noncomputable section

namespace Cert.KernelIdeal.Hand

open Idealize.ShloMosaic Idealize.ShloMosaic.TcCoe Cert.KernelIdeal

/-- The arguments as launched on core `c`: x, hidden, memory, the seven weight matrices with their biases, and the
    connection strength, decay and history. -/
def argsK (m : (ℓ : Loc nD τ sig) → Buf (Elt Ideal) ℓ) (c : Dev nD) : Cert.Spec.Args where
  x := m ((c : Thread nD τ).loc main_arg0)
  h := m ((c : Thread nD τ).loc main_arg1)
  pm := m ((c : Thread nD τ).loc main_arg2)
  Wa := m ((c : Thread nD τ).loc main_arg3)
  ba := m ((c : Thread nD τ).loc main_arg4)
  Wr := m ((c : Thread nD τ).loc main_arg5)
  br := m ((c : Thread nD τ).loc main_arg6)
  Wu := m ((c : Thread nD τ).loc main_arg7)
  bu := m ((c : Thread nD τ).loc main_arg8)
  Wn := m ((c : Thread nD τ).loc main_arg9)
  bn := m ((c : Thread nD τ).loc main_arg10)
  Wread := m ((c : Thread nD τ).loc main_arg11)
  bread := m ((c : Thread nD τ).loc main_arg12)
  Wwrite := m ((c : Thread nD τ).loc main_arg13)
  bwrite := m ((c : Thread nD τ).loc main_arg14)
  Wforget := m ((c : Thread nD τ).loc main_arg15)
  bforget := m ((c : Thread nD τ).loc main_arg16)
  Waddr := m ((c : Thread nD τ).loc main_arg17)
  baddr := m ((c : Thread nD τ).loc main_arg18)
  strength := m ((c : Thread nD τ).loc main_arg19)
  decay := m ((c : Thread nD τ).loc main_arg20)
  hist := m ((c : Thread nD τ).loc main_arg21)

end Cert.KernelIdeal.Hand

end
-- ==== Proof.HostA.lean ====
/-
  What the blocks of the two regions' input windows hold, in terms of the argument arrays, read at an index.  A window's
  block at grid point t is its array read at block index × block size + the coordinate inside the block.  The first
  region's activation window walks the hidden state 2048 rows at a time and its three small windows are the strength,
  decay and history vectors viewed as one-row matrices; the second region's three activation windows walk x, the hidden
  state and the memory 256 rows at a time (the hidden state having passed through the first region as an input, which
  leaves it as found), and its fourth window is the row the first region produced.
-/
import proofs.«132931_j11587821765036_2_alg».proof.Proof.RunIdeal
import proofs.«132931_j11587821765036_2_alg».proof.Proof.ArgsK
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

variable (m : (ℓ : Loc nD τ sig) → Buf (Elt Ideal) ℓ) (ρ : Dev nD → PrngReg)

/-! ## The first region -/

/-- The first region's index maps over its four points: the activation window moves one block of rows per point, the
    small windows stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- No host operation before the first region writes the hidden state. -/
theorem V1_main_arg1 (c : Dev nD) : V1 m ρ c main_arg1 = m ((c : Thread nD τ).loc main_arg1) :=
  (StableHlo.after_of_writes_sub hostOps0 _ hostOps0_writes (by decide) :
    W1 m ρ c (Proc.devRef .tc main_arg1) = W0 m ρ c (Proc.devRef .tc main_arg1))

/-- Window 0 at point `t`: rows 2048 t to 2048 t + 2047 of the hidden state. -/
theorem blk0_w0 (c : Dev nD) (t : Fin cfg0.N) (r : Fin 2048) (q : Fin 1024) :
    (iblk0 (V1 m ρ) c 0 t : Vec Ideal S2048x1024 .f32) (ix2 r q)
      = (argsK m c).h (ix2 ⟨t.val * 2048 + r.val, by have := N0_eq; have := t.isLt; omega⟩ q) := by
  obtain ⟨e0, e1, -⟩ := idx0 t
  show V1 m ρ c (Pipeline.arrRef spec0 0) (((cfg0.win 0).blk t).view.emb (ix2 r q)) = _
  refine (congrFun (V1_main_arg1 m ρ c) _).trans ?_
  show m ((c : Thread nD τ).loc main_arg1) _ = m ((c : Thread nD τ).loc main_arg1) _
  congr 1
  funext a; apply Fin.ext
  match a with
  | ⟨0, _⟩ => show win0_0.index t (0 : Fin 2) * 2048 + 1 * r.val = t.val * 2048 + r.val; omega
  | ⟨1, _⟩ => show win0_0.index t (1 : Fin 2) * 1024 + 1 * q.val = q.val; omega

/-- The strength, decay and history vectors as the first region finds them: the arguments viewed as one-row matrices. -/
theorem V1_main_v8 (c : Dev nD) :
    V1 m ρ c main_v8 = shapeCast S1x1024 (m ((c : Thread nD τ).loc main_arg19)) shapeCasts_S1024_S1x1024 := by
  show StableHlo.after hostOps0 _ (Proc.devRef .tc main_v8) = _
  after_results
  rfl

theorem V1_main_v9 (c : Dev nD) :
    V1 m ρ c main_v9 = shapeCast S1x1 (m ((c : Thread nD τ).loc main_arg20)) shapeCasts_S1_S1x1 := by
  show StableHlo.after hostOps0 _ (Proc.devRef .tc main_v9) = _
  after_results
  rfl

theorem V1_main_v10 (c : Dev nD) :
    V1 m ρ c main_v10 = shapeCast S1x1024 (m ((c : Thread nD τ).loc main_arg21)) shapeCasts_S1024_S1x1024 := by
  show StableHlo.after hostOps0 _ (Proc.devRef .tc main_v10) = _
  after_results
  rfl

/-- Window 1 at every point: the strength vector. -/
theorem blk0_w1 (c : Dev nD) (t : Fin cfg0.N) (q : Fin 1024) :
    (iblk0 (V1 m ρ) c 1 t : Vec Ideal S1x1024 .f32) (ix2 0 q) = (argsK m c).strength (ix1 q) := by
  obtain ⟨-, -, e0, e1, -⟩ := idx0 t
  show V1 m ρ c (Pipeline.arrRef spec0 1) (((cfg0.win 1).blk t).view.emb (ix2 0 q)) = _
  refine (congrFun (V1_main_v8 m ρ c) _).trans ?_
  have hemb : ((cfg0.win 1).blk t).view.emb (ix2 (0 : Fin 1) q) = ix2 (0 : Fin 1) q := by
    funext a; apply Fin.ext
    match a with
    | ⟨0, _⟩ => show win0_1.index t (0 : Fin 2) * 1 + 1 * 0 = 0; omega
    | ⟨1, _⟩ => show win0_1.index t (1 : Fin 2) * 1024 + 1 * q.val = q.val; omega
  refine (congrArg (shapeCast S1x1024 (m ((c : Thread nD τ).loc main_arg19)) shapeCasts_S1024_S1x1024) hemb).trans ?_
  exact shapeCast_a_1a_apply _ _ 0 q

/-- Window 2 at every point: the decay. -/
theorem blk0_w2 (c : Dev nD) (t : Fin cfg0.N) :
    (iblk0 (V1 m ρ) c 2 t : Vec Ideal S1x1 .f32) (ix2 0 0) = (argsK m c).decay (ix1 0) := by
  obtain ⟨-, -, -, -, e0, e1, -⟩ := idx0 t
  show V1 m ρ c (Pipeline.arrRef spec0 2) (((cfg0.win 2).blk t).view.emb (ix2 0 0)) = _
  refine (congrFun (V1_main_v9 m ρ c) _).trans ?_
  have hemb : ((cfg0.win 2).blk t).view.emb (ix2 (0 : Fin 1) (0 : Fin 1)) = ix2 (0 : Fin 1) (0 : Fin 1) := by
    funext a; apply Fin.ext
    match a with
    | ⟨0, _⟩ => show win0_2.index t (0 : Fin 2) * 1 + 1 * 0 = 0; omega
    | ⟨1, _⟩ => show win0_2.index t (1 : Fin 2) * 1 + 1 * 0 = 0; omega
  refine (congrArg (shapeCast S1x1 (m ((c : Thread nD τ).loc main_arg20)) shapeCasts_S1_S1x1) hemb).trans ?_
  exact shapeCast_a_1a_apply _ _ 0 0

/-- Window 3 at every point: the history vector. -/
theorem blk0_w3 (c : Dev nD) (t : Fin cfg0.N) (q : Fin 1024) :
    (iblk0 (V1 m ρ) c 3 t : Vec Ideal S1x1024 .f32) (ix2 0 q) = (argsK m c).hist (ix1 q) := by
  obtain ⟨-, -, -, -, -, -, e0, e1⟩ := idx0 t
  show V1 m ρ c (Pipeline.arrRef spec0 3) (((cfg0.win 3).blk t).view.emb (ix2 0 q)) = _
  refine (congrFun (V1_main_v10 m ρ c) _).trans ?_
  have hemb : ((cfg0.win 3).blk t).view.emb (ix2 (0 : Fin 1) q) = ix2 (0 : Fin 1) q := by
    funext a; apply Fin.ext
    match a with
    | ⟨0, _⟩ => show win0_3.index t (0 : Fin 2) * 1 + 1 * 0 = 0; omega
    | ⟨1, _⟩ => show win0_3.index t (1 : Fin 2) * 1024 + 1 * q.val = q.val; omega
  refine (congrArg (shapeCast S1x1024 (m ((c : Thread nD τ).loc main_arg21)) shapeCasts_S1024_S1x1024) hemb).trans ?_
  exact shapeCast_a_1a_apply _ _ 0 q

/-! ## The second region -/

/-- The second region has 32 points. -/
theorem N1_eq : cfg1.N = 32 := N_1

/-- The second region's index maps over its 32 points: the three activation windows move one block of rows per point,
    the connection-strength window stays. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0 :=
  (by decide +kernel : ∀ t : Fin grid1.N, _)

/-- The three activation arrays reach the second region as launched: no host operation writes them, and the first region
    either does not hold them or holds them as an input, which it leaves as found. -/
theorem V3_main_arg0 (c : Dev nD) : V3 m ρ c main_arg0 = m ((c : Thread nD τ).loc main_arg0) :=
  calc W3 m ρ c (Proc.devRef .tc main_arg0)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem V3_main_arg1 (c : Dev nD) : V3 m ρ c main_arg1 = m ((c : Thread nD τ).loc main_arg1) :=
  calc W3 m ρ c (Proc.devRef .tc main_arg1)
    _ = W2 m ρ c (Proc.devRef .tc main_arg1) := StableHlo.after_of_writes_sub hostOps1 _ hostOps1_writes (by decide)
    _ = W1 m ρ c (Proc.devRef .tc main_arg1) :=
        (W2_arr m ρ c 0).trans (((dat0 (V1 m ρ) c).arrAt_in 0 rfl _).trans (A_eq0 (V1 m ρ) c 0))
    _ = W0 m ρ c (Proc.devRef .tc main_arg1) := StableHlo.after_of_writes_sub hostOps0 _ hostOps0_writes (by decide)
    _ = m ((c : Thread nD τ).loc main_arg1) := rfl

theorem V3_main_arg2 (c : Dev nD) : V3 m ρ c main_arg2 = m ((c : Thread nD τ).loc main_arg2) :=
  calc W3 m ρ c (Proc.devRef .tc main_arg2)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-- The first region's result reaches the second region as the first region left it. -/
theorem V3_main_v11 (c : Dev nD) : V3 m ρ c main_v11 = (dat0 (V1 m ρ) c).arrAt 4 cfg0.N :=
  calc W3 m ρ c (Proc.devRef .tc main_v11)
    _ = W2 m ρ c (Proc.devRef .tc main_v11) := StableHlo.after_of_writes_sub hostOps1 _ hostOps1_writes (by decide)
    _ = (dat0 (V1 m ρ) c).arrAt 4 cfg0.N := W2_arr m ρ c 4

/-- Window 0 at point `t`: rows 256 t to 256 t + 255 of x. -/
theorem blk1_w0 (c : Dev nD) (t : Fin cfg1.N) (p : Fin 256) (q : Fin 1024) :
    (iblk1 (V3 m ρ) c 0 t : Vec Ideal S256x1024 .f32) (ix2 p q)
      = (argsK m c).x (ix2 ⟨t.val * 256 + p.val, by have := N1_eq; have := t.isLt; omega⟩ q) := by
  obtain ⟨e0, e1, -⟩ := idx1 t
  show V3 m ρ c (Pipeline.arrRef spec1 0) (((cfg1.win 0).blk t).view.emb (ix2 p q)) = _
  refine (congrFun (V3_main_arg0 m ρ c) _).trans ?_
  show m ((c : Thread nD τ).loc main_arg0) _ = m ((c : Thread nD τ).loc main_arg0) _
  congr 1
  funext a; apply Fin.ext
  match a with
  | ⟨0, _⟩ => show win1_0.index t (0 : Fin 2) * 256 + 1 * p.val = t.val * 256 + p.val; omega
  | ⟨1, _⟩ => show win1_0.index t (1 : Fin 2) * 1024 + 1 * q.val = q.val; omega

/-- Window 1 at point `t`: rows 256 t to 256 t + 255 of the hidden state. -/
theorem blk1_w1 (c : Dev nD) (t : Fin cfg1.N) (p : Fin 256) (q : Fin 1024) :
    (iblk1 (V3 m ρ) c 1 t : Vec Ideal S256x1024 .f32) (ix2 p q)
      = (argsK m c).h (ix2 ⟨t.val * 256 + p.val, by have := N1_eq; have := t.isLt; omega⟩ q) := by
  obtain ⟨-, -, e0, e1, -⟩ := idx1 t
  show V3 m ρ c (Pipeline.arrRef spec1 1) (((cfg1.win 1).blk t).view.emb (ix2 p q)) = _
  refine (congrFun (V3_main_arg1 m ρ c) _).trans ?_
  show m ((c : Thread nD τ).loc main_arg1) _ = m ((c : Thread nD τ).loc main_arg1) _
  congr 1
  funext a; apply Fin.ext
  match a with
  | ⟨0, _⟩ => show win1_1.index t (0 : Fin 2) * 256 + 1 * p.val = t.val * 256 + p.val; omega
  | ⟨1, _⟩ => show win1_1.index t (1 : Fin 2) * 1024 + 1 * q.val = q.val; omega

/-- Window 2 at point `t`: rows 256 t to 256 t + 255 of the memory. -/
theorem blk1_w2 (c : Dev nD) (t : Fin cfg1.N) (p : Fin 256) (q : Fin 2048) :
    (iblk1 (V3 m ρ) c 2 t : Vec Ideal S256x2048 .f32) (ix2 p q)
      = (argsK m c).pm (ix2 ⟨t.val * 256 + p.val, by have := N1_eq; have := t.isLt; omega⟩ q) := by
  obtain ⟨-, -, -, -, e0, e1, -⟩ := idx1 t
  show V3 m ρ c (Pipeline.arrRef spec1 2) (((cfg1.win 2).blk t).view.emb (ix2 p q)) = _
  refine (congrFun (V3_main_arg2 m ρ c) _).trans ?_
  show m ((c : Thread nD τ).loc main_arg2) _ = m ((c : Thread nD τ).loc main_arg2) _
  congr 1
  funext a; apply Fin.ext
  match a with
  | ⟨0, _⟩ => show win1_2.index t (0 : Fin 2) * 256 + 1 * p.val = t.val * 256 + p.val; omega
  | ⟨1, _⟩ => show win1_2.index t (1 : Fin 2) * 2048 + 1 * q.val = q.val; omega

/-- Window 3 at every point: the row the first region produced. -/
theorem blk1_w3 (c : Dev nD) (t : Fin cfg1.N) (q : Fin 1024) :
    (iblk1 (V3 m ρ) c 3 t : Vec Ideal S1x1024 .f32) (ix2 0 q) = (dat0 (V1 m ρ) c).arrAt 4 cfg0.N (ix2 0 q) := by
  obtain ⟨-, -, -, -, -, -, e0, e1⟩ := idx1 t
  show V3 m ρ c (Pipeline.arrRef spec1 3) (((cfg1.win 3).blk t).view.emb (ix2 0 q)) = _
  refine (congrFun (V3_main_v11 m ρ c) _).trans ?_
  refine congrArg ((dat0 (V1 m ρ) c).arrAt 4 cfg0.N) ?_
  funext a; apply Fin.ext
  match a with
  | ⟨0, _⟩ => show win1_3.index t (0 : Fin 2) * 1 + 1 * 0 = 0; omega
  | ⟨1, _⟩ => show win1_3.index t (1 : Fin 2) * 1024 + 1 * q.val = q.val; omega

end Cert.KernelIdeal.Hand

end
-- ==== Proof.HostB.lean ====
/-
  What the cell kernel's weight and bias windows hold when its region is entered, in terms of the argument arrays.
  Each of these windows has one block, its whole array, at every grid point.  A weight's array is the argument
  converted to a narrower format, which is the identity on extended reals; a bias's array is the argument vector as a
  one-row matrix; the fused reset/update weight and bias are the reset gate's rows (entries) followed by the update
  gate's.  No array is changed between its host operation and the region: the first region writes only its own
  output, and the second stretch of host operations writes only its own results.
-/
import proofs.«132931_j11587821765036_2_alg».proof.Proof.RunIdeal
import proofs.«132931_j11587821765036_2_alg».proof.Proof.ArgsK
import Idealize.ShloMosaic.Lib.ValueLayout
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- An argument array no window of the first region and no host operation before it touches is, when the second
    stretch of host operations starts, what the launch memory holds. -/
theorem hostB_W2_of_arg (c : Dev nD) (b : Ref sig .tc) (h1 : ∀ w, Pipeline.arrRef spec0 w ≠ b) (h0 : b ∉ hostOps0_W) :
    W2 m ρ c (Proc.devRef .tc b) = W0 m ρ c (Proc.devRef .tc b) :=
  (W2_of_ne m ρ c b h1).trans (StableHlo.after_of_writes_sub hostOps0 _ hostOps0_writes h0)

/-- A result of the first stretch of host operations that the first region does not write and the second stretch does
    not write is, at the second region's entry, what the first stretch left. -/
theorem hostB_W3_of_host0 (c : Dev nD) (b : Ref sig .tc) (h3 : b ∉ hostOps1_W) (h1 : ∀ w, Pipeline.arrRef spec0 w ≠ b) :
    W3 m ρ c (Proc.devRef .tc b) = W1 m ρ c (Proc.devRef .tc b) :=
  (StableHlo.after_of_writes_sub hostOps1 _ hostOps1_writes h3).trans (W2_of_ne m ρ c b h1)

/-- Two matrices joined along the rows, read at row `n` and column `k`. -/
theorem hostB_cat_rows_apply (h : Shape.Concatenates [S1024x2048, S1024x2048] S2048x2048 0)
    (a b : S1024x2048.Idx → EReal) (n k : Fin 2048) :
    concatenate S2048x2048 0 [⟨S1024x2048, a⟩, ⟨S1024x2048, b⟩] h (ix2 n k)
      = if hn : n.val < 1024 then a (ix2 ⟨n.val, hn⟩ k) else b (ix2 ⟨n.val - 1024, by omega⟩ k) := by
  by_cases hn : n.val < 1024
  · rw [dif_pos hn]
    exact concatenate_pair_apply_left 0 a b h (ix2 n k) rfl (ix2 ⟨n.val, hn⟩ k)
      (fun b => match b with | ⟨0, _⟩ => rfl | ⟨1, _⟩ => rfl)
  · rw [dif_neg hn]
    exact concatenate_pair_apply_right 0 a b h (ix2 n k) rfl rfl (ix2 ⟨n.val - 1024, by omega⟩ k)
      (fun b hb => match b, hb with | ⟨0, _⟩, hb => absurd rfl hb | ⟨1, _⟩, _ => rfl)
      (by show (n.val - 1024) + 1024 = n.val; omega)

/-- Two vectors joined end to end, read at entry `n`. -/
theorem hostB_cat_vec_apply (h : Shape.Concatenates [S1024, S1024] S2048 0) (a b : S1024.Idx → EReal) (n : Fin 2048) :
    concatenate S2048 0 [⟨S1024, a⟩, ⟨S1024, b⟩] h (ix1 n)
      = if hn : n.val < 1024 then a (ix1 ⟨n.val, hn⟩) else b (ix1 ⟨n.val - 1024, by omega⟩) := by
  by_cases hn : n.val < 1024
  · rw [dif_pos hn]
    exact concatenate_pair_apply_left 0 a b h (ix1 n) rfl (ix1 ⟨n.val, hn⟩)
      (fun b => match b with | ⟨0, _⟩ => rfl)
  · rw [dif_neg hn]
    exact concatenate_pair_apply_right 0 a b h (ix1 n) rfl rfl (ix1 ⟨n.val - 1024, by omega⟩)
      (fun b hb => match b, hb with | ⟨0, _⟩, hb => absurd rfl hb)
      (by show (n.val - 1024) + 1024 = n.val; omega)

theorem hostB_idx1_4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)

/-- Window 4's one block is its whole array: an index of the block is the same index of the array. -/
theorem hostB_emb1_4 (t : Fin cfg1.N) (p : Fin 1024) (q : Fin 1024) : ((cfg1.win 4).blk t).view.emb (ix2 p q) = ix2 p q := by
  obtain ⟨e0, e1⟩ := hostB_idx1_4 t
  refine funext fun a => Fin.ext ?_
  match a with
  | ⟨0, _⟩ => show win1_4.index t (0 : Fin 2) * 1024 + 1 * p.val = p.val; omega
  | ⟨1, _⟩ => show win1_4.index t (1 : Fin 2) * 1024 + 1 * q.val = q.val; omega

/-- The converted Wa at the second region's entry: the argument, entry by entry (a change of format is the
    identity on extended reals). -/
theorem hostB_V3_main_v12 (c : Dev nD) (i : S1024x1024.Idx) : (V3 m ρ c main_v12 : S1024x1024.Idx → EReal) i = (argsK m c).Wa i := by
  show StableHlo.after hostOps1 (W2 m ρ c) (Proc.devRef .tc main_v12) i = _
  after_results
  rw [truncf_apply, hostB_W2_of_arg m ρ c main_arg3 (by decide) (by decide)]
  rfl

/-- Window 4 of the cell kernel (Wa, converted) at any grid point. -/
theorem blk1_w4 (c : Dev nD) (t : Fin cfg1.N) (j : Fin 1024) (k : Fin 1024) :
    (iblk1 (V3 m ρ) c 4 t : Vec Ideal S1024x1024 .bf16) (ix2 j k) = (argsK m c).Wa (ix2 j k) := by
  unfold iblk1
  show (V3 m ρ c main_v12 : S1024x1024.Idx → EReal) (((cfg1.win 4).blk t).view.emb (ix2 j k)) = _
  rw [hostB_emb1_4, hostB_V3_main_v12]

theorem hostB_idx1_5 : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)

/-- Window 5's one block is its whole array: an index of the block is the same index of the array. -/
theorem hostB_emb1_5 (t : Fin cfg1.N) (p : Fin 1) (q : Fin 1024) : ((cfg1.win 5).blk t).view.emb (ix2 p q) = ix2 p q := by
  obtain ⟨e0, e1⟩ := hostB_idx1_5 t
  refine funext fun a => Fin.ext ?_
  match a with
  | ⟨0, _⟩ => show win1_5.index t (0 : Fin 2) * 1 + 1 * p.val = p.val; omega
  | ⟨1, _⟩ => show win1_5.index t (1 : Fin 2) * 1024 + 1 * q.val = q.val; omega

/-- The bias ba as a one-row matrix at the second region's entry: the argument, entry by entry. -/
theorem hostB_V3_main_v0 (c : Dev nD) (j : Fin 1024) : (V3 m ρ c main_v0 : S1x1024.Idx → EReal) (ix2 0 j) = (argsK m c).ba (ix1 j) := by
  show W3 m ρ c (Proc.devRef .tc main_v0) (ix2 0 j) = _
  rw [hostB_W3_of_host0 m ρ c main_v0 (by decide) (by decide)]
  show StableHlo.after hostOps0 (W0 m ρ c) (Proc.devRef .tc main_v0) (ix2 0 j) = _
  after_results
  exact shapeCast_a_1a_apply _ _ 0 j

/-- Window 5 of the cell kernel (ba, as a one-row matrix) at any grid point. -/
theorem blk1_w5 (c : Dev nD) (t : Fin cfg1.N) (j : Fin 1024) :
    (iblk1 (V3 m ρ) c 5 t : Vec Ideal S1x1024 .f32) (ix2 0 j) = (argsK m c).ba (ix1 j) := by
  unfold iblk1
  show (V3 m ρ c main_v0 : S1x1024.Idx → EReal) (((cfg1.win 5).blk t).view.emb (ix2 0 j)) = _
  rw [hostB_emb1_5, hostB_V3_main_v0]

theorem hostB_idx1_6 : ∀ t : Fin cfg1.N, win1_6.index t (0 : Fin 2) = 0 ∧ win1_6.index t (1 : Fin 2) = 0 :=
  (by decide +kernel : ∀ t : Fin grid1.N, win1_6.index t (0 : Fin 2) = 0 ∧ win1_6.index t (1 : Fin 2) = 0)

/-- Window 6's one block is its whole array: an index of the block is the same index of the array. -/
theorem hostB_emb1_6 (t : Fin cfg1.N) (p : Fin 2048) (q : Fin 2048) : ((cfg1.win 6).blk t).view.emb (ix2 p q) = ix2 p q := by
  obtain ⟨e0, e1⟩ := hostB_idx1_6 t
  refine funext fun a => Fin.ext ?_
  match a with
  | ⟨0, _⟩ => show win1_6.index t (0 : Fin 2) * 2048 + 1 * p.val = p.val; omega
  | ⟨1, _⟩ => show win1_6.index t (1 : Fin 2) * 2048 + 1 * q.val = q.val; omega

/-- The fused reset/update weight at the second region's entry: the reset gate's rows first, the update gate's after
    row 1024. -/
theorem hostB_V3_main_v14 (c : Dev nD) (n k : Fin 2048) : (V3 m ρ c main_v14 : S2048x2048.Idx → EReal) (ix2 n k)
    = if h : n.val < 1024 then (argsK m c).Wr (ix2 ⟨n.val, h⟩ k) else (argsK m c).Wu (ix2 ⟨n.val - 1024, by omega⟩ k) := by
  show StableHlo.after hostOps1 (W2 m ρ c) (Proc.devRef .tc main_v14) (ix2 n k) = _
  after_results
  rw [truncf_apply, hostB_W2_of_arg m ρ c main_arg5 (by decide) (by decide), hostB_W2_of_arg m ρ c main_arg7 (by decide) (by decide)]
  exact hostB_cat_rows_apply _ _ _ n k

/-- Window 6 of the cell kernel (the fused reset/update weight, converted) at any grid point. -/
theorem blk1_w6 (c : Dev nD) (t : Fin cfg1.N) (n k : Fin 2048) :
    (iblk1 (V3 m ρ) c 6 t : Vec Ideal S2048x2048 .bf16) (ix2 n k)
      = if h : n.val < 1024 then (argsK m c).Wr (ix2 ⟨n.val, h⟩ k) else (argsK m c).Wu (ix2 ⟨n.val - 1024, by omega⟩ k) := by
  unfold iblk1
  show (V3 m ρ c main_v14 : S2048x2048.Idx → EReal) (((cfg1.win 6).blk t).view.emb (ix2 n k)) = _
  rw [hostB_emb1_6, hostB_V3_main_v14]

theorem hostB_idx1_7 : ∀ t : Fin cfg1.N, win1_7.index t (0 : Fin 2) = 0 ∧ win1_7.index t (1 : Fin 2) = 0 :=
  (by decide +kernel : ∀ t : Fin grid1.N, win1_7.index t (0 : Fin 2) = 0 ∧ win1_7.index t (1 : Fin 2) = 0)

/-- Window 7's one block is its whole array: an index of the block is the same index of the array. -/
theorem hostB_emb1_7 (t : Fin cfg1.N) (p : Fin 1) (q : Fin 2048) : ((cfg1.win 7).blk t).view.emb (ix2 p q) = ix2 p q := by
  obtain ⟨e0, e1⟩ := hostB_idx1_7 t
  refine funext fun a => Fin.ext ?_
  match a with
  | ⟨0, _⟩ => show win1_7.index t (0 : Fin 2) * 1 + 1 * p.val = p.val; omega
  | ⟨1, _⟩ => show win1_7.index t (1 : Fin 2) * 2048 + 1 * q.val = q.val; omega

/-- The fused reset/update bias as a one-row matrix at the second region's entry: the reset gate's entries first, the
    update gate's after entry 1024. -/
theorem hostB_V3_main_v7 (c : Dev nD) (n : Fin 2048) : (V3 m ρ c main_v7 : S1x2048.Idx → EReal) (ix2 0 n)
    = if h : n.val < 1024 then (argsK m c).br (ix1 ⟨n.val, h⟩) else (argsK m c).bu (ix1 ⟨n.val - 1024, by omega⟩) := by
  show W3 m ρ c (Proc.devRef .tc main_v7) (ix2 0 n) = _
  rw [hostB_W3_of_host0 m ρ c main_v7 (by decide) (by decide)]
  show StableHlo.after hostOps0 (W0 m ρ c) (Proc.devRef .tc main_v7) (ix2 0 n) = _
  after_results
  refine (shapeCast_a_1a_apply _ _ 0 n).trans ?_
  exact hostB_cat_vec_apply _ _ _ n

/-- Window 7 of the cell kernel (the fused reset/update bias, as a one-row matrix) at any grid point. -/
theorem blk1_w7 (c : Dev nD) (t : Fin cfg1.N) (n : Fin 2048) :
    (iblk1 (V3 m ρ) c 7 t : Vec Ideal S1x2048 .f32) (ix2 0 n)
      = if h : n.val < 1024 then (argsK m c).br (ix1 ⟨n.val, h⟩) else (argsK m c).bu (ix1 ⟨n.val - 1024, by omega⟩) := by
  unfold iblk1
  show (V3 m ρ c main_v7 : S1x2048.Idx → EReal) (((cfg1.win 7).blk t).view.emb (ix2 0 n)) = _
  rw [hostB_emb1_7, hostB_V3_main_v7]

theorem hostB_idx1_8 : ∀ t : Fin cfg1.N, win1_8.index t (0 : Fin 2) = 0 ∧ win1_8.index t (1 : Fin 2) = 0 :=
  (by decide +kernel : ∀ t : Fin grid1.N, win1_8.index t (0 : Fin 2) = 0 ∧ win1_8.index t (1 : Fin 2) = 0)

/-- Window 8's one block is its whole array: an index of the block is the same index of the array. -/
theorem hostB_emb1_8 (t : Fin cfg1.N) (p : Fin 1024) (q : Fin 2048) : ((cfg1.win 8).blk t).view.emb (ix2 p q) = ix2 p q := by
  obtain ⟨e0, e1⟩ := hostB_idx1_8 t
  refine funext fun a => Fin.ext ?_
  match a with
  | ⟨0, _⟩ => show win1_8.index t (0 : Fin 2) * 1024 + 1 * p.val = p.val; omega
  | ⟨1, _⟩ => show win1_8.index t (1 : Fin 2) * 2048 + 1 * q.val = q.val; omega

/-- The converted Wn at the second region's entry: the argument, entry by entry (a change of format is the
    identity on extended reals). -/
theorem hostB_V3_main_v15 (c : Dev nD) (i : S1024x2048.Idx) : (V3 m ρ c main_v15 : S1024x2048.Idx → EReal) i = (argsK m c).Wn i := by
  show StableHlo.after hostOps1 (W2 m ρ c) (Proc.devRef .tc main_v15) i = _
  after_results
  rw [truncf_apply, hostB_W2_of_arg m ρ c main_arg9 (by decide) (by decide)]
  rfl

/-- Window 8 of the cell kernel (Wn, converted) at any grid point. -/
theorem blk1_w8 (c : Dev nD) (t : Fin cfg1.N) (j : Fin 1024) (k : Fin 2048) :
    (iblk1 (V3 m ρ) c 8 t : Vec Ideal S1024x2048 .bf16) (ix2 j k) = (argsK m c).Wn (ix2 j k) := by
  unfold iblk1
  show (V3 m ρ c main_v15 : S1024x2048.Idx → EReal) (((cfg1.win 8).blk t).view.emb (ix2 j k)) = _
  rw [hostB_emb1_8, hostB_V3_main_v15]

theorem hostB_idx1_9 : ∀ t : Fin cfg1.N, win1_9.index t (0 : Fin 2) = 0 ∧ win1_9.index t (1 : Fin 2) = 0 :=
  (by decide +kernel : ∀ t : Fin grid1.N, win1_9.index t (0 : Fin 2) = 0 ∧ win1_9.index t (1 : Fin 2) = 0)

/-- Window 9's one block is its whole array: an index of the block is the same index of the array. -/
theorem hostB_emb1_9 (t : Fin cfg1.N) (p : Fin 1) (q : Fin 1024) : ((cfg1.win 9).blk t).view.emb (ix2 p q) = ix2 p q := by
  obtain ⟨e0, e1⟩ := hostB_idx1_9 t
  refine funext fun a => Fin.ext ?_
  match a with
  | ⟨0, _⟩ => show win1_9.index t (0 : Fin 2) * 1 + 1 * p.val = p.val; omega
  | ⟨1, _⟩ => show win1_9.index t (1 : Fin 2) * 1024 + 1 * q.val = q.val; omega

/-- The bias bn as a one-row matrix at the second region's entry: the argument, entry by entry. -/
theorem hostB_V3_main_v1 (c : Dev nD) (j : Fin 1024) : (V3 m ρ c main_v1 : S1x1024.Idx → EReal) (ix2 0 j) = (argsK m c).bn (ix1 j) := by
  show W3 m ρ c (Proc.devRef .tc main_v1) (ix2 0 j) = _
  rw [hostB_W3_of_host0 m ρ c main_v1 (by decide) (by decide)]
  show StableHlo.after hostOps0 (W0 m ρ c) (Proc.devRef .tc main_v1) (ix2 0 j) = _
  after_results
  exact shapeCast_a_1a_apply _ _ 0 j

/-- Window 9 of the cell kernel (bn, as a one-row matrix) at any grid point. -/
theorem blk1_w9 (c : Dev nD) (t : Fin cfg1.N) (j : Fin 1024) :
    (iblk1 (V3 m ρ) c 9 t : Vec Ideal S1x1024 .f32) (ix2 0 j) = (argsK m c).bn (ix1 j) := by
  unfold iblk1
  show (V3 m ρ c main_v1 : S1x1024.Idx → EReal) (((cfg1.win 9).blk t).view.emb (ix2 0 j)) = _
  rw [hostB_emb1_9, hostB_V3_main_v1]

theorem hostB_idx1_10 : ∀ t : Fin cfg1.N, win1_10.index t (0 : Fin 2) = 0 ∧ win1_10.index t (1 : Fin 2) = 0 :=
  (by decide +kernel : ∀ t : Fin grid1.N, win1_10.index t (0 : Fin 2) = 0 ∧ win1_10.index t (1 : Fin 2) = 0)

/-- Window 10's one block is its whole array: an index of the block is the same index of the array. -/
theorem hostB_emb1_10 (t : Fin cfg1.N) (p : Fin 2048) (q : Fin 1024) : ((cfg1.win 10).blk t).view.emb (ix2 p q) = ix2 p q := by
  obtain ⟨e0, e1⟩ := hostB_idx1_10 t
  refine funext fun a => Fin.ext ?_
  match a with
  | ⟨0, _⟩ => show win1_10.index t (0 : Fin 2) * 2048 + 1 * p.val = p.val; omega
  | ⟨1, _⟩ => show win1_10.index t (1 : Fin 2) * 1024 + 1 * q.val = q.val; omega

/-- The converted Wread at the second region's entry: the argument, entry by entry (a change of format is the
    identity on extended reals). -/
theorem hostB_V3_main_v16 (c : Dev nD) (i : S2048x1024.Idx) : (V3 m ρ c main_v16 : S2048x1024.Idx → EReal) i = (argsK m c).Wread i := by
  show StableHlo.after hostOps1 (W2 m ρ c) (Proc.devRef .tc main_v16) i = _
  after_results
  rw [truncf_apply, hostB_W2_of_arg m ρ c main_arg11 (by decide) (by decide)]
  rfl

/-- Window 10 of the cell kernel (Wread, converted) at any grid point. -/
theorem blk1_w10 (c : Dev nD) (t : Fin cfg1.N) (j : Fin 2048) (k : Fin 1024) :
    (iblk1 (V3 m ρ) c 10 t : Vec Ideal S2048x1024 .bf16) (ix2 j k) = (argsK m c).Wread (ix2 j k) := by
  unfold iblk1
  show (V3 m ρ c main_v16 : S2048x1024.Idx → EReal) (((cfg1.win 10).blk t).view.emb (ix2 j k)) = _
  rw [hostB_emb1_10, hostB_V3_main_v16]

theorem hostB_idx1_11 : ∀ t : Fin cfg1.N, win1_11.index t (0 : Fin 2) = 0 ∧ win1_11.index t (1 : Fin 2) = 0 :=
  (by decide +kernel : ∀ t : Fin grid1.N, win1_11.index t (0 : Fin 2) = 0 ∧ win1_11.index t (1 : Fin 2) = 0)

/-- Window 11's one block is its whole array: an index of the block is the same index of the array. -/
theorem hostB_emb1_11 (t : Fin cfg1.N) (p : Fin 1) (q : Fin 2048) : ((cfg1.win 11).blk t).view.emb (ix2 p q) = ix2 p q := by
  obtain ⟨e0, e1⟩ := hostB_idx1_11 t
  refine funext fun a => Fin.ext ?_
  match a with
  | ⟨0, _⟩ => show win1_11.index t (0 : Fin 2) * 1 + 1 * p.val = p.val; omega
  | ⟨1, _⟩ => show win1_11.index t (1 : Fin 2) * 2048 + 1 * q.val = q.val; omega

/-- The bias bread as a one-row matrix at the second region's entry: the argument, entry by entry. -/
theorem hostB_V3_main_v2 (c : Dev nD) (j : Fin 2048) : (V3 m ρ c main_v2 : S1x2048.Idx → EReal) (ix2 0 j) = (argsK m c).bread (ix1 j) := by
  show W3 m ρ c (Proc.devRef .tc main_v2) (ix2 0 j) = _
  rw [hostB_W3_of_host0 m ρ c main_v2 (by decide) (by decide)]
  show StableHlo.after hostOps0 (W0 m ρ c) (Proc.devRef .tc main_v2) (ix2 0 j) = _
  after_results
  exact shapeCast_a_1a_apply _ _ 0 j

/-- Window 11 of the cell kernel (bread, as a one-row matrix) at any grid point. -/
theorem blk1_w11 (c : Dev nD) (t : Fin cfg1.N) (j : Fin 2048) :
    (iblk1 (V3 m ρ) c 11 t : Vec Ideal S1x2048 .f32) (ix2 0 j) = (argsK m c).bread (ix1 j) := by
  unfold iblk1
  show (V3 m ρ c main_v2 : S1x2048.Idx → EReal) (((cfg1.win 11).blk t).view.emb (ix2 0 j)) = _
  rw [hostB_emb1_11, hostB_V3_main_v2]

theorem hostB_idx1_12 : ∀ t : Fin cfg1.N, win1_12.index t (0 : Fin 2) = 0 ∧ win1_12.index t (1 : Fin 2) = 0 :=
  (by decide +kernel : ∀ t : Fin grid1.N, win1_12.index t (0 : Fin 2) = 0 ∧ win1_12.index t (1 : Fin 2) = 0)

/-- Window 12's one block is its whole array: an index of the block is the same index of the array. -/
theorem hostB_emb1_12 (t : Fin cfg1.N) (p : Fin 2048) (q : Fin 1024) : ((cfg1.win 12).blk t).view.emb (ix2 p q) = ix2 p q := by
  obtain ⟨e0, e1⟩ := hostB_idx1_12 t
  refine funext fun a => Fin.ext ?_
  match a with
  | ⟨0, _⟩ => show win1_12.index t (0 : Fin 2) * 2048 + 1 * p.val = p.val; omega
  | ⟨1, _⟩ => show win1_12.index t (1 : Fin 2) * 1024 + 1 * q.val = q.val; omega

/-- The converted Wwrite at the second region's entry: the argument, entry by entry (a change of format is the
    identity on extended reals). -/
theorem hostB_V3_main_v17 (c : Dev nD) (i : S2048x1024.Idx) : (V3 m ρ c main_v17 : S2048x1024.Idx → EReal) i = (argsK m c).Wwrite i := by
  show StableHlo.after hostOps1 (W2 m ρ c) (Proc.devRef .tc main_v17) i = _
  after_results
  rw [truncf_apply, hostB_W2_of_arg m ρ c main_arg13 (by decide) (by decide)]
  rfl

/-- Window 12 of the cell kernel (Wwrite, converted) at any grid point. -/
theorem blk1_w12 (c : Dev nD) (t : Fin cfg1.N) (j : Fin 2048) (k : Fin 1024) :
    (iblk1 (V3 m ρ) c 12 t : Vec Ideal S2048x1024 .bf16) (ix2 j k) = (argsK m c).Wwrite (ix2 j k) := by
  unfold iblk1
  show (V3 m ρ c main_v17 : S2048x1024.Idx → EReal) (((cfg1.win 12).blk t).view.emb (ix2 j k)) = _
  rw [hostB_emb1_12, hostB_V3_main_v17]

theorem hostB_idx1_13 : ∀ t : Fin cfg1.N, win1_13.index t (0 : Fin 2) = 0 ∧ win1_13.index t (1 : Fin 2) = 0 :=
  (by decide +kernel : ∀ t : Fin grid1.N, win1_13.index t (0 : Fin 2) = 0 ∧ win1_13.index t (1 : Fin 2) = 0)

/-- Window 13's one block is its whole array: an index of the block is the same index of the array. -/
theorem hostB_emb1_13 (t : Fin cfg1.N) (p : Fin 1) (q : Fin 2048) : ((cfg1.win 13).blk t).view.emb (ix2 p q) = ix2 p q := by
  obtain ⟨e0, e1⟩ := hostB_idx1_13 t
  refine funext fun a => Fin.ext ?_
  match a with
  | ⟨0, _⟩ => show win1_13.index t (0 : Fin 2) * 1 + 1 * p.val = p.val; omega
  | ⟨1, _⟩ => show win1_13.index t (1 : Fin 2) * 2048 + 1 * q.val = q.val; omega

/-- The bias bwrite as a one-row matrix at the second region's entry: the argument, entry by entry. -/
theorem hostB_V3_main_v3 (c : Dev nD) (j : Fin 2048) : (V3 m ρ c main_v3 : S1x2048.Idx → EReal) (ix2 0 j) = (argsK m c).bwrite (ix1 j) := by
  show W3 m ρ c (Proc.devRef .tc main_v3) (ix2 0 j) = _
  rw [hostB_W3_of_host0 m ρ c main_v3 (by decide) (by decide)]
  show StableHlo.after hostOps0 (W0 m ρ c) (Proc.devRef .tc main_v3) (ix2 0 j) = _
  after_results
  exact shapeCast_a_1a_apply _ _ 0 j

/-- Window 13 of the cell kernel (bwrite, as a one-row matrix) at any grid point. -/
theorem blk1_w13 (c : Dev nD) (t : Fin cfg1.N) (j : Fin 2048) :
    (iblk1 (V3 m ρ) c 13 t : Vec Ideal S1x2048 .f32) (ix2 0 j) = (argsK m c).bwrite (ix1 j) := by
  unfold iblk1
  show (V3 m ρ c main_v3 : S1x2048.Idx → EReal) (((cfg1.win 13).blk t).view.emb (ix2 0 j)) = _
  rw [hostB_emb1_13, hostB_V3_main_v3]

theorem hostB_idx1_14 : ∀ t : Fin cfg1.N, win1_14.index t (0 : Fin 2) = 0 ∧ win1_14.index t (1 : Fin 2) = 0 :=
  (by decide +kernel : ∀ t : Fin grid1.N, win1_14.index t (0 : Fin 2) = 0 ∧ win1_14.index t (1 : Fin 2) = 0)

/-- Window 14's one block is its whole array: an index of the block is the same index of the array. -/
theorem hostB_emb1_14 (t : Fin cfg1.N) (p : Fin 2048) (q : Fin 1024) : ((cfg1.win 14).blk t).view.emb (ix2 p q) = ix2 p q := by
  obtain ⟨e0, e1⟩ := hostB_idx1_14 t
  refine funext fun a => Fin.ext ?_
  match a with
  | ⟨0, _⟩ => show win1_14.index t (0 : Fin 2) * 2048 + 1 * p.val = p.val; omega
  | ⟨1, _⟩ => show win1_14.index t (1 : Fin 2) * 1024 + 1 * q.val = q.val; omega

/-- The converted Wforget at the second region's entry: the argument, entry by entry (a change of format is the
    identity on extended reals). -/
theorem hostB_V3_main_v18 (c : Dev nD) (i : S2048x1024.Idx) : (V3 m ρ c main_v18 : S2048x1024.Idx → EReal) i = (argsK m c).Wforget i := by
  show StableHlo.after hostOps1 (W2 m ρ c) (Proc.devRef .tc main_v18) i = _
  after_results
  rw [truncf_apply, hostB_W2_of_arg m ρ c main_arg15 (by decide) (by decide)]
  rfl

/-- Window 14 of the cell kernel (Wforget, converted) at any grid point. -/
theorem blk1_w14 (c : Dev nD) (t : Fin cfg1.N) (j : Fin 2048) (k : Fin 1024) :
    (iblk1 (V3 m ρ) c 14 t : Vec Ideal S2048x1024 .bf16) (ix2 j k) = (argsK m c).Wforget (ix2 j k) := by
  unfold iblk1
  show (V3 m ρ c main_v18 : S2048x1024.Idx → EReal) (((cfg1.win 14).blk t).view.emb (ix2 j k)) = _
  rw [hostB_emb1_14, hostB_V3_main_v18]

theorem hostB_idx1_15 : ∀ t : Fin cfg1.N, win1_15.index t (0 : Fin 2) = 0 ∧ win1_15.index t (1 : Fin 2) = 0 :=
  (by decide +kernel : ∀ t : Fin grid1.N, win1_15.index t (0 : Fin 2) = 0 ∧ win1_15.index t (1 : Fin 2) = 0)

/-- Window 15's one block is its whole array: an index of the block is the same index of the array. -/
theorem hostB_emb1_15 (t : Fin cfg1.N) (p : Fin 1) (q : Fin 2048) : ((cfg1.win 15).blk t).view.emb (ix2 p q) = ix2 p q := by
  obtain ⟨e0, e1⟩ := hostB_idx1_15 t
  refine funext fun a => Fin.ext ?_
  match a with
  | ⟨0, _⟩ => show win1_15.index t (0 : Fin 2) * 1 + 1 * p.val = p.val; omega
  | ⟨1, _⟩ => show win1_15.index t (1 : Fin 2) * 2048 + 1 * q.val = q.val; omega

/-- The bias bforget as a one-row matrix at the second region's entry: the argument, entry by entry. -/
theorem hostB_V3_main_v4 (c : Dev nD) (j : Fin 2048) : (V3 m ρ c main_v4 : S1x2048.Idx → EReal) (ix2 0 j) = (argsK m c).bforget (ix1 j) := by
  show W3 m ρ c (Proc.devRef .tc main_v4) (ix2 0 j) = _
  rw [hostB_W3_of_host0 m ρ c main_v4 (by decide) (by decide)]
  show StableHlo.after hostOps0 (W0 m ρ c) (Proc.devRef .tc main_v4) (ix2 0 j) = _
  after_results
  exact shapeCast_a_1a_apply _ _ 0 j

/-- Window 15 of the cell kernel (bforget, as a one-row matrix) at any grid point. -/
theorem blk1_w15 (c : Dev nD) (t : Fin cfg1.N) (j : Fin 2048) :
    (iblk1 (V3 m ρ) c 15 t : Vec Ideal S1x2048 .f32) (ix2 0 j) = (argsK m c).bforget (ix1 j) := by
  unfold iblk1
  show (V3 m ρ c main_v4 : S1x2048.Idx → EReal) (((cfg1.win 15).blk t).view.emb (ix2 0 j)) = _
  rw [hostB_emb1_15, hostB_V3_main_v4]

theorem hostB_idx1_16 : ∀ t : Fin cfg1.N, win1_16.index t (0 : Fin 2) = 0 ∧ win1_16.index t (1 : Fin 2) = 0 :=
  (by decide +kernel : ∀ t : Fin grid1.N, win1_16.index t (0 : Fin 2) = 0 ∧ win1_16.index t (1 : Fin 2) = 0)

/-- Window 16's one block is its whole array: an index of the block is the same index of the array. -/
theorem hostB_emb1_16 (t : Fin cfg1.N) (p : Fin 2048) (q : Fin 1024) : ((cfg1.win 16).blk t).view.emb (ix2 p q) = ix2 p q := by
  obtain ⟨e0, e1⟩ := hostB_idx1_16 t
  refine funext fun a => Fin.ext ?_
  match a with
  | ⟨0, _⟩ => show win1_16.index t (0 : Fin 2) * 2048 + 1 * p.val = p.val; omega
  | ⟨1, _⟩ => show win1_16.index t (1 : Fin 2) * 1024 + 1 * q.val = q.val; omega

/-- The converted Waddr at the second region's entry: the argument, entry by entry (a change of format is the
    identity on extended reals). -/
theorem hostB_V3_main_v19 (c : Dev nD) (i : S2048x1024.Idx) : (V3 m ρ c main_v19 : S2048x1024.Idx → EReal) i = (argsK m c).Waddr i := by
  show StableHlo.after hostOps1 (W2 m ρ c) (Proc.devRef .tc main_v19) i = _
  after_results
  rw [truncf_apply, hostB_W2_of_arg m ρ c main_arg17 (by decide) (by decide)]
  rfl

/-- Window 16 of the cell kernel (Waddr, converted) at any grid point. -/
theorem blk1_w16 (c : Dev nD) (t : Fin cfg1.N) (j : Fin 2048) (k : Fin 1024) :
    (iblk1 (V3 m ρ) c 16 t : Vec Ideal S2048x1024 .bf16) (ix2 j k) = (argsK m c).Waddr (ix2 j k) := by
  unfold iblk1
  show (V3 m ρ c main_v19 : S2048x1024.Idx → EReal) (((cfg1.win 16).blk t).view.emb (ix2 j k)) = _
  rw [hostB_emb1_16, hostB_V3_main_v19]

theorem hostB_idx1_17 : ∀ t : Fin cfg1.N, win1_17.index t (0 : Fin 2) = 0 ∧ win1_17.index t (1 : Fin 2) = 0 :=
  (by decide +kernel : ∀ t : Fin grid1.N, win1_17.index t (0 : Fin 2) = 0 ∧ win1_17.index t (1 : Fin 2) = 0)

/-- Window 17's one block is its whole array: an index of the block is the same index of the array. -/
theorem hostB_emb1_17 (t : Fin cfg1.N) (p : Fin 1) (q : Fin 2048) : ((cfg1.win 17).blk t).view.emb (ix2 p q) = ix2 p q := by
  obtain ⟨e0, e1⟩ := hostB_idx1_17 t
  refine funext fun a => Fin.ext ?_
  match a with
  | ⟨0, _⟩ => show win1_17.index t (0 : Fin 2) * 1 + 1 * p.val = p.val; omega
  | ⟨1, _⟩ => show win1_17.index t (1 : Fin 2) * 2048 + 1 * q.val = q.val; omega

/-- The bias baddr as a one-row matrix at the second region's entry: the argument, entry by entry. -/
theorem hostB_V3_main_v5 (c : Dev nD) (j : Fin 2048) : (V3 m ρ c main_v5 : S1x2048.Idx → EReal) (ix2 0 j) = (argsK m c).baddr (ix1 j) := by
  show W3 m ρ c (Proc.devRef .tc main_v5) (ix2 0 j) = _
  rw [hostB_W3_of_host0 m ρ c main_v5 (by decide) (by decide)]
  show StableHlo.after hostOps0 (W0 m ρ c) (Proc.devRef .tc main_v5) (ix2 0 j) = _
  after_results
  exact shapeCast_a_1a_apply _ _ 0 j

/-- Window 17 of the cell kernel (baddr, as a one-row matrix) at any grid point. -/
theorem blk1_w17 (c : Dev nD) (t : Fin cfg1.N) (j : Fin 2048) :
    (iblk1 (V3 m ρ) c 17 t : Vec Ideal S1x2048 .f32) (ix2 0 j) = (argsK m c).baddr (ix1 j) := by
  unfold iblk1
  show (V3 m ρ c main_v5 : S1x2048.Idx → EReal) (((cfg1.win 17).blk t).view.emb (ix2 0 j)) = _
  rw [hostB_emb1_17, hostB_V3_main_v5]

end Cert.KernelIdeal.Hand

end
-- ==== Proof.KLayout.lean ====
/-
  Small readings at an index that the value lemmas of the two kernels share: the column forms of a shape cast and of a
  broadcast (a row reduction keeps its axis as a unit axis, and the result is then spread along the row), a sum over
  8192 rows as four sums over 2048 rows, and the two float words 2⁻¹³ and 8192 evaluated so that a product with the first
  is a quotient by the second.
-/
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KSpec

open Idealize.ShloMosaic Idealize.ShloMosaic.ValueIdx

variable {α : Type}

/-! ## Column forms of a shape cast and of a broadcast -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A sum over 8192 rows, block by block -/

/-- A sum over 8192 rows is the sum over four blocks of the sums over each block's 2048 rows. -/
theorem sum_fin_8192 {M : Type*} [AddCommMonoid M] (f : Fin 8192 → M) :
    ∑ r : Fin 8192, f r = ∑ t : Fin 4, ∑ r : Fin 2048, f ⟨t.val * 2048 + r.val, by omega⟩ := by
  refine ((Equiv.sum_comp (finProdFinEquiv (m := 4) (n := 2048)) f).symm.trans ?_)
  rw [Fintype.sum_prod_type]
  refine Finset.sum_congr rfl fun t _ => Finset.sum_congr rfl fun r _ => congrArg f (Fin.ext ?_)
  show r.val + 2048 * t.val = t.val * 2048 + r.val
  omega

/-! ## The two float words of the batch mean -/

/-- The word `0x39000000` denotes 2⁻¹³ = 1 / 8192. -/
theorem ofBits_inv8192 : Ideal.ofBits .f32 0x39000000#32 = (((1 : ℝ) / 8192 : ℝ) : EReal) := by
  simp [Ideal.ofBits, Ideal.ieee, -EReal.coe_mul]; norm_num

/-- The word `0x46000000` denotes 8192. -/
theorem ofBits_8192 : Ideal.ofBits .f32 0x46000000#32 = ((8192 : ℝ) : EReal) := by
  simp [Ideal.ofBits, Ideal.ieee, -EReal.coe_mul]; norm_num

/-- A product with 2⁻¹³ is the quotient by 8192, on every extended real. -/
theorem mul_inv8192 (x : EReal) :
    x * Ideal.ofBits .f32 0x39000000#32 = Ideal.div x (Ideal.ofBits .f32 0x46000000#32) := by
  rw [ofBits_inv8192, ofBits_8192, Ideal.div_coe (by norm_num : (8192 : ℝ) ≠ 0)]

end Cert.KSpec

end
-- ==== Proof.K0.lean ====
/-
  The connection-strength kernel's arithmetic is the specification's: the accumulator starts at zero and gains, block by
  block, each block's column sums of absolute values, so after the four blocks it holds the column sums over all 8192
  rows; the stored strength is the strength times the logistic of the decayed history plus that sum times 2⁻¹³, which is
  the sum divided by 8192.
-/
import proofs.«132931_j11587821765036_2_alg».proof.Proof.KPayIdeal
import proofs.«132931_j11587821765036_2_alg».proof.Proof.Spec
import proofs.«132931_j11587821765036_2_alg».proof.Proof.KLayout

noncomputable section

open scoped BigOperators

namespace Cert.KSpec

open Idealize.ShloMosaic Idealize.ShloMosaic.ValueIdx Cert.KernelIdeal Cert.KernelIdeal.Gen Cert.KernelIdeal.KPay

/-- The column sum of absolute values of a block of 2048 rows, at column `q`. -/
def colAbs (v : Vec Ideal S2048x1024 .f32) (q : Fin 1024) : EReal :=
  ∑ r : Fin 2048, max (v (ix2 r q)) (-(v (ix2 r q)))

/-- The initial accumulator is zero everywhere. -/
theorem k0_pay1_apply (i : S1x1024.Idx) : k0_pay1 (F := Ideal) i = 0 := by
  unfold k0_pay1
  rw [shapeCast_self]
  exact Ideal.ofBits_zero_f32

/-- A column of the row-reduced block: the row index inserted above the column index. -/
theorem lift_rows (h : S2048x1024.Reduces [0] S1024) (q : Fin 1024) (k : Fin 2048) :
    h.lift (ix1 q) k = ix2 k q := by
  funext a
  match a with
  | ⟨0, _⟩ => exact Fin.ext rfl
  | ⟨1, _⟩ => exact Fin.ext rfl

/-- One accumulation step: the accumulator plus the block's column sums of absolute values. -/
theorem k0_pay2_apply (v3 : Vec Ideal S1x1024 .f32) (v4 : Vec Ideal S2048x1024 .f32) (q : Fin 1024) :
    k0_pay2 v3 v4 (ix2 0 q) = v3 (ix2 0 q) + colAbs v4 q := by
  unfold k0_pay2
  dsimp only
  rw [shapeCast_self]
  refine congrArg (v3 (ix2 0 q) + ·) ?_
  refine (shapeCast_a_1a_apply _ _ 0 q).trans ?_
  refine (Ideal.multiReduction_add_single (absf v4) 0x00000000#32 reduces_S2048x1024_S1024 (.inl rfl) rfl (ix1 q)).trans ?_
  refine Finset.sum_congr rfl fun k _ => ?_
  exact congrArg (fun i => max (v4 i) (-(v4 i))) (lift_rows reduces_S2048x1024_S1024 q k)

/-- The accumulator after block `t`: zero plus the blocks' column sums, added in turn. -/
theorem acc_zero_apply (b : ℕ → Vec Ideal S2048x1024 .f32) (q : Fin 1024) :
    acc b 0 (ix2 0 q) = colAbs (b 0) q := by
  rw [acc, k0_pay2_apply, k0_pay1_apply, zero_add]

theorem acc_succ_apply (b : ℕ → Vec Ideal S2048x1024 .f32) (t : ℕ) (q : Fin 1024) :
    acc b (t + 1) (ix2 0 q) = acc b t (ix2 0 q) + colAbs (b (t + 1)) q := by
  rw [acc, k0_pay2_apply]

/-- The stored strength at column `q`, from the accumulator and the three small operands. -/
theorem k0_pay3_apply (v15 v18 : Vec Ideal S1x1024 .f32) (v20 : Vec Ideal S1x1 .f32) (v25 : Vec Ideal S1x1024 .f32) (q : Fin 1024) :
    k0_pay3 v15 v18 v20 v25 (ix2 0 q)
      = v25 (ix2 0 q) * Ideal.logistic (v18 (ix2 0 q) * v20 (ix2 0 0)
          + v15 (ix2 0 q) * Ideal.ofBits .f32 0x39000000#32) := by
  unfold k0_pay3
  rw [shapeCast_self, shapeCast_self, shapeCast_self]
  show v25 (ix2 0 q) * Ideal.logistic (v18 (ix2 0 q) * broadcastTo S1x1024 v20 broadcasts_S1x1_S1x1024 (ix2 0 q)
      + v15 (ix2 0 q) * Ideal.ofBits .f32 0x39000000#32) = _
  rw [broadcastTo_a1_ab_apply]

/-- THE CONNECTION STRENGTH: what the first kernel stores is the specification's `cs`. -/
theorem cs0_apply (A : Cert.Spec.Args) (b : ℕ → Vec Ideal S2048x1024 .f32) (hist strength : Vec Ideal S1x1024 .f32)
    (decay : Vec Ideal S1x1 .f32)
    (hb : ∀ t (ht : t < 4) (r : Fin 2048) (q : Fin 1024), b t (ix2 r q) = A.h (ix2 ⟨t * 2048 + r.val, by omega⟩ q))
    (hh : ∀ q : Fin 1024, hist (ix2 0 q) = A.hist (ix1 q))
    (hs : ∀ q : Fin 1024, strength (ix2 0 q) = A.strength (ix1 q))
    (hd : decay (ix2 0 0) = A.decay (ix1 0)) (q : Fin 1024) :
    cs0 b hist decay strength (ix2 0 q) = Cert.Spec.cs A q := by
  have hcol : ∀ t (ht : t < 4), colAbs (b t) q
      = ∑ r : Fin 2048, max (A.h (ix2 ⟨t * 2048 + r.val, by omega⟩ q)) (-(A.h (ix2 ⟨t * 2048 + r.val, by omega⟩ q))) :=
    fun t ht => Finset.sum_congr rfl fun r _ => by rw [hb t ht r q]
  have hacc : acc b 3 (ix2 0 q) = ∑ r : Fin 8192, max (A.h (ix2 r q)) (-(A.h (ix2 r q))) := by
    rw [acc_succ_apply, acc_succ_apply, acc_succ_apply, acc_zero_apply,
      hcol 0 (by omega), hcol 1 (by omega), hcol 2 (by omega), hcol 3 (by omega),
      sum_fin_8192 (fun r : Fin 8192 => max (A.h (ix2 r q)) (-(A.h (ix2 r q)))), Fin.sum_univ_four]
    rfl
  unfold cs0 Cert.Spec.cs
  rw [k0_pay3_apply, hacc, hh, hs, hd, mul_inv8192]

end Cert.KSpec

end
-- ==== Proof.K1Ops.lean ====
/-
  Operations of the cell kernel read at an index, over variables of literal rank-2 shapes: a matrix product whose two
  operands are both indexed [row, k] (the weight is used transposed) into the zero accumulator is the sum over k of the
  products; two blocks of 1024 columns laid side by side read the first block left of column 1024 and the second from
  there on; a row reduction by addition is the sum over the row, and by maximum from -∞ it is the row's supremum.
-/
import Idealize.ShloMosaic.PureOps.Ideal.Laws
import Idealize.ShloMosaic.Lib.ValueIdx
import Idealize.ShloMosaic.Lib.Pipeline.Value
import Idealize.ShloMosaic.Lib.ValueLayout
import proofs.«132931_j11587821765036_2_alg».proof.Proof.KLayout

noncomputable section

open scoped BigOperators

namespace Cert.KSpec

open Idealize.ShloMosaic Idealize.ShloMosaic.ValueIdx

/-! ## A matrix product against a transposed weight -/

/-- An `m × K` block times the transpose of an `n × K` weight, into the zero accumulator, at `(a, b)`: the sum over the
    contracted coordinate of the products of the two rows' entries. -/
theorem matmul_nt_apply {m n K : Nat} {φ₁ φ₂ : FTy}
    (w : DotDims.WF ⟨2, ![m, K]⟩ ⟨2, ![n, K]⟩ ⟨2, ![m, n]⟩ [1] [1] [0] [0] [] [])
    (prec : Option ContractPrecision) (A : FVec Ideal ⟨2, ![m, K]⟩ φ₁) (B : FVec Ideal ⟨2, ![n, K]⟩ φ₂)
    (a : Fin m) (b : Fin n) :
    FloatOps.matmul (⟨[1], [1], [0], [0], [], [], w⟩ : DotDims _ _ _) prec A B
        (constant (F := Ideal) ⟨2, ![m, n]⟩ .f32 0x00000000#32) (ix2 a b)
      = ∑ c : Fin K, A (ix2 a c) * B (ix2 b c) := by
  rw [Ideal.matmul_constant_zero_apply,
    ← Equiv.sum_comp (contrEquiv1 (⟨[1], [1], [0], [0], [], [], w⟩ : DotDims _ _ _) K rfl rfl).symm]
  refine Finset.sum_congr rfl fun c _ => ?_
  have c2 := contrEquiv1_symm_val
    (⟨[1], [1], [0], [0], [], [], w⟩ : DotDims ⟨2, ![m, K]⟩ ⟨2, ![n, K]⟩ ⟨2, ![m, n]⟩) K rfl rfl c
  have l2 : (⟨[1], [1], [0], [0], [], [], w⟩ : DotDims ⟨2, ![m, K]⟩ ⟨2, ![n, K]⟩ ⟨2, ![m, n]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, K]⟩ ⟨2, ![n, K]⟩ ⟨2, ![m, n]⟩).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

/-! ## Two blocks of 1024 columns side by side -/

/-- The row `[x₁, x₂]` at column `k`: `x₁` left of column 1024, `x₂` at `k - 1024` from there on. -/
theorem cat_apply {α : Type} (x₁ x₂ : (⟨2, ![256, 1024]⟩ : Shape).Idx → α)
    (h : Shape.Concatenates [⟨2, ![256, 1024]⟩, ⟨2, ![256, 1024]⟩] ⟨2, ![256, 2048]⟩ 1) (p : Fin 256) (k : Fin 2048) :
    concatenate ⟨2, ![256, 2048]⟩ 1 [⟨⟨2, ![256, 1024]⟩, x₁⟩, ⟨⟨2, ![256, 1024]⟩, x₂⟩] h (ix2 p k)
      = if hk : k.val < 1024 then x₁ (ix2 p ⟨k.val, hk⟩) else x₂ (ix2 p ⟨k.val - 1024, by omega⟩) := by
  split
  · next hk =>
    exact concatenate_pair_apply_left 1 x₁ x₂ h (ix2 p k) rfl (ix2 p ⟨k.val, hk⟩)
      (fun b => by match b with | ⟨0, _⟩ => rfl | ⟨1, _⟩ => rfl)
  · next hk =>
    exact concatenate_pair_apply_right 1 x₁ x₂ h (ix2 p k) rfl rfl (ix2 p ⟨k.val - 1024, by omega⟩)
      (fun b hb => by match b with | ⟨0, _⟩ => rfl | ⟨1, _⟩ => exact absurd rfl hb)
      (by show k.val - 1024 + 1024 = k.val; omega)

/-! ## Row reductions -/

/-- A row of a matrix reduced along its columns: the column index inserted after the row index. -/
theorem lift_cols {a b : ℕ} (h : (⟨2, ![a, b]⟩ : Shape).Reduces [1] ⟨1, ![a]⟩) (p : Fin a) (k : Fin b) :
    h.lift (ix1 p) k = ix2 p k := by
  funext ax
  match ax with
  | ⟨0, _⟩ => exact Fin.ext rfl
  | ⟨1, _⟩ => exact Fin.ext rfl

/-- A row reduction by addition, at row `p`: the sum over the row. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 h hφ hacc (ix1 p) = ∑ k : Fin b, src (ix2 p k) := by
  refine (Ideal.multiReduction_add_single src _ h hφ hacc (ix1 p)).trans ?_
  exact Finset.sum_congr rfl fun k _ => congrArg src (lift_cols h p k)

/-- The word `0xFF800000` denotes -∞. -/
theorem ofBits_neg_inf : Ideal.ofBits .f32 0xFF800000#32 = (⊥ : EReal) := by
  simp [Ideal.ofBits, Ideal.ieee]

/-- A row reduction by maximum from -∞, at row `p`: the supremum of the row. -/
theorem rowMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (p : Fin a) :
    multiReduction (F := Ideal) .maximumf [1] ⟨1, ![a]⟩ src 0xFF800000#32 h hφ hacc (ix1 p)
      = Finset.univ.sup fun k : Fin b => src (ix2 p k) := by
  refine (Ideal.multiReduction_maximumf_single src _ h hφ hacc (ix1 p)).trans ?_
  have hl : (src ∘ h.lift (ix1 p)) = fun k : Fin b => src (ix2 p k) :=
    funext fun k => congrArg src (lift_cols h p k)
  have hb : FloatOps.ofBits (F := Ideal) .f32 0xFF800000#32 = (⊥ : EReal) := ofBits_neg_inf
  rw [hl, hb]
  rfl

/-! ## A row reduction kept as a unit column and spread back along the row -/

/-- The row sum, kept as a column, spread along a row of any width: at `(p, n)` the sum over row `p`. -/
theorem keepdims_sum_apply {a b c : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, c]⟩)
    (p : Fin a) (n : Fin c) :
    broadcastTo ⟨2, ![a, c]⟩
        (shapeCast ⟨2, ![a, 1]⟩ (multiReduction (F := Ideal) .add [1] ⟨1, ![a]⟩ src 0x00000000#32 h hφ hacc) hc) hb (ix2 p n)
      = ∑ k : Fin b, src (ix2 p k) :=
  (broadcastTo_a1_ab_apply _ hb p n).trans ((shapeCast_a_a1_apply _ hc p 0).trans (rowSum_apply src h hφ hacc p))

/-- The row sum divided by a literal, kept as a column, spread along a row: at `(p, n)` the quotient of the sum over row
    `p` by what the word denotes. -/
theorem keepdims_mean_apply {a b c : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, c]⟩)
    (w : BitVec 32) (p : Fin a) (n : Fin c) :
    broadcastTo ⟨2, ![a, c]⟩
        (divf (shapeCast ⟨2, ![a, 1]⟩ (multiReduction (F := Ideal) .add [1] ⟨1, ![a]⟩ src 0x00000000#32 h hφ hacc) hc)
          (broadcast ⟨2, ![a, 1]⟩ (Scalar.ofBits (F := Ideal) .f32 w))) hb (ix2 p n)
      = Ideal.div (∑ k : Fin b, src (ix2 p k)) (Ideal.ofBits .f32 w) :=
  (broadcastTo_a1_ab_apply _ hb p n).trans
    (congrArg (Ideal.div · (Ideal.ofBits .f32 w)) ((shapeCast_a_a1_apply _ hc p 0).trans (rowSum_apply src h hφ hacc p)))

/-- The row maximum taken from -∞ and once more against -∞, kept as a column, spread along the row: at `(p, n)` the
    supremum of row `p`. -/
theorem keepdims_max_apply {a b c : ℕ} (src : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, c]⟩)
    (p : Fin a) (n : Fin c) :
    broadcastTo ⟨2, ![a, c]⟩
        (shapeCast ⟨2, ![a, 1]⟩
          (maximumf (broadcast ⟨1, ![a]⟩ (Scalar.ofBits (F := Ideal) .f32 0xFF800000#32))
            (multiReduction (F := Ideal) .maximumf [1] ⟨1, ![a]⟩ src 0xFF800000#32 h hφ hacc)) hc) hb (ix2 p n)
      = Finset.univ.sup fun k : Fin b => src (ix2 p k) := by
  refine (broadcastTo_a1_ab_apply _ hb p n).trans ((shapeCast_a_a1_apply _ hc p 0).trans ?_)
  show max (Ideal.ofBits .f32 0xFF800000#32)
      (multiReduction (F := Ideal) .maximumf [1] ⟨1, ![a]⟩ src 0xFF800000#32 h hφ hacc (ix1 p)) = _
  rw [ofBits_neg_inf, rowMax_apply src h hφ hacc p]
  exact max_bot_left _

end Cert.KSpec

end
-- ==== Proof.K1PayB.lean ====
/-
  The second half of the cell body read at an index, over variables: the new hidden state (one minus the update gate times
  the hidden state, plus update times candidate times connection strength); a memory gate's logits (the new hidden state
  times the gate's weight transposed, plus its bias); the address weights (the softmax of the address logits along the row,
  taken against the row's supremum); the read gate (the logistic of its logits) and the write gate's logits.
-/
import proofs.«132931_j11587821765036_2_alg».proof.Proof.Gen.KernelIdeal.Skeleton
import proofs.«132931_j11587821765036_2_alg».proof.Proof.K1Ops
import proofs.«132931_j11587821765036_2_alg».proof.Proof.KLayout

noncomputable section

open scoped BigOperators

namespace Cert.KSpec

open Idealize.ShloMosaic Idealize.ShloMosaic.ValueIdx Cert.KernelIdeal Cert.KernelIdeal.Gen

/-- The new hidden state at `(p, q)`. -/
theorem k1_pay8_apply (v0 : Vec Ideal S256x1024 .f32) (v23 v33 : FVec Ideal S256x1024 .f32) (v35 : FVec Ideal S1x1024 .f32)
    (p : Fin 256) (q : Fin 1024) :
    k1_pay8 v0 v23 v33 v35 (ix2 p q)
      = (Ideal.ofBits .f32 0x3F800000#32 - v23 (ix2 p q)) * v0 (ix2 p q)
          + v23 (ix2 p q) * v33 (ix2 p q) * v35 (ix2 0 q) := by
  unfold k1_pay8
  exact congrArg (fun z => (Ideal.ofBits .f32 0x3F800000#32 - v23 (ix2 p q)) * v0 (ix2 p q)
    + v23 (ix2 p q) * v33 (ix2 p q) * z) (broadcastTo_1b_ab_apply v35 _ p q)

/-- The same in the matrix unit's input format: a format change is the identity. -/
theorem k1_pay9_apply (v0 : Vec Ideal S256x1024 .f32) (v23 v33 : FVec Ideal S256x1024 .f32) (v35 : FVec Ideal S1x1024 .f32)
    (i : S256x1024.Idx) : k1_pay9 v0 v23 v33 v35 i = k1_pay8 v0 v23 v33 v35 i := rfl

/-- A memory gate's logits: the block `x` times the gate's weight transposed, plus its bias. -/
def glog (x : FVec Ideal S256x1024 .bf16) (W : FVec Ideal S2048x1024 .bf16) (b : FVec Ideal S1x2048 .f32) :
    FVec Ideal S256x2048 .f32 :=
  addf (matmul dot_S256x1024_S2048x1024_S256x2048_1_1_0_0_n_n none x
      (shapeCast S2048x1024 W shapeCasts_S2048x1024_S2048x1024) (constant S256x2048 .f32 0x00000000#32))
    (broadcastTo S256x2048 (shapeCast S1x2048 b shapeCasts_S1x2048_S1x2048) broadcasts_S1x2048_S256x2048)

/-- A gate's logits at `(p, n)`. -/
theorem glog_apply (x : FVec Ideal S256x1024 .bf16) (W : FVec Ideal S2048x1024 .bf16) (b : FVec Ideal S1x2048 .f32)
    (p : Fin 256) (n : Fin 2048) :
    glog x W b (ix2 p n) = ∑ j : Fin 1024, x (ix2 p j) * W (ix2 n j) + b (ix2 0 n) := by
  unfold glog
  rw [shapeCast_self, shapeCast_self]
  refine congrArg₂ (· + ·) ?_ (broadcastTo_1b_ab_apply b _ p n)
  exact matmul_nt_apply (φ₁ := .bf16) (φ₂ := .bf16) dot_S256x1024_S2048x1024_S256x2048_1_1_0_0_n_n.wf none x W p n

/-- The softmax along the rows of a block of logits, as the body computes it. -/
def softmaxRows (v50 : FVec Ideal S256x2048 .f32) : FVec Ideal S256x2048 .f32 :=
  have v51 : FVec Ideal S256 .f32 := multiReduction .maximumf [1] S256 v50 0xFF800000#32 reduces_S256x2048_S256 (.inl rfl) rfl
  have cst_28 : Ideal .f32 := Scalar.ofBits .f32 0xFF800000#32
  have v52 : FVec Ideal S256 .f32 := broadcast S256 cst_28
  have v53 : FVec Ideal S256 .f32 := maximumf v52 v51
  have v54 : FVec Ideal S256x1 .f32 := shapeCast S256x1 v53 shapeCasts_S256_S256x1
  have v55 : FVec Ideal S256x2048 .f32 := broadcastTo S256x2048 v54 broadcasts_S256x1_S256x2048
  have v56 : FVec Ideal S256x2048 .f32 := subf v50 v55
  have v57 : FVec Ideal S256x2048 .f32 := exp v56
  have v58 : FVec Ideal S256 .f32 := multiReduction .add [1] S256 v57 0x00000000#32 reduces_S256x2048_S256 (.inl rfl) rfl
  have v59 : FVec Ideal S256x1 .f32 := shapeCast S256x1 v58 shapeCasts_S256_S256x1
  have v60 : FVec Ideal S256x2048 .f32 := broadcastTo S256x2048 v59 broadcasts_S256x1_S256x2048
  divf v57 v60

/-- The softmax at `(p, n)`: the exponential of the logit less the row's supremum, over the row's sum of those. -/
theorem softmaxRows_apply (L : FVec Ideal S256x2048 .f32) (p : Fin 256) (n : Fin 2048) :
    softmaxRows L (ix2 p n)
      = Ideal.div (Ideal.exp (L (ix2 p n) - Finset.univ.sup fun n' : Fin 2048 => L (ix2 p n')))
          (∑ m : Fin 2048, Ideal.exp (L (ix2 p m) - Finset.univ.sup fun n' : Fin 2048 => L (ix2 p n'))) := by
  unfold softmaxRows
  have hmax : ∀ m : Fin 2048,
      broadcastTo S256x2048 (shapeCast S256x1 (maximumf (broadcast S256 (Scalar.ofBits (F := Ideal) .f32 0xFF800000#32))
        (multiReduction (F := Ideal) .maximumf [1] S256 L 0xFF800000#32 reduces_S256x2048_S256 (.inl rfl) rfl))
        shapeCasts_S256_S256x1) broadcasts_S256x1_S256x2048 (ix2 p m)
        = Finset.univ.sup fun n' : Fin 2048 => L (ix2 p n') :=
    fun m => keepdims_max_apply L reduces_S256x2048_S256 (.inl rfl) rfl shapeCasts_S256_S256x1 broadcasts_S256x1_S256x2048 p m
  refine congrArg₂ Ideal.div (congrArg (fun z => Ideal.exp (L (ix2 p n) - z)) (hmax n)) ?_
  refine (keepdims_sum_apply _ reduces_S256x2048_S256 (.inl rfl) rfl shapeCasts_S256_S256x1 broadcasts_S256x1_S256x2048 p n).trans ?_
  exact Finset.sum_congr rfl fun m _ => congrArg (fun z => Ideal.exp (L (ix2 p m) - z)) (hmax m)

/-- The address weights are the softmax of the address logits … -/
theorem k1_pay10_eq (v0 : Vec Ideal S256x1024 .f32) (v23 v33 : FVec Ideal S256x1024 .f32) (v35 : FVec Ideal S1x1024 .f32)
    (v44 : Vec Ideal S2048x1024 .bf16) (v47 : Vec Ideal S1x2048 .f32) :
    k1_pay10 v0 v23 v33 v35 v44 v47 = softmaxRows (glog (k1_pay9 v0 v23 v33 v35) v44 v47) := rfl

/-- … the read gate the logistic of its logits … -/
theorem k1_pay11_eq (v0 : Vec Ideal S256x1024 .f32) (v23 v33 : FVec Ideal S256x1024 .f32) (v35 : FVec Ideal S1x1024 .f32)
    (v62 : Vec Ideal S2048x1024 .bf16) (v65 : Vec Ideal S1x2048 .f32) :
    k1_pay11 v0 v23 v33 v35 v62 v65 = logistic (glog (k1_pay9 v0 v23 v33 v35) v62 v65) := rfl

/-- … and the write gate's logits are logits. -/
theorem k1_pay12_eq (v0 : Vec Ideal S256x1024 .f32) (v23 v33 : FVec Ideal S256x1024 .f32) (v35 : FVec Ideal S1x1024 .f32)
    (v70 : Vec Ideal S2048x1024 .bf16) (v73 : Vec Ideal S1x2048 .f32) :
    k1_pay12 v0 v23 v33 v35 v70 v73 = glog (k1_pay9 v0 v23 v33 v35) v70 v73 := rfl

end Cert.KSpec

end
-- ==== Proof.K1PayC.lean ====
/-
  The two stored blocks of the cell body read at an index, over variables: the new memory (forget gate times the old memory,
  plus write gate times the row mean of the new hidden state times the address weight), and the final hidden state (the new
  hidden state plus the row mean of read gate times new memory).
-/
import proofs.«132931_j11587821765036_2_alg».proof.Proof.Gen.KernelIdeal.Skeleton
import proofs.«132931_j11587821765036_2_alg».proof.Proof.K1Ops
import proofs.«132931_j11587821765036_2_alg».proof.Proof.KLayout
import proofs.«132931_j11587821765036_2_alg».proof.Proof.K1PayB

noncomputable section

open scoped BigOperators

namespace Cert.KSpec

open Idealize.ShloMosaic Idealize.ShloMosaic.ValueIdx Cert.KernelIdeal Cert.KernelIdeal.Gen

/-- The new memory at `(p, n)`. -/
theorem k1_pay1_apply (v2 : Vec Ideal S256x2048 .f32) (v42 : FVec Ideal S256x1024 .f32) (v43 : FVec Ideal S256x1024 .bf16)
    (v61 v76 : FVec Ideal S256x2048 .f32) (v78 : Vec Ideal S2048x1024 .bf16) (v81 : Vec Ideal S1x2048 .f32)
    (p : Fin 256) (n : Fin 2048) :
    k1_pay1 v2 v42 v43 v61 v76 v78 v81 (ix2 p n)
      = Ideal.logistic (glog v43 v78 v81 (ix2 p n)) * v2 (ix2 p n)
          + Ideal.logistic (v76 (ix2 p n))
              * Ideal.div (∑ j : Fin 1024, v42 (ix2 p j)) (Ideal.ofBits .f32 0x44800000#32) * v61 (ix2 p n) := by
  unfold k1_pay1
  exact congrArg (fun z => Ideal.logistic (glog v43 v78 v81 (ix2 p n)) * v2 (ix2 p n)
      + Ideal.logistic (v76 (ix2 p n)) * z * v61 (ix2 p n))
    (keepdims_mean_apply v42 reduces_S256x1024_S256 (.inl rfl) rfl shapeCasts_S256_S256x1 broadcasts_S256x1_S256x2048
      0x44800000#32 p n)

/-- The final hidden state at `(p, q)`. -/
theorem k1_pay2_apply (v2 : Vec Ideal S256x2048 .f32) (v42 : FVec Ideal S256x1024 .f32) (v43 : FVec Ideal S256x1024 .bf16)
    (v61 v69 v76 : FVec Ideal S256x2048 .f32) (v78 : Vec Ideal S2048x1024 .bf16) (v81 : Vec Ideal S1x2048 .f32)
    (p : Fin 256) (q : Fin 1024) :
    k1_pay2 v2 v42 v43 v61 v69 v76 v78 v81 (ix2 p q)
      = v42 (ix2 p q)
          + Ideal.div (∑ n : Fin 2048, v69 (ix2 p n) * k1_pay1 v2 v42 v43 v61 v76 v78 v81 (ix2 p n))
              (Ideal.ofBits .f32 0x45000000#32) := by
  unfold k1_pay2
  exact congrArg (v42 (ix2 p q) + ·)
    (keepdims_mean_apply (mulf v69 (k1_pay1 v2 v42 v43 v61 v76 v78 v81)) reduces_S256x2048_S256 (.inl rfl) rfl
      shapeCasts_S256_S256x1 broadcasts_S256x1_S256x1024 0x45000000#32 p q)

end Cert.KSpec

end
-- ==== Proof.K1PayA.lean ====
/-
  The first half of the cell body read at an index, over variables: the attended hidden state (the hidden state times the
  logistic of its product with the attention weight plus the bias), the fused reset/update product of the row [x, attended]
  with the fused weight, the two halves of that product, and the candidate state's product of the row
  [x, reset · attended] with its weight.
-/
import proofs.«132931_j11587821765036_2_alg».proof.Proof.Gen.KernelIdeal.Skeleton
import proofs.«132931_j11587821765036_2_alg».proof.Proof.K1Ops
import proofs.«132931_j11587821765036_2_alg».proof.Proof.KLayout

noncomputable section

open scoped BigOperators

namespace Cert.KSpec

open Idealize.ShloMosaic Idealize.ShloMosaic.ValueIdx Cert.KernelIdeal Cert.KernelIdeal.Gen

/-- The attended hidden state at `(p, q)`. -/
theorem k1_pay3_apply (v0 : Vec Ideal S256x1024 .f32) (v4 : Vec Ideal S1024x1024 .bf16) (v7 : Vec Ideal S1x1024 .f32)
    (p : Fin 256) (q : Fin 1024) :
    k1_pay3 v0 v4 v7 (ix2 p q)
      = v0 (ix2 p q) * Ideal.logistic (∑ k : Fin 1024, v0 (ix2 p k) * v4 (ix2 q k) + v7 (ix2 0 q)) := by
  unfold k1_pay3
  rw [shapeCast_self, shapeCast_self]
  refine congrArg (v0 (ix2 p q) * ·) (congrArg Ideal.logistic ?_)
  refine congrArg₂ (· + ·) ?_ (broadcastTo_1b_ab_apply v7 _ p q)
  exact matmul_nt_apply dot_S256x1024_S1024x1024_S256x1024_1_1_0_0_n_n.wf none
    (truncf .bf16 v0 bitsLt_bf16_f32) v4 p q

/-- The row `[x, v]` of a block at column `k`. -/
def catB (x v : S256x1024.Idx → EReal) (p : Fin 256) (k : Fin 2048) : EReal :=
  if hk : k.val < 1024 then x (ix2 p ⟨k.val, hk⟩) else v (ix2 p ⟨k.val - 1024, by omega⟩)

/-- The fused reset/update product at `(p, n)`. -/
theorem k1_pay4_apply (v0 v1 : Vec Ideal S256x1024 .f32) (v4 : Vec Ideal S1024x1024 .bf16) (v7 : Vec Ideal S1x1024 .f32)
    (v15 : Vec Ideal S2048x2048 .bf16) (v18 : Vec Ideal S1x2048 .f32) (p : Fin 256) (n : Fin 2048) :
    k1_pay4 v0 v1 v4 v7 v15 v18 (ix2 p n)
      = ∑ k : Fin 2048, catB v1 (k1_pay3 v0 v4 v7) p k * v15 (ix2 n k) + v18 (ix2 0 n) := by
  unfold k1_pay4
  rw [shapeCast_self, shapeCast_self]
  refine congrArg₂ (· + ·) ?_ (broadcastTo_1b_ab_apply v18 _ p n)
  refine (matmul_nt_apply (φ₁ := .bf16) (φ₂ := .bf16) dot_S256x2048_S2048x2048_S256x2048_1_1_0_0_n_n.wf none _ v15 p n).trans ?_
  refine Finset.sum_congr rfl fun k _ => congrArg (· * v15 (ix2 n k)) ?_
  exact cat_apply v1 (k1_pay3 v0 v4 v7) concatenates_S256x1024_S256x1024_S256x2048_d1 p k

/-- The update half of the fused product: columns 1024 onwards. -/
theorem k1_pay5_apply (v0 v1 : Vec Ideal S256x1024 .f32) (v4 : Vec Ideal S1024x1024 .bf16) (v7 : Vec Ideal S1x1024 .f32)
    (v15 : Vec Ideal S2048x2048 .bf16) (v18 : Vec Ideal S1x2048 .f32) (p : Fin 256) (q : Fin 1024) :
    k1_pay5 v0 v1 v4 v7 v15 v18 (ix2 p q) = k1_pay4 v0 v1 v4 v7 v15 v18 (ix2 p ⟨1024 + q.val, by omega⟩) := by
  unfold k1_pay5
  exact slice2_axis1_eq 1024 (k1_pay4 v0 v1 v4 v7 v15 v18) slices_S256x2048_o0_1024_S256x1024 p q

/-- The candidate state's product at `(p, q)`: the row is [x, reset · attended], the reset half being columns 0 to 1023 of
    the fused product. -/
theorem k1_pay6_apply (v0 v1 : Vec Ideal S256x1024 .f32) (v4 : Vec Ideal S1024x1024 .bf16) (v7 : Vec Ideal S1x1024 .f32)
    (v15 : Vec Ideal S2048x2048 .bf16) (v18 : Vec Ideal S1x2048 .f32) (v27 : Vec Ideal S1024x2048 .bf16)
    (v30 : Vec Ideal S1x1024 .f32) (p : Fin 256) (q : Fin 1024) :
    k1_pay6 v0 v1 v4 v7 v15 v18 v27 v30 (ix2 p q)
      = ∑ k : Fin 2048, catB v1 (fun i => extractStridedSlice S256x1024 ![0, 0] (k1_pay4 v0 v1 v4 v7 v15 v18)
            slices_S256x2048_o0_0_S256x1024 i * k1_pay3 v0 v4 v7 i) p k * v27 (ix2 q k) + v30 (ix2 0 q) := by
  unfold k1_pay6
  rw [shapeCast_self, shapeCast_self]
  refine congrArg₂ (· + ·) ?_ (broadcastTo_1b_ab_apply v30 _ p q)
  refine (matmul_nt_apply (φ₁ := .bf16) (φ₂ := .bf16) dot_S256x2048_S1024x2048_S256x1024_1_1_0_0_n_n.wf none _ v27 p q).trans ?_
  refine Finset.sum_congr rfl fun k _ => congrArg (· * v27 (ix2 q k)) ?_
  exact cat_apply v1 _ concatenates_S256x1024_S256x1024_S256x2048_d1 p k

/-- The reset half of the fused product: columns 0 to 1023. -/
theorem reset_slice_apply (X : S256x2048.Idx → EReal) (p : Fin 256) (q : Fin 1024) :
    extractStridedSlice S256x1024 ![0, 0] X slices_S256x2048_o0_0_S256x1024 (ix2 p q) = X (ix2 p ⟨0 + q.val, by omega⟩) :=
  slice2_axis1_eq 0 X slices_S256x2048_o0_0_S256x1024 p q

end Cert.KSpec

end
-- ==== Proof.K1Ties.lean ====
/-
  What ties the blocks one grid point of the cell kernel loads to the argument arrays: the three activation blocks are
  rows 256 t to 256 t + 255 of x, the hidden state and the memory; the loaded connection strength is the specification's;
  every weight and bias is the argument entry by entry (a bias row [1, n] against the vector [n]); the fused
  reset/update weight and bias hold the reset gate's rows first and the update gate's after row 1024.
-/
import proofs.«132931_j11587821765036_2_alg».proof.Proof.KPayIdeal
import proofs.«132931_j11587821765036_2_alg».proof.Proof.Spec

noncomputable section

open scoped BigOperators

namespace Cert.KSpec

open Idealize.ShloMosaic Idealize.ShloMosaic.ValueIdx Cert.KernelIdeal Cert.KernelIdeal.Gen

open Cert.KernelIdeal.KPay

/-- Row `p` of block `t` as a row of the whole batch. -/
abbrev row (t : Fin 32) (p : Fin 256) : Fin 8192 := ⟨t.val * 256 + p.val, by omega⟩

/-- The blocks `B` are what grid point `t` loads when the arguments are `A`. -/
structure Ties (A : Cert.Spec.Args) (t : Fin 32) (B : Blk Ideal) : Prop where
  xb : ∀ (p : Fin 256) (q : Fin 1024), B.xb (ix2 p q) = A.x (ix2 ⟨t.val * 256 + p.val, by omega⟩ q)
  hb : ∀ (p : Fin 256) (q : Fin 1024), B.hb (ix2 p q) = A.h (ix2 ⟨t.val * 256 + p.val, by omega⟩ q)
  pmb : ∀ (p : Fin 256) (q : Fin 2048), B.pmb (ix2 p q) = A.pm (ix2 ⟨t.val * 256 + p.val, by omega⟩ q)
  csb : ∀ q : Fin 1024, B.csb (ix2 0 q) = Cert.Spec.cs A q
  Wa : ∀ (j k : Fin 1024), B.Wa (ix2 j k) = A.Wa (ix2 j k)
  ba : ∀ j : Fin 1024, B.ba (ix2 0 j) = A.ba (ix1 j)
  Wru : ∀ (n k : Fin 2048), B.Wru (ix2 n k)
    = if h : n.val < 1024 then A.Wr (ix2 ⟨n.val, h⟩ k) else A.Wu (ix2 ⟨n.val - 1024, by omega⟩ k)
  bru : ∀ n : Fin 2048, B.bru (ix2 0 n)
    = if h : n.val < 1024 then A.br (ix1 ⟨n.val, h⟩) else A.bu (ix1 ⟨n.val - 1024, by omega⟩)
  Wn : ∀ (j : Fin 1024) (k : Fin 2048), B.Wn (ix2 j k) = A.Wn (ix2 j k)
  bn : ∀ j : Fin 1024, B.bn (ix2 0 j) = A.bn (ix1 j)
  Wread : ∀ (n : Fin 2048) (j : Fin 1024), B.Wread (ix2 n j) = A.Wread (ix2 n j)
  bread : ∀ n : Fin 2048, B.bread (ix2 0 n) = A.bread (ix1 n)
  Wwrite : ∀ (n : Fin 2048) (j : Fin 1024), B.Wwrite (ix2 n j) = A.Wwrite (ix2 n j)
  bwrite : ∀ n : Fin 2048, B.bwrite (ix2 0 n) = A.bwrite (ix1 n)
  Wforget : ∀ (n : Fin 2048) (j : Fin 1024), B.Wforget (ix2 n j) = A.Wforget (ix2 n j)
  bforget : ∀ n : Fin 2048, B.bforget (ix2 0 n) = A.bforget (ix1 n)
  Waddr : ∀ (n : Fin 2048) (j : Fin 1024), B.Waddr (ix2 n j) = A.Waddr (ix2 n j)
  baddr : ∀ n : Fin 2048, B.baddr (ix2 0 n) = A.baddr (ix1 n)

end Cert.KSpec

end
-- ==== Proof.K1Cell.lean ====
/-
  The cell's gates against the specification, for the blocks grid point t loads: the attended hidden state, the two halves
  of the fused product (the reset gate on columns 0 to 1023 and the update gate from column 1024 on, because the fused
  weight holds the reset gate's rows first), the candidate state, the connection strength as loaded, and the new hidden
  state — each at row p of the block is the specification's function at row 256 t + p of the batch.
-/
import proofs.«132931_j11587821765036_2_alg».proof.Proof.K1PayA
import proofs.«132931_j11587821765036_2_alg».proof.Proof.K1PayB
import proofs.«132931_j11587821765036_2_alg».proof.Proof.K1Ties

noncomputable section

open scoped BigOperators

namespace Cert.KSpec

open Idealize.ShloMosaic Idealize.ShloMosaic.ValueIdx Cert.KernelIdeal Cert.KernelIdeal.Gen

open Cert.KernelIdeal.KPay

variable {A : Cert.Spec.Args} {t : Fin 32} {B : Blk Ideal}

/-- The attended hidden state. -/
theorem ha_eq (h : Ties A t B) (p : Fin 256) (q : Fin 1024) :
    k1_pay3 B.hb B.Wa B.ba (ix2 p q) = Cert.Spec.ha A (row t p) q := by
  rw [k1_pay3_apply]
  unfold Cert.Spec.ha Cert.Spec.att
  rw [h.hb p q, h.ba q]
  refine congrArg (fun s => A.h (ix2 (row t p) q) * Ideal.logistic (s + A.ba (ix1 q))) ?_
  exact Finset.sum_congr rfl fun k _ => by rw [h.hb p k, h.Wa q k]

/-- The row `[x, v]` of the block is the row `[x, V]` of the batch when `v` is `V` along the row. -/
theorem catB_eq (h : Ties A t B) (v : S256x1024.Idx → EReal) (V : Fin 1024 → EReal) (p : Fin 256)
    (hv : ∀ q : Fin 1024, v (ix2 p q) = V q) (k : Fin 2048) :
    catB B.xb v p k = Cert.Spec.cat A (row t p) V k := by
  unfold catB Cert.Spec.cat
  by_cases hk : k.val < 1024
  · rw [dif_pos hk, dif_pos hk]; exact h.xb p ⟨k.val, hk⟩
  · rw [dif_neg hk, dif_neg hk]; exact hv _

/-- The fused weight's rows 0 to 1023 are the reset gate's … -/
theorem Wru_lo (h : Ties A t B) (q : Fin 1024) (k : Fin 2048) :
    B.Wru (ix2 ⟨0 + q.val, by omega⟩ k) = A.Wr (ix2 q k) := by
  rw [h.Wru, dif_pos (show 0 + q.val < 1024 by omega)]
  exact congrArg (fun i => A.Wr (ix2 i k)) (Fin.ext (Nat.zero_add _))

/-- … and its rows from 1024 on the update gate's; the fused bias likewise. -/
theorem Wru_hi (h : Ties A t B) (q : Fin 1024) (k : Fin 2048) :
    B.Wru (ix2 ⟨1024 + q.val, by omega⟩ k) = A.Wu (ix2 q k) := by
  rw [h.Wru, dif_neg (show ¬ (1024 + q.val < 1024) by omega)]
  exact congrArg (fun i => A.Wu (ix2 i k)) (Fin.ext (show 1024 + q.val - 1024 = q.val by omega))

theorem bru_lo (h : Ties A t B) (q : Fin 1024) : B.bru (ix2 0 ⟨0 + q.val, by omega⟩) = A.br (ix1 q) := by
  rw [h.bru, dif_pos (show 0 + q.val < 1024 by omega)]
  exact congrArg (fun i => A.br (ix1 i)) (Fin.ext (Nat.zero_add _))

theorem bru_hi (h : Ties A t B) (q : Fin 1024) : B.bru (ix2 0 ⟨1024 + q.val, by omega⟩) = A.bu (ix1 q) := by
  rw [h.bru, dif_neg (show ¬ (1024 + q.val < 1024) by omega)]
  exact congrArg (fun i => A.bu (ix1 i)) (Fin.ext (show 1024 + q.val - 1024 = q.val by omega))

/-- The fused product's column `q` is the reset gate … -/
theorem fused_lo (h : Ties A t B) (p : Fin 256) (q : Fin 1024) :
    k1_pay4 B.hb B.xb B.Wa B.ba B.Wru B.bru (ix2 p ⟨0 + q.val, by omega⟩) = Cert.Spec.reset A (row t p) q := by
  rw [k1_pay4_apply]
  unfold Cert.Spec.reset
  refine congrArg₂ (· + ·) (Finset.sum_congr rfl fun k _ => ?_) (bru_lo h q)
  exact congrArg₂ (· * ·) (catB_eq h _ _ p (fun q' => ha_eq h p q') k) (Wru_lo h q k)

/-- … and its column `1024 + q` the update gate. -/
theorem fused_hi (h : Ties A t B) (p : Fin 256) (q : Fin 1024) :
    k1_pay4 B.hb B.xb B.Wa B.ba B.Wru B.bru (ix2 p ⟨1024 + q.val, by omega⟩) = Cert.Spec.update A (row t p) q := by
  rw [k1_pay4_apply]
  unfold Cert.Spec.update
  refine congrArg₂ (· + ·) (Finset.sum_congr rfl fun k _ => ?_) (bru_hi h q)
  exact congrArg₂ (· * ·) (catB_eq h _ _ p (fun q' => ha_eq h p q') k) (Wru_hi h q k)

/-- The update gate. -/
theorem upd_eq (h : Ties A t B) (p : Fin 256) (q : Fin 1024) : upd B (ix2 p q) = Cert.Spec.update A (row t p) q := by
  unfold upd
  rw [k1_pay5_apply]
  exact fused_hi h p q

/-- The candidate state. -/
theorem cand_eq (h : Ties A t B) (p : Fin 256) (q : Fin 1024) : cand B (ix2 p q) = Cert.Spec.new A (row t p) q := by
  unfold cand
  rw [k1_pay6_apply]
  unfold Cert.Spec.new
  refine congrArg₂ (· + ·) (Finset.sum_congr rfl fun k _ => ?_) (h.bn q)
  refine congrArg₂ (· * ·) (catB_eq h _ _ p (fun q' => ?_) k) (h.Wn q k)
  show extractStridedSlice S256x1024 ![0, 0] (k1_pay4 B.hb B.xb B.Wa B.ba B.Wru B.bru) slices_S256x2048_o0_0_S256x1024 (ix2 p q')
      * k1_pay3 B.hb B.Wa B.ba (ix2 p q') = _
  rw [reset_slice_apply, fused_lo h p q', ha_eq h p q']

/-- The connection strength as loaded. -/
theorem csv_eq (h : Ties A t B) (q : Fin 1024) : csv B (ix2 0 q) = Cert.Spec.cs A q := by
  unfold csv k1_pay7
  rw [shapeCast_self]
  exact h.csb q

/-- The new hidden state, in both formats. -/
theorem hnew_eq (h : Ties A t B) (p : Fin 256) (q : Fin 1024) : hnew B (ix2 p q) = Cert.Spec.hn A (row t p) q := by
  unfold hnew
  rw [k1_pay8_apply, upd_eq h p q, cand_eq h p q, csv_eq h q, h.hb p q]
  rfl

theorem hnewT_eq (h : Ties A t B) (p : Fin 256) (q : Fin 1024) : hnewT B (ix2 p q) = Cert.Spec.hn A (row t p) q :=
  hnew_eq h p q

end Cert.KSpec

end
-- ==== Proof.K1Mem.lean ====
/-
  The memory gates against the specification, for the blocks grid point t loads: a gate's logits are the specification's
  logits of that gate's weight and bias; the address weights are the specification's softmax (the exponential of the
  logit less the row's supremum, over the row's sum of those); the read gate is the logistic of its logits; the write
  gate's logits are its logits.
-/
import proofs.«132931_j11587821765036_2_alg».proof.Proof.K1Cell

noncomputable section

open scoped BigOperators

namespace Cert.KSpec

open Idealize.ShloMosaic Idealize.ShloMosaic.ValueIdx Cert.KernelIdeal Cert.KernelIdeal.Gen

open Cert.KernelIdeal.KPay

variable {A : Cert.Spec.Args} {t : Fin 32} {B : Blk Ideal}

/-- A gate's logits over the new hidden state, for a weight and a bias that are the arguments' entry by entry. -/
theorem glog_eq (h : Ties A t B) (W : FVec Ideal S2048x1024 .bf16) (b : FVec Ideal S1x2048 .f32)
    (AW : Cert.Spec.Arr 2 ![2048, 1024]) (Ab : Cert.Spec.Arr 1 ![2048])
    (hW : ∀ (n : Fin 2048) (j : Fin 1024), W (ix2 n j) = AW (ix2 n j)) (hb : ∀ n : Fin 2048, b (ix2 0 n) = Ab (ix1 n))
    (p : Fin 256) (n : Fin 2048) :
    glog (hnewT B) W b (ix2 p n) = Cert.Spec.logits A AW Ab (row t p) n := by
  rw [glog_apply]
  unfold Cert.Spec.logits
  refine congrArg₂ (· + ·) (Finset.sum_congr rfl fun j _ => ?_) (hb n)
  exact congrArg₂ (· * ·) (hnewT_eq h p j) (hW n j)

/-- The address weights. -/
theorem addrB_eq (h : Ties A t B) (p : Fin 256) (n : Fin 2048) : addrB B (ix2 p n) = Cert.Spec.addr A (row t p) n := by
  have hL : ∀ m : Fin 2048, glog (hnewT B) B.Waddr B.baddr (ix2 p m) = Cert.Spec.logits A A.Waddr A.baddr (row t p) m :=
    fun m => glog_eq h B.Waddr B.baddr A.Waddr A.baddr h.Waddr h.baddr p m
  unfold addrB
  rw [k1_pay10_eq]
  refine (softmaxRows_apply _ p n).trans ?_
  unfold Cert.Spec.addr Cert.Spec.aexp
  have hS : (Finset.univ.sup fun n' : Fin 2048 => glog (hnewT B) B.Waddr B.baddr (ix2 p n'))
      = Finset.univ.sup fun n' : Fin 2048 => Cert.Spec.logits A A.Waddr A.baddr (row t p) n' :=
    congrArg (Finset.univ.sup) (funext hL)
  refine congrArg₂ Ideal.div ?_ (Finset.sum_congr rfl fun m _ => ?_)
  · exact congrArg₂ (fun a s => Ideal.exp (a - s)) (hL n) hS
  · exact congrArg₂ (fun a s => Ideal.exp (a - s)) (hL m) hS

/-- The read gate. -/
theorem readB_eq (h : Ties A t B) (p : Fin 256) (n : Fin 2048) : readB B (ix2 p n) = Cert.Spec.rd A (row t p) n := by
  unfold readB
  rw [k1_pay11_eq]
  exact congrArg Ideal.logistic (glog_eq h B.Wread B.bread A.Wread A.bread h.Wread h.bread p n)

/-- The write gate's logits. -/
theorem writeL_eq (h : Ties A t B) (p : Fin 256) (n : Fin 2048) :
    writeL B (ix2 p n) = Cert.Spec.logits A A.Wwrite A.bwrite (row t p) n := by
  unfold writeL
  rw [k1_pay12_eq]
  exact glog_eq h B.Wwrite B.bwrite A.Wwrite A.bwrite h.Wwrite h.bwrite p n

end Cert.KSpec

end
-- ==== Proof.K1Out.lean ====
/-
  THE CELL KERNEL'S TWO STORED BLOCKS ARE THE SPECIFICATION'S RESULTS on the block's rows: the new memory is forget gate
  times old memory plus write gate times the row mean of the new hidden state times the address weight; the final hidden
  state is the new hidden state plus the row mean of read gate times new memory.
-/
import proofs.«132931_j11587821765036_2_alg».proof.Proof.K1PayC
import proofs.«132931_j11587821765036_2_alg».proof.Proof.K1Mem

noncomputable section

open scoped BigOperators

namespace Cert.KSpec

open Idealize.ShloMosaic Idealize.ShloMosaic.ValueIdx Cert.KernelIdeal Cert.KernelIdeal.Gen

open Cert.KernelIdeal.KPay

variable {A : Cert.Spec.Args} {t : Fin 32} {B : Blk Ideal}

/-- The second stored block is the new memory. -/
theorem out1_apply (h : Ties A t B) (p : Fin 256) (q : Fin 2048) :
    out1 B (ix2 p q) = Cert.Spec.mem A ⟨t.val * 256 + p.val, by omega⟩ q := by
  unfold out1
  rw [k1_pay1_apply]
  unfold Cert.Spec.mem Cert.Spec.fg Cert.Spec.wr Cert.Spec.hp
  rw [glog_eq h B.Wforget B.bforget A.Wforget A.bforget h.Wforget h.bforget p q, h.pmb p q, writeL_eq h p q,
    addrB_eq h p q]
  refine congrArg (fun s => Ideal.logistic (Cert.Spec.logits A A.Wforget A.bforget (row t p) q) * A.pm (ix2 (row t p) q)
      + Ideal.logistic (Cert.Spec.logits A A.Wwrite A.bwrite (row t p) q)
        * Ideal.div s Cert.Spec.c1024 * Cert.Spec.addr A (row t p) q) ?_
  exact Finset.sum_congr rfl fun j _ => hnew_eq h p j

/-- The first stored block is the final hidden state. -/
theorem out0_apply (h : Ties A t B) (p : Fin 256) (q : Fin 1024) :
    out0 B (ix2 p q) = Cert.Spec.out0 A ⟨t.val * 256 + p.val, by omega⟩ q := by
  unfold out0
  rw [k1_pay2_apply]
  unfold Cert.Spec.out0
  refine congrArg₂ (fun a s => a + Ideal.div s Cert.Spec.c2048) (hnew_eq h p q) (Finset.sum_congr rfl fun n _ => ?_)
  exact congrArg₂ (· * ·) (readB_eq h p n) (out1_apply h p n)

end Cert.KSpec

end
-- ==== Proof.ValueIdeal.lean ====
/-
  What the idealized kernel program computes.  The connection-strength region ends with its result array at the
  specification's connection strength; each block the cell region writes back is the specification's two results
  on that block's rows; the blocks tile the result arrays; so the program ends with its two results at the
  specification's functions of its arguments.
-/
import proofs.«132931_j11587821765036_2_alg».proof.Proof.RunIdeal
import proofs.«132931_j11587821765036_2_alg».proof.Proof.P0Ideal
import proofs.«132931_j11587821765036_2_alg».proof.Proof.P1Ideal
import proofs.«132931_j11587821765036_2_alg».proof.Proof.CoverIdeal
import proofs.«132931_j11587821765036_2_alg».proof.Proof.ArgsK
import proofs.«132931_j11587821765036_2_alg».proof.Proof.HostA
import proofs.«132931_j11587821765036_2_alg».proof.Proof.HostB
import proofs.«132931_j11587821765036_2_alg».proof.Proof.K0
import proofs.«132931_j11587821765036_2_alg».proof.Proof.K1Out
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## The connection strength -/

/-- The connection strength as the 1 × 1024 array the first region writes. -/
def csArr (c : Dev nD) : Vec Ideal S1x1024 .f32 := fun i => Cert.Spec.cs (argsK m c) (i 1)

theorem hblk_apply (c : Dev nD) (t : ℕ) (ht : t < 4) (r : Fin 2048) (q : Fin 1024) :
    hblk (V1 m ρ) c t (ix2 r q) = (argsK m c).h (ix2 ⟨t * 2048 + r.val, by omega⟩ q) := by
  have e := blk0_w0 m ρ c ⟨t, by rw [N0_eq]; exact ht⟩ r q
  rw [← hblk_eq (V1 m ρ) c ⟨t, by rw [N0_eq]; exact ht⟩] at e
  exact e

/-- What the last point writes back is the connection strength. -/
theorem flushed0_eq (c : Dev nD) (t : Fin cfg0.N) (hf : (cfg0.win 4).flush t = true) :
    (dat0 (V1 m ρ) c).flushed 4 t = ((cfg0.win 4).blk t).view.read (Elt Ideal) (csArr m c) := by
  have h1 : t.val % 4 = 3 := (flush0_4 t).mp hf
  show (cfg0.win 4).cut (grid0.coords t) ((dat0 (V1 m ρ) c).after 4 t) = _
  rw [after0_4, out_eq (V1 m ρ) c t h1]
  funext y
  obtain ⟨p, q, rfl⟩ : ∃ (p : Fin 1) (q : Fin 1024), y = ix2 p q := ⟨y 0, y 1, eq_ix2 y⟩
  obtain rfl : p = 0 := Subsingleton.elim _ _
  show KPay.cs0 (hblk (V1 m ρ) c) (iblk0 (V1 m ρ) c 3 t) (iblk0 (V1 m ρ) c 2 t) (iblk0 (V1 m ρ) c 1 t) (ix2 0 q)
    = csArr m c (((cfg0.win 4).blk t).view.emb (ix2 0 q))
  rw [Cert.KSpec.cs0_apply (argsK m c) _ _ _ _ (hblk_apply m ρ c) (blk0_w3 m ρ c t) (blk0_w1 m ρ c t) (blk0_w2 m ρ c t) q]
  show Cert.Spec.cs (argsK m c) q = Cert.Spec.cs (argsK m c) ((((cfg0.win 4).blk t).view.emb (ix2 0 q)) 1)
  congr 1
  apply Fin.ext
  show q.val = win0_4.index t (1 : Fin 2) * 1024 + 1 * q.val
  rw [(idx0_4 t).2]; omega

/-- The first region's result array after the region. -/
theorem final0 (c : Dev nD) : (dat0 (V1 m ρ) c).arrAt 4 cfg0.N = csArr m c :=
  (dat0 (V1 m ρ) c).arrAt_eq_of_cover 4 (csArr m c) (fun t hf => flushed0_eq m ρ c t hf) cover0_4

/-! ## The cell region -/

/-- The eighteen blocks grid point `t` loads. -/
abbrev blkOf (c : Dev nD) (t : Fin cfg1.N) : KPay.Blk Ideal :=
  ⟨iblk1 (V3 m ρ) c 0 t, iblk1 (V3 m ρ) c 1 t, iblk1 (V3 m ρ) c 2 t, iblk1 (V3 m ρ) c 3 t, iblk1 (V3 m ρ) c 4 t, iblk1 (V3 m ρ) c 5 t, iblk1 (V3 m ρ) c 6 t, iblk1 (V3 m ρ) c 7 t, iblk1 (V3 m ρ) c 8 t, iblk1 (V3 m ρ) c 9 t, iblk1 (V3 m ρ) c 10 t, iblk1 (V3 m ρ) c 11 t, iblk1 (V3 m ρ) c 12 t, iblk1 (V3 m ρ) c 13 t, iblk1 (V3 m ρ) c 14 t, iblk1 (V3 m ρ) c 15 t, iblk1 (V3 m ρ) c 16 t, iblk1 (V3 m ρ) c 17 t⟩

set_option backward.isDefEq.respectTransparency.types false in
set_option maxHeartbeats 2000000 in
theorem ties (c : Dev nD) (t : Fin cfg1.N) :
    Cert.KSpec.Ties (argsK m c) ⟨t.val, lt_of_lt_of_eq t.isLt N1_eq⟩ (blkOf m ρ c t) where
  xb := blk1_w0 m ρ c t
  hb := blk1_w1 m ρ c t
  pmb := blk1_w2 m ρ c t
  csb := fun q => (blk1_w3 m ρ c t q).trans (congrFun (final0 m ρ c) (ix2 0 q))
  Wa := blk1_w4 m ρ c t
  ba := blk1_w5 m ρ c t
  Wru := blk1_w6 m ρ c t
  bru := blk1_w7 m ρ c t
  Wn := blk1_w8 m ρ c t
  bn := blk1_w9 m ρ c t
  Wread := blk1_w10 m ρ c t
  bread := blk1_w11 m ρ c t
  Wwrite := blk1_w12 m ρ c t
  bwrite := blk1_w13 m ρ c t
  Wforget := blk1_w14 m ρ c t
  bforget := blk1_w15 m ρ c t
  Waddr := blk1_w16 m ρ c t
  baddr := blk1_w17 m ρ c t

set_option backward.isDefEq.respectTransparency.types false in
set_option maxHeartbeats 2000000 in
/-- What point `t` writes back to the first result is the specification's final hidden state on the block's rows. -/
theorem flushed18_eq (c : Dev nD) (t : Fin cfg1.N) :
    (dat1 (V3 m ρ) c).flushed 18 t = ((cfg1.win 18).blk t).view.read (Elt Ideal) (Cert.Spec.res0 (argsK m c)) := by
  have hN : t.val < 32 := lt_of_lt_of_eq t.isLt N1_eq
  have e : (dat1 (V3 m ρ) c).after 18 t = KPay.out0 (blkOf m ρ c t) :=
    (after1_18 (V3 m ρ) c t).trans (out1_18_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) (iblk1 (V3 m ρ) c 7 t) (iblk1 (V3 m ρ) c 8 t) (iblk1 (V3 m ρ) c 9 t) (iblk1 (V3 m ρ) c 10 t) (iblk1 (V3 m ρ) c 11 t) (iblk1 (V3 m ρ) c 12 t) (iblk1 (V3 m ρ) c 13 t) (iblk1 (V3 m ρ) c 14 t) (iblk1 (V3 m ρ) c 15 t) (iblk1 (V3 m ρ) c 16 t) (iblk1 (V3 m ρ) c 17 t))
  have hK : KPay.out0 (blkOf m ρ c t)
      = fun y : S256x1024.Idx => Cert.Spec.out0 (argsK m c) ⟨t.val * 256 + (y 0).val, by have h : (y 0).val < 256 := (y 0).isLt; omega⟩ (y 1) := by
    funext y
    obtain ⟨p, q, rfl⟩ : ∃ (p : Fin 256) (q : Fin 1024), y = ix2 p q := ⟨y 0, y 1, eq_ix2 y⟩
    exact Cert.KSpec.out0_apply (ties m ρ c t) p q
  show (cfg1.win 18).cut (grid1.coords t) ((dat1 (V3 m ρ) c).after 18 t) = _
  rw [e, hK]
  funext y
  refine congrArg₂ (Cert.Spec.out0 (argsK m c)) (Fin.ext ?_) (Fin.ext ?_)
  · show t.val * 256 + (y 0).val = win1_18.index t (0 : Fin 2) * 256 + 1 * (y 0).val
    rw [(idx1_18 t).1]; omega
  · show (y 1).val = win1_18.index t (1 : Fin 2) * 1024 + 1 * (y 1).val
    rw [(idx1_18 t).2]; omega

set_option backward.isDefEq.respectTransparency.types false in
set_option maxHeartbeats 2000000 in
/-- The same for the second result, the new memory. -/
theorem flushed19_eq (c : Dev nD) (t : Fin cfg1.N) :
    (dat1 (V3 m ρ) c).flushed 19 t = ((cfg1.win 19).blk t).view.read (Elt Ideal) (Cert.Spec.res1 (argsK m c)) := by
  have hN : t.val < 32 := lt_of_lt_of_eq t.isLt N1_eq
  have e : (dat1 (V3 m ρ) c).after 19 t = KPay.out1 (blkOf m ρ c t) :=
    (after1_19 (V3 m ρ) c t).trans (out1_19_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) (iblk1 (V3 m ρ) c 7 t) (iblk1 (V3 m ρ) c 8 t) (iblk1 (V3 m ρ) c 9 t) (iblk1 (V3 m ρ) c 10 t) (iblk1 (V3 m ρ) c 11 t) (iblk1 (V3 m ρ) c 12 t) (iblk1 (V3 m ρ) c 13 t) (iblk1 (V3 m ρ) c 14 t) (iblk1 (V3 m ρ) c 15 t) (iblk1 (V3 m ρ) c 16 t) (iblk1 (V3 m ρ) c 17 t))
  have hK : KPay.out1 (blkOf m ρ c t)
      = fun y : S256x2048.Idx => Cert.Spec.mem (argsK m c) ⟨t.val * 256 + (y 0).val, by have h : (y 0).val < 256 := (y 0).isLt; omega⟩ (y 1) := by
    funext y
    obtain ⟨p, q, rfl⟩ : ∃ (p : Fin 256) (q : Fin 2048), y = ix2 p q := ⟨y 0, y 1, eq_ix2 y⟩
    exact Cert.KSpec.out1_apply (ties m ρ c t) p q
  show (cfg1.win 19).cut (grid1.coords t) ((dat1 (V3 m ρ) c).after 19 t) = _
  rw [e, hK]
  funext y
  refine congrArg₂ (Cert.Spec.mem (argsK m c)) (Fin.ext ?_) (Fin.ext ?_)
  · show t.val * 256 + (y 0).val = win1_19.index t (0 : Fin 2) * 256 + 1 * (y 0).val
    rw [(idx1_19 t).1]; omega
  · show (y 1).val = win1_19.index t (1 : Fin 2) * 2048 + 1 * (y 1).val
    rw [(idx1_19 t).2]; omega

theorem final18 (c : Dev nD) : (dat1 (V3 m ρ) c).arrAt 18 cfg1.N = Cert.Spec.res0 (argsK m c) :=
  (dat1 (V3 m ρ) c).arrAt_eq_of_cover 18 (Cert.Spec.res0 (argsK m c)) (fun t _ => flushed18_eq m ρ c t) cover18

theorem final19 (c : Dev nD) : (dat1 (V3 m ρ) c).arrAt 19 cfg1.N = Cert.Spec.res1 (argsK m c) :=
  (dat1 (V3 m ρ) c).arrAt_eq_of_cover 19 (Cert.Spec.res1 (argsK m c)) (fun t _ => flushed19_eq m ρ c t) cover19

/-! ## The run, read -/

/-- Every weakly fair execution of the idealized kernel program terminates with its two results at the specification's
    functions of the arguments, and the arguments unchanged. -/
theorem run_spec : θ_run defs (onTc (τ := τ) (main (F := Ideal))) ⟨m, fun _ => 0, ρ⟩ (fun r => ∀ c : Dev nD,
      r.2.mem ((c.tc : Thread nD τ).loc main_v20_0) = Cert.Spec.res0 (argsK m c)
      ∧ r.2.mem ((c.tc : Thread nD τ).loc main_v20_1) = Cert.Spec.res1 (argsK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h c => ⟨(h c _ (mem_uc main_v20_0 (by decide))).trans ((W4_arr m ρ c 18).trans (final18 m ρ c)),
    (h c _ (mem_uc main_v20_1 (by decide))).trans ((W4_arr m ρ c 19).trans (final19 m ρ c)),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c),
    (h c _ (mem_uc main_arg12 (by decide))).trans (W4_main_arg12 m ρ c),
    (h c _ (mem_uc main_arg13 (by decide))).trans (W4_main_arg13 m ρ c),
    (h c _ (mem_uc main_arg14 (by decide))).trans (W4_main_arg14 m ρ c),
    (h c _ (mem_uc main_arg15 (by decide))).trans (W4_main_arg15 m ρ c),
    (h c _ (mem_uc main_arg16 (by decide))).trans (W4_main_arg16 m ρ c),
    (h c _ (mem_uc main_arg17 (by decide))).trans (W4_main_arg17 m ρ c),
    (h c _ (mem_uc main_arg18 (by decide))).trans (W4_main_arg18 m ρ c),
    (h c _ (mem_uc main_arg19 (by decide))).trans (W4_main_arg19 m ρ c),
    (h c _ (mem_uc main_arg20 (by decide))).trans (W4_main_arg20 m ρ c),
    (h c _ (mem_uc main_arg21 (by decide))).trans (W4_main_arg21 m ρ c)⟩) (run_all m ρ)

end Cert.KernelIdeal.Hand

end
-- ==== Proof.RefSpecBase.lean ====
/-
  Common ground for reading the reference program stage by stage: the argument record of a memory, the constants
  the program spells as words (one, zero, minus infinity), the expanded logistic function, and the index
  bookkeeping shared by every stage.
-/
import proofs.«132931_j11587821765036_2_alg».proof.Proof.Gen.ReferenceIdeal.Read
import proofs.«132931_j11587821765036_2_alg».proof.Proof.Spec
import Idealize.ShloMosaic.Lib.IdealHost
import Idealize.ShloMosaic.Lib.Pipeline.Value
import Idealize.ShloMosaic.PureOps.Reduce

noncomputable section

namespace Cert.RefSpec

open Idealize.ShloMosaic Idealize.ShloMosaic.ValueIdx Idealize.SL.Sem Cert.ReferenceIdeal

/-- The twenty-two argument arrays a memory holds on device `c`, in the program's order. -/
def argsOf (m : (ℓ : Loc Cert.ReferenceIdeal.nD Cert.ReferenceIdeal.τ Cert.ReferenceIdeal.sig) → Buf (Elt Ideal) ℓ)
    (c : Dev Cert.ReferenceIdeal.nD) : Cert.Spec.Args where
  x := m ((c.tc : Thread nD τ).loc main_arg0)
  h := m ((c.tc : Thread nD τ).loc main_arg1)
  pm := m ((c.tc : Thread nD τ).loc main_arg2)
  Wa := m ((c.tc : Thread nD τ).loc main_arg3)
  ba := m ((c.tc : Thread nD τ).loc main_arg4)
  Wr := m ((c.tc : Thread nD τ).loc main_arg5)
  br := m ((c.tc : Thread nD τ).loc main_arg6)
  Wu := m ((c.tc : Thread nD τ).loc main_arg7)
  bu := m ((c.tc : Thread nD τ).loc main_arg8)
  Wn := m ((c.tc : Thread nD τ).loc main_arg9)
  bn := m ((c.tc : Thread nD τ).loc main_arg10)
  Wread := m ((c.tc : Thread nD τ).loc main_arg11)
  bread := m ((c.tc : Thread nD τ).loc main_arg12)
  Wwrite := m ((c.tc : Thread nD τ).loc main_arg13)
  bwrite := m ((c.tc : Thread nD τ).loc main_arg14)
  Wforget := m ((c.tc : Thread nD τ).loc main_arg15)
  bforget := m ((c.tc : Thread nD τ).loc main_arg16)
  Waddr := m ((c.tc : Thread nD τ).loc main_arg17)
  baddr := m ((c.tc : Thread nD τ).loc main_arg18)
  strength := m ((c.tc : Thread nD τ).loc main_arg19)
  decay := m ((c.tc : Thread nD τ).loc main_arg20)
  hist := m ((c.tc : Thread nD τ).loc main_arg21)

/-- The absolute value of an extended real is the larger of it and its negation. -/
theorem hostAbsf_eq (x : Ideal .f32) : FloatOps.hostAbsf x = max x (-x) := rfl

/-- The word of minus infinity is the least extended real. -/
theorem ofBits_neg_inf_f32 : Ideal.ofBits .f32 0xFF800000#32 = ⊥ := by simp [Ideal.ofBits, Ideal.ieee]

/-- One over one plus the exponential of the negation, with the ones spelt as words, is the logistic function. -/
theorem sigmoid_eq (x : EReal) :
    Ideal.div (Ideal.ofBits .f32 0x3F800000#32) (Ideal.ofBits .f32 0x3F800000#32 + Ideal.exp (-x)) = Ideal.logistic x := by
  rw [Ideal.ofBits_one_f32]; rfl

/-- A fold of the maximum from the least element is the supremum. -/
theorem fold_max_bot {ι : Type} (s : Finset ι) (f : ι → EReal) :
    s.fold (FloatOps.maximumf (F := Ideal) (φ := .f32)) ⊥ f = s.sup f := rfl

end Cert.RefSpec

end
-- ==== Proof.RefSpecA.lean ====
/-
  The connection strength: the reference's stage for it (the strength times the logistic function of the decayed
  history plus the batch mean of the absolute hidden state), read at a hidden unit, is the specification's.
-/
import proofs.«132931_j11587821765036_2_alg».proof.Proof.RefSpecBase

noncomputable section

namespace Cert.RefSpec

open Idealize.ShloMosaic Idealize.ShloMosaic.ValueIdx Cert.ReferenceIdeal Cert.ReferenceIdeal.Read Cert.Spec

variable (A : Cert.Spec.Args)

/-- The batch sum's operand index at row `k` of column `j`. -/
theorem idx_v1 (j : Fin 1024) (k : Fin 8192) : idx_main_v1 (ix1 j) k = ix2 k j :=
  funext fun a => Fin.ext (by match a with | ⟨0, _⟩ => rfl | ⟨1, _⟩ => rfl)

/-- The decay's one entry, wherever it is broadcast to. -/
theorem idx_v4 (j : Fin 1024) : idx_main_v4 (ix1 j) = ix1 (0 : Fin 1) :=
  funext fun a => Fin.ext (by match a with | ⟨0, _⟩ => rfl)

/-- The connection-strength stage at hidden unit `j`. -/
theorem cs_eq (j : Fin 1024) :
    val_main_v13 (F := Ideal) A.h A.strength A.decay A.hist (ix1 j) = Cert.Spec.cs A j := by
  rw [val_main_v13_apply, val_main_v12_apply, val_main_v11_apply, val_main_cst_2_apply, val_main_v10_apply,
    val_main_v9_apply, val_main_cst_1_apply, val_main_v8_apply, val_main_v7_apply, val_main_v6_apply,
    val_main_v5_apply, val_main_v4_apply, val_main_v3_apply, val_main_v2_apply, val_main_cst_0_apply,
    val_main_v1_apply, val_main_cst_apply]
  simp only [val_main_v0_apply, idx_v1, idx_v4, hostAbsf_eq, Ideal.hostDivf_def, Ideal.ofBits_def, Ideal.addf_def,
    Ideal.mulf_def, Ideal.hostUnary_exp_def, Ideal.hostNegf_def, Ideal.negf_def, Ideal.ofBits_zero_f32, zero_add,
    sigmoid_eq]
  rfl

end Cert.RefSpec

end
-- ==== Proof.RefSpecB.lean ====
/-
  The attention gate and the attended hidden state: the reference's stages for them, read at a row and a hidden
  unit, are the specification's.  The gate is a matrix product with the transposed weight (entry (k, j) of the
  transpose is entry (j, k) of the weight), a bias broadcast along the rows, and the expanded logistic function.
-/
import proofs.«132931_j11587821765036_2_alg».proof.Proof.RefSpecBase

noncomputable section

namespace Cert.RefSpec

open Idealize.ShloMosaic Idealize.ShloMosaic.ValueIdx Cert.ReferenceIdeal Cert.ReferenceIdeal.Read Cert.Spec

variable (A : Cert.Spec.Args)

/-- The left operand of the gate's product at (r, j), term k: the hidden state at (r, k). -/
theorem lidx_v15 (r : Fin 8192) (j k : Fin 1024) : lidx_main_v15 (ix2 r j) k = ix2 r k :=
  funext fun a => Fin.ext (by match a with | ⟨0, _⟩ => rfl | ⟨1, _⟩ => rfl)

/-- The right operand, through the transposition: the weight at (j, k). -/
theorem ridx_v15 (r : Fin 8192) (j k : Fin 1024) : idx_main_v14 (ridx_main_v15 (ix2 r j) k) = ix2 j k :=
  funext fun a => Fin.ext (by match a with | ⟨0, _⟩ => rfl | ⟨1, _⟩ => rfl)

/-- The bias, through its two broadcasts: entry j. -/
theorem idx_v17 (r : Fin 8192) (j : Fin 1024) : idx_main_v16 (idx_main_v17 (ix2 r j)) = ix1 j :=
  funext fun a => Fin.ext (by match a with | ⟨0, _⟩ => rfl)

/-- The attention gate's stage at row `r`, unit `j`. -/
theorem att_eq (r : Fin 8192) (j : Fin 1024) :
    val_main_v24 (F := Ideal) A.h A.Wa A.ba (ix2 r j) = Cert.Spec.att A r j := by
  rw [val_main_v24_apply, val_main_v23_apply, val_main_cst_4_apply, val_main_v22_apply, val_main_v21_apply,
    val_main_cst_3_apply, val_main_v20_apply, val_main_v19_apply, val_main_v18_apply, val_main_v15_apply,
    val_main_v17_apply, val_main_v16_apply]
  simp only [val_main_v14_apply, lidx_v15, ridx_v15, idx_v17, Ideal.hostDivf_def, Ideal.ofBits_def, Ideal.addf_def,
    Ideal.hostUnary_exp_def, Ideal.hostNegf_def, Ideal.negf_def, sigmoid_eq]
  rfl

/-- The attended hidden state's stage at row `r`, unit `j`. -/
theorem ha_eq (r : Fin 8192) (j : Fin 1024) :
    val_main_v25 (F := Ideal) A.h A.Wa A.ba (ix2 r j) = Cert.Spec.ha A r j := by
  rw [val_main_v25_apply, att_eq]
  rfl

end Cert.RefSpec

end
-- ==== Proof.RefSpecC.lean ====
/-
  The reset and update gates.  Each is a matrix product of the row [x, attended hidden state] (two arrays joined
  along the columns: the first 1024 columns from the first, the last 1024 from the second) with a transposed weight,
  plus a bias broadcast along the rows.
-/
import proofs.«132931_j11587821765036_2_alg».proof.Proof.RefSpecB

noncomputable section

namespace Cert.RefSpec

open Idealize.ShloMosaic Idealize.ShloMosaic.ValueIdx Cert.ReferenceIdeal Cert.ReferenceIdeal.Read Cert.Spec

variable (A : Cert.Spec.Args)

/-- Two arrays joined along the columns, read at row `r` and column `k`. -/
theorem cat_apply (h : Shape.Concatenates [S8192x1024, S8192x1024] S8192x2048 1)
    (x0 y : (⟨S8192x1024, .f32⟩ : BufTy).Contents (Elt Ideal)) (r : Fin 8192) (k : Fin 2048) :
    concatenate S8192x2048 1 [⟨S8192x1024, x0⟩, ⟨S8192x1024, y⟩] h (ix2 r k)
      = if hk : k.val < 1024 then x0 (ix2 r ⟨k.val, hk⟩) else y (ix2 r ⟨k.val - 1024, by omega⟩) := by
  by_cases hk : k.val < 1024
  · rw [dif_pos hk]
    exact concatenate_pair_apply_left 1 x0 y h (ix2 r k) rfl (ix2 r ⟨k.val, hk⟩)
      (fun b => match b with | ⟨0, _⟩ => rfl | ⟨1, _⟩ => rfl)
  · rw [dif_neg hk]
    exact concatenate_pair_apply_right 1 x0 y h (ix2 r k) rfl rfl (ix2 r ⟨k.val - 1024, by omega⟩)
      (fun b hb => match b, hb with | ⟨0, _⟩, _ => rfl | ⟨1, _⟩, hb => absurd rfl hb)
      (by show (k.val - 1024) + 1024 = k.val; omega)

/-- The joined row [x, attended hidden state] at row `r`, column `k`. -/
theorem cat_ha_eq (r : Fin 8192) (k : Fin 2048) :
    val_main_v26 (F := Ideal) A.x A.h A.Wa A.ba (ix2 r k) = Cert.Spec.cat A r (Cert.Spec.ha A r) k := by
  unfold val_main_v26 Cert.Spec.cat
  rw [cat_apply]
  by_cases hk : k.val < 1024
  · rw [dif_pos hk, dif_pos hk]
  · rw [dif_neg hk, dif_neg hk, ha_eq]

/-- The left operand of a gate's product at (r, j), term k: the joined row at (r, k). -/
theorem lidx_v28 (r : Fin 8192) (j : Fin 1024) (k : Fin 2048) : lidx_main_v28 (ix2 r j) k = ix2 r k :=
  funext fun a => Fin.ext (by match a with | ⟨0, _⟩ => rfl | ⟨1, _⟩ => rfl)

/-- The right operand, through the transposition: the weight at (j, k). -/
theorem ridx_v28 (r : Fin 8192) (j : Fin 1024) (k : Fin 2048) : idx_main_v27 (ridx_main_v28 (ix2 r j) k) = ix2 j k :=
  funext fun a => Fin.ext (by match a with | ⟨0, _⟩ => rfl | ⟨1, _⟩ => rfl)

/-- The bias, through its two broadcasts: entry j. -/
theorem idx_v30 (r : Fin 8192) (j : Fin 1024) : idx_main_v29 (idx_main_v30 (ix2 r j)) = ix1 j :=
  funext fun a => Fin.ext (by match a with | ⟨0, _⟩ => rfl)

/-- The reset gate's stage at row `r`, unit `j`. -/
theorem reset_eq (r : Fin 8192) (j : Fin 1024) :
    val_main_v31 (F := Ideal) A.x A.h A.Wa A.ba A.Wr A.br (ix2 r j) = Cert.Spec.reset A r j := by
  rw [val_main_v31_apply, val_main_v28_apply, val_main_v30_apply, val_main_v29_apply]
  simp only [val_main_v27_apply, lidx_v28, ridx_v28, idx_v30, cat_ha_eq, Ideal.addf_def]
  rfl

theorem lidx_v33 (r : Fin 8192) (j : Fin 1024) (k : Fin 2048) : lidx_main_v33 (ix2 r j) k = ix2 r k :=
  funext fun a => Fin.ext (by match a with | ⟨0, _⟩ => rfl | ⟨1, _⟩ => rfl)

theorem ridx_v33 (r : Fin 8192) (j : Fin 1024) (k : Fin 2048) : idx_main_v32 (ridx_main_v33 (ix2 r j) k) = ix2 j k :=
  funext fun a => Fin.ext (by match a with | ⟨0, _⟩ => rfl | ⟨1, _⟩ => rfl)

theorem idx_v35 (r : Fin 8192) (j : Fin 1024) : idx_main_v34 (idx_main_v35 (ix2 r j)) = ix1 j :=
  funext fun a => Fin.ext (by match a with | ⟨0, _⟩ => rfl)

/-- The update gate's stage at row `r`, unit `j`. -/
theorem update_eq (r : Fin 8192) (j : Fin 1024) :
    val_main_v36 (F := Ideal) A.x A.h A.Wa A.ba A.Wu A.bu (ix2 r j) = Cert.Spec.update A r j := by
  rw [val_main_v36_apply, val_main_v33_apply, val_main_v35_apply, val_main_v34_apply]
  simp only [val_main_v32_apply, lidx_v33, ridx_v33, idx_v35, cat_ha_eq, Ideal.addf_def]
  rfl

end Cert.RefSpec

end
-- ==== Proof.RefSpecD.lean ====
/-
  The candidate state and the new hidden state.  The candidate is a matrix product of the row [x, reset gate times
  attended hidden state] with a transposed weight, plus a bias; the new hidden state mixes the old one and the
  candidate by the (unactivated) update gate, the candidate's share scaled by the connection strength.
-/
import proofs.«132931_j11587821765036_2_alg».proof.Proof.RefSpecA
import proofs.«132931_j11587821765036_2_alg».proof.Proof.RefSpecC

noncomputable section

namespace Cert.RefSpec

open Idealize.ShloMosaic Idealize.ShloMosaic.ValueIdx Cert.ReferenceIdeal Cert.ReferenceIdeal.Read Cert.Spec

variable (A : Cert.Spec.Args)

/-- The reset gate times the attended hidden state at row `r`, unit `j`. -/
theorem rh_eq (r : Fin 8192) (j : Fin 1024) :
    val_main_v37 (F := Ideal) A.x A.h A.Wa A.ba A.Wr A.br (ix2 r j) = Cert.Spec.reset A r j * Cert.Spec.ha A r j := by
  rw [val_main_v37_apply, reset_eq, ha_eq]
  rfl

/-- The joined row [x, reset gate times attended hidden state] at row `r`, column `k`. -/
theorem cat_rh_eq (r : Fin 8192) (k : Fin 2048) :
    val_main_v38 (F := Ideal) A.x A.h A.Wa A.ba A.Wr A.br (ix2 r k)
      = Cert.Spec.cat A r (fun j' => Cert.Spec.reset A r j' * Cert.Spec.ha A r j') k := by
  unfold val_main_v38 Cert.Spec.cat
  rw [cat_apply]
  by_cases hk : k.val < 1024
  · rw [dif_pos hk, dif_pos hk]
  · rw [dif_neg hk, dif_neg hk, rh_eq]

theorem lidx_v40 (r : Fin 8192) (j : Fin 1024) (k : Fin 2048) : lidx_main_v40 (ix2 r j) k = ix2 r k :=
  funext fun a => Fin.ext (by match a with | ⟨0, _⟩ => rfl | ⟨1, _⟩ => rfl)

theorem ridx_v40 (r : Fin 8192) (j : Fin 1024) (k : Fin 2048) : idx_main_v39 (ridx_main_v40 (ix2 r j) k) = ix2 j k :=
  funext fun a => Fin.ext (by match a with | ⟨0, _⟩ => rfl | ⟨1, _⟩ => rfl)

theorem idx_v42 (r : Fin 8192) (j : Fin 1024) : idx_main_v41 (idx_main_v42 (ix2 r j)) = ix1 j :=
  funext fun a => Fin.ext (by match a with | ⟨0, _⟩ => rfl)

/-- The candidate state's stage at row `r`, unit `j`. -/
theorem new_eq (r : Fin 8192) (j : Fin 1024) :
    val_main_v43 (F := Ideal) A.x A.h A.Wa A.ba A.Wr A.br A.Wn A.bn (ix2 r j) = Cert.Spec.new A r j := by
  rw [val_main_v43_apply, val_main_v40_apply, val_main_v42_apply, val_main_v41_apply]
  simp only [val_main_v39_apply, lidx_v40, ridx_v40, idx_v42, cat_rh_eq, Ideal.addf_def]
  rfl

/-- The connection strength, through its two broadcasts: entry j. -/
theorem idx_v49 (r : Fin 8192) (j : Fin 1024) : idx_main_v48 (idx_main_v49 (ix2 r j)) = ix1 j :=
  funext fun a => Fin.ext (by match a with | ⟨0, _⟩ => rfl)

/-- The new hidden state's stage at row `r`, unit `j`. -/
theorem hn_eq (r : Fin 8192) (j : Fin 1024) :
    val_main_v51 (F := Ideal) A.x A.h A.Wa A.ba A.Wr A.br A.Wu A.bu A.Wn A.bn A.strength A.decay A.hist (ix2 r j) = Cert.Spec.hn A r j := by
  rw [val_main_v51_apply, val_main_v46_apply, val_main_v45_apply, val_main_v44_apply, val_main_cst_5_apply,
    val_main_v50_apply, val_main_v47_apply, val_main_v49_apply, val_main_v48_apply, update_eq, new_eq, idx_v49, cs_eq]
  rfl

end Cert.RefSpec

end
-- ==== Proof.RefSpecE.lean ====
/-
  The memory's four gates.  Each has logits that are a matrix product of the new hidden state with a transposed
  weight plus a bias broadcast along the rows; the read, write and forget gates apply the expanded logistic function
  to theirs (the address gate's softmax is read separately).
-/
import proofs.«132931_j11587821765036_2_alg».proof.Proof.RefSpecD

noncomputable section

namespace Cert.RefSpec

open Idealize.ShloMosaic Idealize.ShloMosaic.ValueIdx Cert.ReferenceIdeal Cert.ReferenceIdeal.Read Cert.Spec

variable (A : Cert.Spec.Args)

theorem lidx_v53 (r : Fin 8192) (p : Fin 2048) (k : Fin 1024) : lidx_main_v53 (ix2 r p) k = ix2 r k :=
  funext fun a => Fin.ext (by match a with | ⟨0, _⟩ => rfl | ⟨1, _⟩ => rfl)

theorem ridx_v53 (r : Fin 8192) (p : Fin 2048) (k : Fin 1024) : idx_main_v52 (ridx_main_v53 (ix2 r p) k) = ix2 p k :=
  funext fun a => Fin.ext (by match a with | ⟨0, _⟩ => rfl | ⟨1, _⟩ => rfl)

theorem idx_v55 (r : Fin 8192) (p : Fin 2048) : idx_main_v54 (idx_main_v55 (ix2 r p)) = ix1 p :=
  funext fun a => Fin.ext (by match a with | ⟨0, _⟩ => rfl)

/-- The address gate's logits at row `r`, slot `p`. -/
theorem logits_addr_eq (r : Fin 8192) (p : Fin 2048) :
    val_main_v56 (F := Ideal) A.x A.h A.Wa A.ba A.Wr A.br A.Wu A.bu A.Wn A.bn A.Waddr A.baddr A.strength A.decay A.hist (ix2 r p) = Cert.Spec.logits A A.Waddr A.baddr r p := by
  rw [val_main_v56_apply, val_main_v53_apply, val_main_v55_apply, val_main_v54_apply]
  simp only [val_main_v52_apply, lidx_v53, ridx_v53, idx_v55, hn_eq, Ideal.addf_def]
  rfl

theorem lidx_v69 (r : Fin 8192) (p : Fin 2048) (k : Fin 1024) : lidx_main_v69 (ix2 r p) k = ix2 r k :=
  funext fun a => Fin.ext (by match a with | ⟨0, _⟩ => rfl | ⟨1, _⟩ => rfl)

theorem ridx_v69 (r : Fin 8192) (p : Fin 2048) (k : Fin 1024) : idx_main_v68 (ridx_main_v69 (ix2 r p) k) = ix2 p k :=
  funext fun a => Fin.ext (by match a with | ⟨0, _⟩ => rfl | ⟨1, _⟩ => rfl)

theorem idx_v71 (r : Fin 8192) (p : Fin 2048) : idx_main_v70 (idx_main_v71 (ix2 r p)) = ix1 p :=
  funext fun a => Fin.ext (by match a with | ⟨0, _⟩ => rfl)

/-- The read gate's logits at row `r`, slot `p`. -/
theorem logits_read_eq (r : Fin 8192) (p : Fin 2048) :
    val_main_v72 (F := Ideal) A.x A.h A.Wa A.ba A.Wr A.br A.Wu A.bu A.Wn A.bn A.Wread A.bread A.strength A.decay A.hist (ix2 r p) = Cert.Spec.logits A A.Wread A.bread r p := by
  rw [val_main_v72_apply, val_main_v69_apply, val_main_v71_apply, val_main_v70_apply]
  simp only [val_main_v68_apply, lidx_v69, ridx_v69, idx_v71, hn_eq, Ideal.addf_def]
  rfl

/-- The read gate's stage at row `r`, slot `p`. -/
theorem rd_eq (r : Fin 8192) (p : Fin 2048) :
    val_main_v78 (F := Ideal) A.x A.h A.Wa A.ba A.Wr A.br A.Wu A.bu A.Wn A.bn A.Wread A.bread A.strength A.decay A.hist (ix2 r p) = Cert.Spec.rd A r p := by
  rw [val_main_v78_apply, val_main_v77_apply, val_main_cst_10_apply, val_main_v76_apply,
    val_main_v75_apply, val_main_cst_9_apply, val_main_v74_apply, val_main_v73_apply, logits_read_eq]
  simp only [Ideal.hostDivf_def, Ideal.ofBits_def, Ideal.addf_def, Ideal.hostUnary_exp_def, Ideal.hostNegf_def,
    Ideal.negf_def, sigmoid_eq]
  rfl

theorem lidx_v80 (r : Fin 8192) (p : Fin 2048) (k : Fin 1024) : lidx_main_v80 (ix2 r p) k = ix2 r k :=
  funext fun a => Fin.ext (by match a with | ⟨0, _⟩ => rfl | ⟨1, _⟩ => rfl)

theorem ridx_v80 (r : Fin 8192) (p : Fin 2048) (k : Fin 1024) : idx_main_v79 (ridx_main_v80 (ix2 r p) k) = ix2 p k :=
  funext fun a => Fin.ext (by match a with | ⟨0, _⟩ => rfl | ⟨1, _⟩ => rfl)

theorem idx_v82 (r : Fin 8192) (p : Fin 2048) : idx_main_v81 (idx_main_v82 (ix2 r p)) = ix1 p :=
  funext fun a => Fin.ext (by match a with | ⟨0, _⟩ => rfl)

/-- The write gate's logits at row `r`, slot `p`. -/
theorem logits_write_eq (r : Fin 8192) (p : Fin 2048) :
    val_main_v83 (F := Ideal) A.x A.h A.Wa A.ba A.Wr A.br A.Wu A.bu A.Wn A.bn A.Wwrite A.bwrite A.strength A.decay A.hist (ix2 r p) = Cert.Spec.logits A A.Wwrite A.bwrite r p := by
  rw [val_main_v83_apply, val_main_v80_apply, val_main_v82_apply, val_main_v81_apply]
  simp only [val_main_v79_apply, lidx_v80, ridx_v80, idx_v82, hn_eq, Ideal.addf_def]
  rfl

/-- The write gate's stage at row `r`, slot `p`. -/
theorem wr_eq (r : Fin 8192) (p : Fin 2048) :
    val_main_v89 (F := Ideal) A.x A.h A.Wa A.ba A.Wr A.br A.Wu A.bu A.Wn A.bn A.Wwrite A.bwrite A.strength A.decay A.hist (ix2 r p) = Cert.Spec.wr A r p := by
  rw [val_main_v89_apply, val_main_v88_apply, val_main_cst_12_apply, val_main_v87_apply,
    val_main_v86_apply, val_main_cst_11_apply, val_main_v85_apply, val_main_v84_apply, logits_write_eq]
  simp only [Ideal.hostDivf_def, Ideal.ofBits_def, Ideal.addf_def, Ideal.hostUnary_exp_def, Ideal.hostNegf_def,
    Ideal.negf_def, sigmoid_eq]
  rfl

theorem lidx_v91 (r : Fin 8192) (p : Fin 2048) (k : Fin 1024) : lidx_main_v91 (ix2 r p) k = ix2 r k :=
  funext fun a => Fin.ext (by match a with | ⟨0, _⟩ => rfl | ⟨1, _⟩ => rfl)

theorem ridx_v91 (r : Fin 8192) (p : Fin 2048) (k : Fin 1024) : idx_main_v90 (ridx_main_v91 (ix2 r p) k) = ix2 p k :=
  funext fun a => Fin.ext (by match a with | ⟨0, _⟩ => rfl | ⟨1, _⟩ => rfl)

theorem idx_v93 (r : Fin 8192) (p : Fin 2048) : idx_main_v92 (idx_main_v93 (ix2 r p)) = ix1 p :=
  funext fun a => Fin.ext (by match a with | ⟨0, _⟩ => rfl)

/-- The forget gate's logits at row `r`, slot `p`. -/
theorem logits_forget_eq (r : Fin 8192) (p : Fin 2048) :
    val_main_v94 (F := Ideal) A.x A.h A.Wa A.ba A.Wr A.br A.Wu A.bu A.Wn A.bn A.Wforget A.bforget A.strength A.decay A.hist (ix2 r p) = Cert.Spec.logits A A.Wforget A.bforget r p := by
  rw [val_main_v94_apply, val_main_v91_apply, val_main_v93_apply, val_main_v92_apply]
  simp only [val_main_v90_apply, lidx_v91, ridx_v91, idx_v93, hn_eq, Ideal.addf_def]
  rfl

/-- The forget gate's stage at row `r`, slot `p`. -/
theorem fg_eq (r : Fin 8192) (p : Fin 2048) :
    val_main_v100 (F := Ideal) A.x A.h A.Wa A.ba A.Wr A.br A.Wu A.bu A.Wn A.bn A.Wforget A.bforget A.strength A.decay A.hist (ix2 r p) = Cert.Spec.fg A r p := by
  rw [val_main_v100_apply, val_main_v99_apply, val_main_cst_14_apply, val_main_v98_apply,
    val_main_v97_apply, val_main_cst_13_apply, val_main_v96_apply, val_main_v95_apply, logits_forget_eq]
  simp only [Ideal.hostDivf_def, Ideal.ofBits_def, Ideal.addf_def, Ideal.hostUnary_exp_def, Ideal.hostNegf_def,
    Ideal.negf_def, sigmoid_eq]
  rfl

end Cert.RefSpec

end
-- ==== Proof.RefSpecF.lean ====
/-
  The address gate's softmax.  The row maximum is a fold of the maximum from minus infinity over the row, which on
  the extended reals is the supremum over the row (minus infinity is the least element); the program also takes the
  maximum of minus infinity and that, which changes nothing.  The numerator is the exponential of the logit less the
  row's supremum, and the denominator the row's sum of numerators from a zero initial value.
-/
import proofs.«132931_j11587821765036_2_alg».proof.Proof.RefSpecE

noncomputable section

namespace Cert.RefSpec

open Idealize.ShloMosaic Idealize.ShloMosaic.ValueIdx Cert.ReferenceIdeal Cert.ReferenceIdeal.Read Cert.Spec

variable (A : Cert.Spec.Args)

/-- A fold of the maximum along the columns from minus infinity, read at row `r`: the supremum over the row. -/
theorem rowmax_apply (h' : S8192x2048.ReducesTo [1] S8192) (hu : 0 < S_.numel)
    (y : (⟨S8192x2048, .f32⟩ : BufTy).Contents (Elt Ideal)) (r : Fin 8192) :
    Host.reduce (FloatOps.maximumf (F := Ideal) (φ := .f32)) y (val_main_cst_6 (F := Ideal)) h' hu (ix1 r)
      = Finset.univ.sup fun p : Fin 2048 => y (ix2 r p) := by
  have h : S8192x2048.Reduces [1] S8192 := by decide
  rw [Host.reduce_eq_fold_single (FloatOps.maximumf (F := Ideal) (φ := .f32)) y _ h' h hu (ix1 r), val_main_cst_6_apply, Ideal.ofBits_def,
    ofBits_neg_inf_f32, fold_max_bot]
  refine congrArg (Finset.univ.sup) (funext fun p => ?_)
  exact congrArg y (funext fun a => Fin.ext (by match a with | ⟨0, _⟩ => rfl | ⟨1, _⟩ => rfl))

/-- The row maximum's stage at row `r`. -/
theorem rowmax_eq (r : Fin 8192) :
    val_main_v57 (F := Ideal) A.x A.h A.Wa A.ba A.Wr A.br A.Wu A.bu A.Wn A.bn A.Waddr A.baddr A.strength A.decay A.hist (ix1 r)
      = Finset.univ.sup fun p' : Fin 2048 => Cert.Spec.logits A A.Waddr A.baddr r p' := by
  unfold val_main_v57
  rw [rowmax_apply]
  simp only [logits_addr_eq]

/-- The row maximum, through its two broadcasts: entry r. -/
theorem idx_v61 (r : Fin 8192) (p : Fin 2048) : idx_main_v60 (idx_main_v61 (ix2 r p)) = ix1 r :=
  funext fun a => Fin.ext (by match a with | ⟨0, _⟩ => rfl)

/-- The softmax numerator's stage at row `r`, slot `p`. -/
theorem aexp_eq (r : Fin 8192) (p : Fin 2048) :
    val_main_v63 (F := Ideal) A.x A.h A.Wa A.ba A.Wr A.br A.Wu A.bu A.Wn A.bn A.Waddr A.baddr A.strength A.decay A.hist (ix2 r p) = Cert.Spec.aexp A r p := by
  rw [val_main_v63_apply, val_main_v62_apply, val_main_v61_apply, val_main_v60_apply, val_main_v59_apply,
    val_main_v58_apply, val_main_cst_7_apply, idx_v61, rowmax_eq, logits_addr_eq]
  simp only [Ideal.ofBits_def, Ideal.maximumf_def, Ideal.subf_def, Ideal.hostUnary_exp_def, ofBits_neg_inf_f32,
    max_bot_left]
  rfl

theorem idx_v64 (r : Fin 8192) (k : Fin 2048) : idx_main_v64 (ix1 r) k = ix2 r k :=
  funext fun a => Fin.ext (by match a with | ⟨0, _⟩ => rfl | ⟨1, _⟩ => rfl)

/-- The row sum, through its two broadcasts: entry r. -/
theorem idx_v66 (r : Fin 8192) (p : Fin 2048) : idx_main_v65 (idx_main_v66 (ix2 r p)) = ix1 r :=
  funext fun a => Fin.ext (by match a with | ⟨0, _⟩ => rfl)

/-- The address weights' stage at row `r`, slot `p`. -/
theorem addr_eq (r : Fin 8192) (p : Fin 2048) :
    val_main_v67 (F := Ideal) A.x A.h A.Wa A.ba A.Wr A.br A.Wu A.bu A.Wn A.bn A.Waddr A.baddr A.strength A.decay A.hist (ix2 r p) = Cert.Spec.addr A r p := by
  rw [val_main_v67_apply, val_main_v66_apply, val_main_v65_apply, idx_v66, val_main_v64_apply, val_main_cst_8_apply,
    aexp_eq]
  simp only [idx_v64, aexp_eq, Ideal.hostDivf_def, Ideal.ofBits_def, Ideal.ofBits_zero_f32, zero_add]
  rfl

end Cert.RefSpec

end
-- ==== Proof.RefSpecG.lean ====
/-
  The row mean of the new hidden state, the new memory and the final hidden state; then the two results as whole
  arrays.  A row mean is the row's sum from a zero initial value divided by the row's length, kept as a column and
  broadcast back along the row.
-/
import proofs.«132931_j11587821765036_2_alg».proof.Proof.RefSpecF

noncomputable section

namespace Cert.RefSpec

open Idealize.ShloMosaic Idealize.ShloMosaic.ValueIdx Cert.ReferenceIdeal Cert.ReferenceIdeal.Read Cert.Spec

variable (A : Cert.Spec.Args)

theorem idx_v106 (r : Fin 8192) (p : Fin 2048) : idx_main_v106 (ix2 r p) = ix2 r (0 : Fin 1) :=
  funext fun a => Fin.ext (by match a with | ⟨0, _⟩ => rfl | ⟨1, _⟩ => rfl)

theorem idx_v102 (r : Fin 8192) : idx_main_v102 (ix2 r (0 : Fin 1)) = ix1 r :=
  funext fun a => Fin.ext (by match a with | ⟨0, _⟩ => rfl)

theorem idx_v101 (r : Fin 8192) (k : Fin 1024) : idx_main_v101 (ix1 r) k = ix2 r k :=
  funext fun a => Fin.ext (by match a with | ⟨0, _⟩ => rfl | ⟨1, _⟩ => rfl)

/-- The new hidden state's row mean, broadcast along the memory's row: its stage at row `r`, slot `p`. -/
theorem hp_eq (r : Fin 8192) (p : Fin 2048) :
    val_main_v106 (F := Ideal) A.x A.h A.Wa A.ba A.Wr A.br A.Wu A.bu A.Wn A.bn A.strength A.decay A.hist (ix2 r p) = Cert.Spec.hp A r := by
  rw [val_main_v106_apply, idx_v106, val_main_v104_apply, val_main_v103_apply, val_main_cst_16_apply,
    val_main_v102_apply, idx_v102, val_main_v101_apply, val_main_cst_15_apply]
  simp only [idx_v101, hn_eq, Ideal.hostDivf_def, Ideal.ofBits_def, Ideal.ofBits_zero_f32, zero_add]
  rfl

/-- The new memory's stage at row `r`, slot `p`. -/
theorem mem_eq (r : Fin 8192) (p : Fin 2048) :
    val_main_v109 (F := Ideal) A.x A.h A.pm A.Wa A.ba A.Wr A.br A.Wu A.bu A.Wn A.bn A.Wwrite A.bwrite A.Wforget A.bforget A.Waddr A.baddr A.strength A.decay A.hist (ix2 r p) = Cert.Spec.mem A r p := by
  rw [val_main_v109_apply, val_main_v105_apply, val_main_v108_apply, val_main_v107_apply, fg_eq, wr_eq, hp_eq, addr_eq]
  rfl

theorem idx_v115 (r : Fin 8192) (j : Fin 1024) : idx_main_v115 (ix2 r j) = ix2 r (0 : Fin 1) :=
  funext fun a => Fin.ext (by match a with | ⟨0, _⟩ => rfl | ⟨1, _⟩ => rfl)

theorem idx_v112 (r : Fin 8192) : idx_main_v112 (ix2 r (0 : Fin 1)) = ix1 r :=
  funext fun a => Fin.ext (by match a with | ⟨0, _⟩ => rfl)

theorem idx_v111 (r : Fin 8192) (k : Fin 2048) : idx_main_v111 (ix1 r) k = ix2 r k :=
  funext fun a => Fin.ext (by match a with | ⟨0, _⟩ => rfl | ⟨1, _⟩ => rfl)

/-- The final hidden state's stage at row `r`, unit `j`. -/
theorem out0_eq (r : Fin 8192) (j : Fin 1024) :
    val_main_v116 (F := Ideal) A.x A.h A.pm A.Wa A.ba A.Wr A.br A.Wu A.bu A.Wn A.bn A.Wread A.bread A.Wwrite A.bwrite A.Wforget A.bforget A.Waddr A.baddr A.strength A.decay A.hist (ix2 r j) = Cert.Spec.out0 A r j := by
  rw [val_main_v116_apply, hn_eq, val_main_v115_apply, idx_v115, val_main_v114_apply, val_main_v113_apply,
    val_main_cst_18_apply, val_main_v112_apply, idx_v112, val_main_v111_apply, val_main_cst_17_apply]
  simp only [idx_v111, val_main_v110_apply, rd_eq, mem_eq, Ideal.hostDivf_def, Ideal.ofBits_def, Ideal.addf_def,
    Ideal.mulf_def, Ideal.ofBits_zero_f32, zero_add]
  rfl

/-- The first result, as an array: the final hidden state. -/
theorem res0_eq :
    val_main_v116 (F := Ideal) A.x A.h A.pm A.Wa A.ba A.Wr A.br A.Wu A.bu A.Wn A.bn A.Wread A.bread A.Wwrite A.bwrite A.Wforget A.bforget A.Waddr A.baddr A.strength A.decay A.hist = Cert.Spec.res0 A := by
  funext i
  obtain ⟨r, j, rfl⟩ : ∃ (r : Fin 8192) (j : Fin 1024), i = ix2 r j := ⟨i 0, i 1, eq_ix2 i⟩
  exact out0_eq A r j

/-- The second result, as an array: the new memory. -/
theorem res1_eq :
    val_main_v109 (F := Ideal) A.x A.h A.pm A.Wa A.ba A.Wr A.br A.Wu A.bu A.Wn A.bn A.Wwrite A.bwrite A.Wforget A.bforget A.Waddr A.baddr A.strength A.decay A.hist = Cert.Spec.res1 A := by
  funext i
  obtain ⟨r, p, rfl⟩ : ∃ (r : Fin 8192) (p : Fin 2048), i = ix2 r p := ⟨i 0, i 1, eq_ix2 i⟩
  exact mem_eq A r p

end Cert.RefSpec

end
-- ==== Proof.RefSpec.lean ====
/-
  The reference program's run, stated against the specification: every weakly fair execution terminates with the two
  result arrays equal to the specification's two arrays of the argument arrays, and the arguments unchanged.  The
  generated run gives each result as the operations' composed term; that term is the last stage, and the stages have
  been read index by index into the specification's functions.
-/
import proofs.«132931_j11587821765036_2_alg».proof.Proof.RefSpecG

noncomputable section

namespace Cert.RefSpec

open Idealize.ShloMosaic Idealize.ShloMosaic.TcCoe Idealize.SL.Sem Cert.ReferenceIdeal

/-- The reference's run ends with its results at the specification's values of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v116) = Cert.Spec.res0 (argsOf m c)
      ∧ r.2.mem ((c.tc : Thread nD τ).loc main_v109) = Cert.Spec.res1 (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono
    (fun _ h c => ⟨(h c).1.trans ((Read.val_main_v116_eq m c).trans (res0_eq (argsOf m c))),
      (h c).2.1.trans ((Read.val_main_v109_eq m c).trans (res1_eq (argsOf m c))), (h c).2.2⟩)
    (Value.run (F := Ideal) m ρ)

end Cert.RefSpec

end
-- ==== Proof.lean ====
/-
  The certificate's five claims.

  The three frames: each program runs to the end, faults nowhere and leaves its arguments as launched.  For the
  kernel program (read at the word level and at the ideal values) this is the run of its four segments — host
  operations, the connection-strength region with its carried accumulator, host operations, the cell region —
  read at the argument arrays; for the reference it is its run with the results dropped.

  The idealization rewrote no operation, so there is nothing to preserve.

  The algebraic claim: at the ideal values both programs end with the same two results, the final hidden state and
  the new memory of a gated recurrent cell with a persistent memory.  Both are one function of the twenty-two
  arguments (the specification): the reference computes it operation by operation; the kernel computes it block by
  block — column sums of |hidden| accumulated over four batch blocks and scaled by 2⁻¹³ where the reference divides one
  sum by 8192; the reset and update gates by one fused product sliced in two where the reference takes two products;
  matrix products in the transposed-weight form; 256 rows per grid point, each row depending on its own row of the
  inputs only — and sums over the extended reals may be regrouped freely, so no finiteness of the inputs is needed.
-/
import proofs.«132931_j11587821765036_2_alg».proof.Defs
import proofs.«132931_j11587821765036_2_alg».proof.Proof.Gen.Kernel
import proofs.«132931_j11587821765036_2_alg».proof.Proof.Gen.KernelIdeal
import proofs.«132931_j11587821765036_2_alg».proof.Proof.Gen.ReferenceIdeal
import proofs.«132931_j11587821765036_2_alg».proof.Proof.Gen.Pre_finite_inputs
import proofs.«132931_j11587821765036_2_alg».proof.Proof.RunBits
import proofs.«132931_j11587821765036_2_alg».proof.Proof.ValueIdeal
import proofs.«132931_j11587821765036_2_alg».proof.Proof.RefSpec
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2) (Cert.RefSpec.run m ρ)

theorem preserves : Cert.preserves_Kernel_KernelIdeal := trivial

/-- From memories agreeing on the arguments the two specification records are one record. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) :
    Cert.RefSpec.argsOf m' c = Cert.KernelIdeal.Hand.argsK m c := by
  obtain ⟨e0, e1, e2, e3, e4, e5, e6, e7, e8, e9, e10, e11, e12, e13, e14, e15, e16, e17, e18, e19, e20, e21⟩ := h
  unfold Cert.RefSpec.argsOf Cert.KernelIdeal.Hand.argsK
  congr 1

theorem algebraic : Cert.algebraic_KernelIdeal_ReferenceIdeal := by
  intro m ρ m' ρ' _ hagree
  refine ⟨fun c => Cert.Spec.res0 (Cert.KernelIdeal.Hand.argsK m c), fun c => Cert.Spec.res1 (Cert.KernelIdeal.Hand.argsK m c),
    Cert.KernelIdeal.Hand.run_spec m ρ, ?_⟩
  refine (θ_run Cert.ReferenceIdeal.defs _ _).mono (fun _ h c => ?_) (Cert.RefSpec.run m' ρ')
  have e := args_eq m m' c (hagree c)
  exact ⟨(h c).1.trans (congrArg Cert.Spec.res0 e), (h c).2.1.trans (congrArg Cert.Spec.res1 e), (h c).2.2⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
